-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S128x256 : S_.BroadcastsInDim S128x256 (![] : Fin 0 → Fin S128x256.rank)
  reducesTo_S128x256_S_d0_1 : S128x256.ReducesTo [0, 1] S_

variable [Facts]

def fn_part5 {F : FTy → Type} [FloatOps F] (main_arg19 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg15 : FVec F S128 .f32) (main_arg16 : FVec F S128x256 .f32) (main_arg17 : FVec F S128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x256 .f32 := Host.absf main_arg16
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128x128 .f32) (main_arg13 : FVec F S128 .f32) (main_arg14 : FVec F S128x1 .f32) (main_arg15 : FVec F S128 .f32) (main_arg16 : FVec F S128x256 .f32) (main_arg17 : FVec F S128 .f32) (main_arg18 : FVec F S128 .f32) (main_arg19 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg15 main_arg16 main_arg17 main_arg18 main_arg19 main_v63 main_v67

def fn_part2 {F : FTy → Type} [FloatOps F] (main_arg8 : FVec F S128x256 .f32) (main_arg9 : FVec F S128 .f32) (main_arg10 : FVec F S128 .f32) (main_arg11 : FVec F S128 .f32) (main_arg12 : FVec F S128x128 .f32) (main_arg13 : FVec F S128 .f32) (main_arg14 : FVec F S128x1 .f32) (main_arg15 : FVec F S128 .f32) (main_arg16 : FVec F S128x256 .f32) (main_arg17 : FVec F S128 .f32) (main_arg18 : FVec F S128 .f32) (main_arg19 : FVec F S128 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x1 .f32) (main_arg7 : FVec F S128 .f32) (main_arg8 : FVec F S128x256 .f32) (main_arg9 : FVec F S128 .f32) (main_arg10 : FVec F S128 .f32) (main_arg11 : FVec F S128 .f32) (main_arg12 : FVec F S128x128 .f32) (main_arg13 : FVec F S128 .f32) (main_arg14 : FVec F S128x1 .f32) (main_arg15 : FVec F S128 .f32) (main_arg16 : FVec F S128x256 .f32) (main_arg17 : FVec F S128 .f32) (main_arg18 : FVec F S128 .f32) (main_arg19 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S200000x128 .f32) (main_arg1 : FVec F S50000x128 .f32) (main_arg2 : IVec S2x600000 32) (main_arg3 : FVec F S600000 .f32) (main_arg4 : FVec F S128x128 .f32) (main_arg5 : FVec F S128 .f32) (main_arg6 : FVec F S128x1 .f32) (main_arg7 : FVec F S128 .f32) (main_arg8 : FVec F S128x256 .f32) (main_arg9 : FVec F S128 .f32) (main_arg10 : FVec F S128 .f32) (main_arg11 : FVec F S128 .f32) (main_arg12 : FVec F S128x128 .f32) (main_arg13 : FVec F S128 .f32) (main_arg14 : FVec F S128x1 .f32) (main_arg15 : FVec F S128 .f32) (main_arg16 : FVec F S128x256 .f32) (main_arg17 : FVec F S128 .f32) (main_arg18 : FVec F S128 .f32) (main_arg19 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S600000 .f32 := Host.absf main_arg3
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S200000x128 : Shape := ⟨2, ![200000, 128]⟩
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S1x600000 : Shape := ⟨2, ![1, 600000]⟩
abbrev S600000x1 : Shape := ⟨2, ![600000, 1]⟩
abbrev S1x128 : Shape := ⟨2, ![1, 128]⟩
abbrev S10000x128 : Shape := ⟨2, ![10000, 128]⟩
abbrev S600000x128 : Shape := ⟨2, ![600000, 128]⟩
abbrev S_ : Shape := ⟨0, ![]⟩
abbrev S50000 : Shape := ⟨1, ![50000]⟩
abbrev S50000x1 : Shape := ⟨2, ![50000, 1]⟩
abbrev S256x128 : Shape := ⟨2, ![256, 128]⟩
abbrev S5000x128 : Shape := ⟨2, ![5000, 128]⟩
abbrev S5000x1 : Shape := ⟨2, ![5000, 1]⟩
abbrev S5000 : Shape := ⟨1, ![5000]⟩
abbrev S200000 : Shape := ⟨1, ![200000]⟩
abbrev S200000x1 : Shape := ⟨2, ![200000, 1]⟩
abbrev S8000x128 : Shape := ⟨2, ![8000, 128]⟩
abbrev S8000x1 : Shape := ⟨2, ![8000, 1]⟩
abbrev S8000 : Shape := ⟨1, ![8000]⟩

abbrev nBuf : Space → Nat
  | .hbm => 113
  | .vmem => 38
  | .smem => 0
  | _ => 0

abbrev bufTy : (tb : Table) → Fin (tcTables nBuf tb) → BufTy
  | .hbm, ⟨0, _⟩ => ⟨S200000x128, .f32⟩
  | .hbm, ⟨1, _⟩ => ⟨S50000x128, .f32⟩
  | .hbm, ⟨2, _⟩ => ⟨S2x600000, .i32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S128, .f32⟩
  | .hbm, ⟨16, _⟩ => ⟨S128x256, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S1x600000, .i32⟩
  | .hbm, ⟨21, _⟩ => ⟨S600000, .i32⟩
  | .hbm, ⟨22, _⟩ => ⟨S1x600000, .i32⟩
  | .hbm, ⟨23, _⟩ => ⟨S600000, .i32⟩
  | .hbm, ⟨24, _⟩ => ⟨S600000x1, .f32⟩
  | .hbm, ⟨25, _⟩ => ⟨S128x128, .f32⟩
  | .hbm, ⟨26, _⟩ => ⟨S1x128, .f32⟩
  | .hbm, ⟨27, _⟩ => ⟨S200000x128, .f32⟩
  | .hbm, ⟨28, _⟩ => ⟨S1x128, .f32⟩
  | .hbm, ⟨29, _⟩ => ⟨S600000x128, .f32⟩
  | .hbm, ⟨30, _⟩ => ⟨S1x128, .f32⟩
  | .hbm, ⟨31, _⟩ => ⟨S600000x128, .f32⟩
  | .hbm, ⟨32, _⟩ => ⟨S600000x128, .f32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S600000x128, .f32⟩
  | .hbm, ⟨40, _⟩ => ⟨S600000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S600000x128, .f32⟩
  | .hbm, ⟨51, _⟩ => ⟨S_, .f32⟩
  | .hbm, ⟨52, _⟩ => ⟨S50000x128, .f32⟩
  | .hbm, ⟨53, _⟩ => ⟨S600000x1, .i32⟩
  | .hbm, ⟨54, _⟩ => ⟨S50000x128, .f32⟩
  | .hbm, ⟨55, _⟩ => ⟨S_, .f32⟩
  | .hbm, ⟨56, _⟩ => ⟨S600000, .f32⟩
  | .hbm, ⟨57, _⟩ => ⟨S_, .f32⟩
  | .hbm, ⟨58, _⟩ => ⟨S50000, .f32⟩
  | .hbm, ⟨59, _⟩ => ⟨S600000x1, .i32⟩
  | .hbm, ⟨60, _⟩ => ⟨S50000, .f32⟩
  | .hbm, ⟨61, _⟩ => ⟨S50000x1, .f32⟩
  | .hbm, ⟨62, _⟩ => ⟨S256x128, .f32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S50000x128, .f32⟩
  | .hbm, ⟨69, _⟩ => ⟨S128x128, .f32⟩
  | .hbm, ⟨70, _⟩ => ⟨S1x128, .f32⟩
  | .hbm, ⟨71, _⟩ => ⟨S50000x128, .f32⟩
  | .hbm, ⟨72, _⟩ => ⟨S1x128, .f32⟩
  | .hbm, ⟨73, _⟩ => ⟨S600000x128, .f32⟩
  | .hbm, ⟨74, _⟩ => ⟨S1x128, .f32⟩
  | .hbm, ⟨75, _⟩ => ⟨S600000x128, .f32⟩
  | .hbm, ⟨76, _⟩ => ⟨S600000x128, .f32⟩
  | .hbm, ⟨77, _⟩ => ⟨S600000x128, .f32⟩
  | .hbm, ⟨78, _⟩ => ⟨S600000x128, .f32⟩
  | .hbm, ⟨79, _⟩ => ⟨S_, .f32⟩
  | .hbm, ⟨80, _⟩ => ⟨S600000x128, .f32⟩
  | .hbm, ⟨81, _⟩ => ⟨S600000x128, .f32⟩
  | .hbm, ⟨82, _⟩ => ⟨S_, .f32⟩
  | .hbm, ⟨83, _⟩ => ⟨S600000x128, .f32⟩
  | .hbm, ⟨84, _⟩ => ⟨S600000x128, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x128, .f32⟩
  | .hbm, ⟨94, _⟩ => ⟨S600000x128, .f32⟩
  | .hbm, ⟨95, _⟩ => ⟨S_, .f32⟩
  | .hbm, ⟨96, _⟩ => ⟨S200000x128, .f32⟩
  | .hbm, ⟨97, _⟩ => ⟨S600000x1, .i32⟩
  | .hbm, ⟨98, _⟩ => ⟨S200000x128, .f32⟩
  | .hbm, ⟨99, _⟩ => ⟨S_, .f32⟩
  | .hbm, ⟨100, _⟩ => ⟨S600000, .f32⟩
  | .hbm, ⟨101, _⟩ => ⟨S_, .f32⟩
  | .hbm, ⟨102, _⟩ => ⟨S200000, .f32⟩
  | .hbm, ⟨103, _⟩ => ⟨S600000x1, .i32⟩
  | .hbm, ⟨104, _⟩ => ⟨S200000, .f32⟩
  | .hbm, ⟨105, _⟩ => ⟨S200000x1, .f32⟩
  | .hbm, ⟨106, _⟩ => ⟨S256x128, .f32⟩
  | .hbm, ⟨107, _⟩ => ⟨S128x128, .f32⟩
  | .hbm, ⟨108, _⟩ => ⟨S128x128, .f32⟩
  | .hbm, ⟨109, _⟩ => ⟨S1x128, .f32⟩
  | .hbm, ⟨110, _⟩ => ⟨S1x128, .f32⟩
  | .hbm, ⟨111, _⟩ => ⟨S1x128, .f32⟩
  | .hbm, ⟨112, _⟩ => ⟨S200000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S10000x128, .f32⟩
  | .local _ .vmem, ⟨20, _⟩ => ⟨S10000x128, .f32⟩
  | .local _ .vmem, ⟨21, _⟩ => ⟨S128x128, .f32⟩
  | .local _ .vmem, ⟨22, _⟩ => ⟨S1x128, .f32⟩
  | .local _ .vmem, ⟨23, _⟩ => ⟨S10000x128, .f32⟩
  | .local _ .vmem, ⟨24, _⟩ => ⟨S10000x128, .f32⟩
  | .local _ .vmem, ⟨25, _⟩ => ⟨S8000x128, .f32⟩
  | .local _ .vmem, ⟨26, _⟩ => ⟨S8000x128, .f32⟩
  | .local _ .vmem, ⟨27, _⟩ => ⟨S8000x1, .f32⟩
  | .local _ .vmem, ⟨28, _⟩ => ⟨S8000x1, .f32⟩
  | .local _ .vmem, ⟨29, _⟩ => ⟨S8000x128, .f32⟩
  | .local _ .vmem, ⟨30, _⟩ => ⟨S8000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S8000x128, .f32⟩
  | .local _ .vmem, ⟨37, _⟩ => ⟨S8000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_5 : Ref sig .tc := ⟨.hbm, 79, rfl⟩
abbrev main_v52 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_v55 : Ref sig .tc := ⟨.hbm, 84, rfl⟩
abbrev main_c_7 : Ref sig .tc := ⟨.hbm, 85, rfl⟩
abbrev main_v56 : Ref sig .tc := ⟨.hbm, 86, rfl⟩
abbrev main_v57 : Ref sig .tc := ⟨.hbm, 87, rfl⟩
abbrev main_c_8 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_10 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg8_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem8_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S8000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S600000_S600000x1 : S600000.ShapeCasts S600000x1
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  transposes_S128x1_S1x128_1_0 : S128x1.Transposes [1, 0] S1x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x256_S256x128_1_0 : S128x256.Transposes [1, 0] S256x128
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  reduces_S5000x128_S5000 : S5000x128.Reduces [1] S5000
  shapeCasts_S5000_S5000x1 : S5000.ShapeCasts S5000x1
  shapeCasts_S10000x128_S10000x128 : S10000x128.ShapeCasts S10000x128
  bcast_S_S200000x128 : S_.BroadcastsInDim S200000x128 (![] : Fin 0 → Fin S200000x128.rank)
  bcast_S_S200000 : S_.BroadcastsInDim S200000 (![] : Fin 0 → Fin S200000.rank)
  shapeCasts_S200000_S200000x1 : S200000.ShapeCasts S200000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  broadcasts_S1x128_S8000x128 : S1x128.Broadcasts S8000x128
  reduces_S8000x128_S8000 : S8000x128.Reduces [1] S8000
  shapeCasts_S8000_S8000x1 : S8000.ShapeCasts S8000x1
  dot_S10000x128_S128x128_S10000x128_1_0_0_1_n_n_wf : DotDims.WF S10000x128 S128x128 S10000x128 [1] [0] [0] [1] [] []
  dot_S600000x1_S1x128_S600000x128_1_0_0_1_n_n_wf : DotDims.WF S600000x1 S1x128 S600000x128 [1] [0] [0] [1] [] []
  gather_S200000x128_S600000x1_S600000x128_1_0_n_n_0_1_1128_wf : GatherDims.WF S200000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S200000x128.size a
  hwx0_3 : ∀ i : grid0.Coords, EltTy.bits .f32 = 32 ∨ (Rect.block (s := S200000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .f32 = 32 ∨ (Rect.block (s := S50000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S200000x128.size a
  hwx3_0 : ∀ i : grid3.Coords, EltTy.bits .f32 = 32 ∨ (Rect.block (s := S200000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S200000x1.size a
  hwx3_1 : ∀ i : grid3.Coords, EltTy.bits .f32 = 32 ∨ (Rect.block (s := S200000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x128.size a ≤ S200000x128.size a
  hwx3_2 : ∀ i : grid3.Coords, EltTy.bits .f32 = 32 ∨ (Rect.block (s := S200000x128) S8000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S8000x128.size a ≤ S200000x128.size a
  hwx3_8 : ∀ i : grid3.Coords, EltTy.bits .f32 = 32 ∨ (Rect.block (s := S200000x128) S8000x128.size (cc3_transform_8 i) (hinb3_8 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S600000x1_S1x128_S600000x128_1_0_0_1_n_n : DotDims S600000x1 S1x128 S600000x128 where
  lhsContracting := [1]
  rhsContracting := [0]
  lhsNonContracting := [0]
  rhsNonContracting := [1]
  lhsBatch := []
  rhsBatch := []
  wf := dot_S600000x1_S1x128_S600000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v41) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v66) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S8000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v76) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v77) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v78) S8000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S200000x128 : Shape := ⟨2, ![200000, 128]⟩
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S1x600000 : Shape := ⟨2, ![1, 600000]⟩
abbrev S600000x1 : Shape := ⟨2, ![600000, 1]⟩
abbrev S1x128 : Shape := ⟨2, ![1, 128]⟩
abbrev S600000x128 : Shape := ⟨2, ![600000, 128]⟩
abbrev S_ : Shape := ⟨0, ![]⟩
abbrev S50000 : Shape := ⟨1, ![50000]⟩
abbrev S50000x1 : Shape := ⟨2, ![50000, 1]⟩
abbrev S50000x256 : Shape := ⟨2, ![50000, 256]⟩
abbrev S256x128 : Shape := ⟨2, ![256, 128]⟩
abbrev S200000 : Shape := ⟨1, ![200000]⟩
abbrev S200000x1 : Shape := ⟨2, ![200000, 1]⟩
abbrev S200000x256 : Shape := ⟨2, ![200000, 256]⟩

abbrev nBuf : Space → Nat
  | .hbm => 191
  | .vmem => 0
  | .smem => 0
  | _ => 0

abbrev hbmTy0_0 (i : Nat) : BufTy := match i % 128 with
  | 0 => ⟨S200000x128, .f32⟩
  | 1 => ⟨S50000x128, .f32⟩
  | 2 => ⟨S2x600000, .i32⟩
  | 3 => ⟨S600000, .f32⟩
  | 4 => ⟨S128x128, .f32⟩
  | 5 => ⟨S128, .f32⟩
  | 6 => ⟨S128x1, .f32⟩
  | 7 => ⟨S128, .f32⟩
  | 8 => ⟨S128x256, .f32⟩
  | 9 => ⟨S128, .f32⟩
  | 10 => ⟨S128, .f32⟩
  | 11 => ⟨S128, .f32⟩
  | 12 => ⟨S128x128, .f32⟩
  | 13 => ⟨S128, .f32⟩
  | 14 => ⟨S128x1, .f32⟩
  | 15 => ⟨S128, .f32⟩
  | 16 => ⟨S128x256, .f32⟩
  | 17 => ⟨S128, .f32⟩
  | 18 => ⟨S128, .f32⟩
  | 19 => ⟨S128, .f32⟩
  | 20 => ⟨S1x600000, .i32⟩
  | 21 => ⟨S600000, .i32⟩
  | 22 => ⟨S1x600000, .i32⟩
  | 23 => ⟨S600000, .i32⟩
  | 24 => ⟨S600000x1, .f32⟩
  | 25 => ⟨S1x128, .f32⟩
  | 26 => ⟨S600000x128, .f32⟩
  | 27 => ⟨S1x128, .f32⟩
  | 28 => ⟨S600000x128, .f32⟩
  | 29 => ⟨S600000x128, .f32⟩
  | 30 => ⟨S600000x128, .f32⟩
  | 31 => ⟨S600000x128, .f32⟩
  | 32 => ⟨S_, .f32⟩
  | 33 => ⟨S600000x128, .f32⟩
  | 34 => ⟨S600000x128, .f32⟩
  | 35 => ⟨S_, .f32⟩
  | 36 => ⟨S600000x128, .f32⟩
  | 37 => ⟨S600000x128, .f32⟩
  | 38 => ⟨S128x128, .f32⟩
  | 39 => ⟨S200000x128, .f32⟩
  | 40 => ⟨S1x128, .f32⟩
  | 41 => ⟨S200000x128, .f32⟩
  | 42 => ⟨S200000x128, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S600000x128, .f32⟩
  | 53 => ⟨S_, .f32⟩
  | 54 => ⟨S50000x128, .f32⟩
  | 55 => ⟨S600000x1, .i32⟩
  | 56 => ⟨S50000x128, .f32⟩
  | 57 => ⟨S_, .f32⟩
  | 58 => ⟨S600000, .f32⟩
  | 59 => ⟨S_, .f32⟩
  | 60 => ⟨S50000, .f32⟩
  | 61 => ⟨S600000x1, .i32⟩
  | 62 => ⟨S50000, .f32⟩
  | 63 => ⟨S_, .f32⟩
  | 64 => ⟨S_, .f32⟩
  | 65 => ⟨S50000, .f32⟩
  | 66 => ⟨S50000, .f32⟩
  | 67 => ⟨S50000x1, .f32⟩
  | 68 => ⟨S50000x128, .f32⟩
  | 69 => ⟨S50000x128, .f32⟩
  | 70 => ⟨S50000x256, .f32⟩
  | 71 => ⟨S256x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000, .f32⟩
  | 78 => ⟨S50000x1, .f32⟩
  | 79 => ⟨S_, .f32⟩
  | 80 => ⟨S50000x1, .f32⟩
  | 81 => ⟨S50000x1, .f32⟩
  | 82 => ⟨S50000x128, .f32⟩
  | 83 => ⟨S50000x128, .f32⟩
  | 84 => ⟨S50000x128, .f32⟩
  | 85 => ⟨S_, .f32⟩
  | 86 => ⟨S50000, .f32⟩
  | 87 => ⟨S50000x1, .f32⟩
  | 88 => ⟨S_, .f32⟩
  | 89 => ⟨S50000x1, .f32⟩
  | 90 => ⟨S50000x1, .f32⟩
  | 91 => ⟨S50000x128, .f32⟩
  | 92 => ⟨S50000x128, .f32⟩
  | 93 => ⟨S_, .f32⟩
  | 94 => ⟨S50000x1, .f32⟩
  | 95 => ⟨S50000x1, .f32⟩
  | 96 => ⟨S50000x1, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x128, .f32⟩
  | 109 => ⟨S600000x128, .f32⟩
  | 110 => ⟨S1x128, .f32⟩
  | 111 => ⟨S600000x128, .f32⟩
  | 112 => ⟨S600000x128, .f32⟩
  | 113 => ⟨S600000x128, .f32⟩
  | 114 => ⟨S600000x128, .f32⟩
  | 115 => ⟨S_, .f32⟩
  | 116 => ⟨S600000x128, .f32⟩
  | 117 => ⟨S600000x128, .f32⟩
  | 118 => ⟨S_, .f32⟩
  | 119 => ⟨S600000x128, .f32⟩
  | 120 => ⟨S600000x128, .f32⟩
  | 121 => ⟨S128x128, .f32⟩
  | 122 => ⟨S50000x128, .f32⟩
  | 123 => ⟨S1x128, .f32⟩
  | 124 => ⟨S50000x128, .f32⟩
  | 125 => ⟨S50000x128, .f32⟩
  | 126 => ⟨S_, .i32⟩
  | 127 => ⟨S600000, .i32⟩
  | _ => ⟨S200000x128, .f32⟩

abbrev hbmTy0_1 (i : Nat) : BufTy := match i % 128 with
  | 0 => ⟨S600000, .i1⟩
  | 1 => ⟨S_, .i32⟩
  | 2 => ⟨S600000, .i32⟩
  | 3 => ⟨S600000, .i32⟩
  | 4 => ⟨S600000, .i32⟩
  | 5 => ⟨S600000x1, .i32⟩
  | 6 => ⟨S600000x128, .f32⟩
  | 7 => ⟨S600000x128, .f32⟩
  | 8 => ⟨S_, .f32⟩
  | 9 => ⟨S200000x128, .f32⟩
  | 10 => ⟨S600000x1, .i32⟩
  | 11 => ⟨S200000x128, .f32⟩
  | 12 => ⟨S_, .f32⟩
  | 13 => ⟨S600000, .f32⟩
  | 14 => ⟨S_, .f32⟩
  | 15 => ⟨S200000, .f32⟩
  | 16 => ⟨S600000x1, .i32⟩
  | 17 => ⟨S200000, .f32⟩
  | 18 => ⟨S_, .f32⟩
  | 19 => ⟨S_, .f32⟩
  | 20 => ⟨S200000, .f32⟩
  | 21 => ⟨S200000, .f32⟩
  | 22 => ⟨S200000x1, .f32⟩
  | 23 => ⟨S200000x128, .f32⟩
  | 24 => ⟨S200000x128, .f32⟩
  | 25 => ⟨S200000x256, .f32⟩
  | 26 => ⟨S256x128, .f32⟩
  | 27 => ⟨S200000x128, .f32⟩
  | 28 => ⟨S1x128, .f32⟩
  | 29 => ⟨S200000x128, .f32⟩
  | 30 => ⟨S200000x128, .f32⟩
  | 31 => ⟨S_, .f32⟩
  | 32 => ⟨S200000, .f32⟩
  | 33 => ⟨S200000x1, .f32⟩
  | 34 => ⟨S_, .f32⟩
  | 35 => ⟨S200000x1, .f32⟩
  | 36 => ⟨S200000x1, .f32⟩
  | 37 => ⟨S200000x128, .f32⟩
  | 38 => ⟨S200000x128, .f32⟩
  | 39 => ⟨S200000x128, .f32⟩
  | 40 => ⟨S_, .f32⟩
  | 41 => ⟨S200000, .f32⟩
  | 42 => ⟨S200000x1, .f32⟩
  | 43 => ⟨S_, .f32⟩
  | 44 => ⟨S200000x1, .f32⟩
  | 45 => ⟨S200000x1, .f32⟩
  | 46 => ⟨S200000x128, .f32⟩
  | 47 => ⟨S200000x128, .f32⟩
  | 48 => ⟨S_, .f32⟩
  | 49 => ⟨S200000x1, .f32⟩
  | 50 => ⟨S200000x1, .f32⟩
  | 51 => ⟨S200000x1, .f32⟩
  | 52 => ⟨S200000x128, .f32⟩
  | 53 => ⟨S200000x128, .f32⟩
  | 54 => ⟨S1x128, .f32⟩
  | 55 => ⟨S200000x128, .f32⟩
  | 56 => ⟨S200000x128, .f32⟩
  | 57 => ⟨S1x128, .f32⟩
  | 58 => ⟨S200000x128, .f32⟩
  | 59 => ⟨S200000x128, .f32⟩
  | 60 => ⟨S_, .f32⟩
  | 61 => ⟨S200000x128, .f32⟩
  | 62 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_cst_9 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_10 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call1_cst : Ref sig .tc := ⟨.hbm, 105, rfl⟩
abbrev main_call1_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_11 : Ref sig .tc := ⟨.hbm, 115, rfl⟩
abbrev main_v78 : Ref sig .tc := ⟨.hbm, 116, rfl⟩
abbrev main_v79 : Ref sig .tc := ⟨.hbm, 117, rfl⟩
abbrev main_cst_12 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_13 : Ref sig .tc := ⟨.hbm, 126, rfl⟩
abbrev main_v87 : Ref sig .tc := ⟨.hbm, 127, rfl⟩
abbrev main_v88 : Ref sig .tc := ⟨.hbm, 128, rfl⟩
abbrev main_c_14 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_15 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_16 : Ref sig .tc := ⟨.hbm, 140, rfl⟩
abbrev main_v98 : Ref sig .tc := ⟨.hbm, 141, rfl⟩
abbrev main_cst_17 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_18 : Ref sig .tc := ⟨.hbm, 146, rfl⟩
abbrev main_call2_v0 : Ref sig .tc := ⟨.hbm, 147, rfl⟩
abbrev main_call2_v1 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_19 : Ref sig .tc := ⟨.hbm, 159, rfl⟩
abbrev main_v112 : Ref sig .tc := ⟨.hbm, 160, rfl⟩
abbrev main_v113 : Ref sig .tc := ⟨.hbm, 161, rfl⟩
abbrev main_cst_20 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_21 : Ref sig .tc := ⟨.hbm, 168, rfl⟩
abbrev main_v119 : Ref sig .tc := ⟨.hbm, 169, rfl⟩
abbrev main_v120 : Ref sig .tc := ⟨.hbm, 170, rfl⟩
abbrev main_cst_22 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_23 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_call3_cst : Ref sig .tc := ⟨.hbm, 188, rfl⟩
abbrev main_call3_v0 : Ref sig .tc := ⟨.hbm, 189, rfl⟩
abbrev main_v136 : Ref sig .tc := ⟨.hbm, 190, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  transposes_S128x1_S1x128_1_0 : S128x1.Transposes [1, 0] S1x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  transposes_S128x128_S128x128_1_0 : S128x128.Transposes [1, 0] S128x128
  bcast_S1x128_S200000x128_0_1 : S1x128.BroadcastsInDim S200000x128 (![0, 1] : Fin 2 → Fin S200000x128.rank)
  bcast_S_S600000 : S_.BroadcastsInDim S600000 (![] : Fin 0 → Fin S600000.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  concatenates_S200000x128_S200000x128_S200000x256_d1 : Shape.Concatenates [S200000x128, S200000x128] S200000x256 1
  reducesTo_S200000x128_S200000_d1 : S200000x128.ReducesTo [1] S200000
  bcast_S_S200000x1 : S_.BroadcastsInDim S200000x1 (![] : Fin 0 → Fin S200000x1.rank)
  dot_S600000x1_S1x128_S600000x128_1_0_0_1_n_n_wf : DotDims.WF S600000x1 S1x128 S600000x128 [1] [0] [0] [1] [] []
  dot_S200000x128_S128x128_S200000x128_1_0_0_1_n_n_wf : DotDims.WF S200000x128 S128x128 S200000x128 [1] [0] [0] [1] [] []
  gather_S200000x128_S600000x1_S600000x128_1_0_n_n_0_1_1128_wf : GatherDims.WF S200000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S200000x256_S256x128_S200000x128_1_0_0_1_n_n_wf : DotDims.WF S200000x256 S256x128 S200000x128 [1] [0] [0] [1] [] []

variable [Facts₀]

def dot_S600000x1_S1x128_S600000x128_1_0_0_1_n_n : DotDims S600000x1 S1x128 S600000x128 where
  lhsContracting := [1]
  rhsContracting := [0]
  lhsNonContracting := [0]
  rhsNonContracting := [1]
  lhsBatch := []
  rhsBatch := []
  wf := dot_S600000x1_S1x128_S600000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf

class Facts : Prop extends Facts₀ where

variable [Facts]
-- ==== Proof.KRun.lean ====
/-
  The kernel program's run with its buffers read out.

  The program is four pipelined regions among four stretches of host operations. Every weakly fair execution ends, and
  in the final memory every buffer that lives for the whole program holds the last boundary's contents `W8`: the fold of
  the host stretches and of each region's write-backs, from the launch memory. The launch is the one the frame uses; only
  the read-out differs (all buffers, not just the arguments), so that the two results can be read at `W8`.
-/
import proofs.«165290_j80857054314575_2_alg».proof.Proof.Gen.KernelIdeal.Frame

set_option maxRecDepth 16384

noncomputable section

namespace Cert.KernelIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with every whole-program buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- A buffer of the program that is not scoped to a region is among those read out. -/
theorem mem_all (b : Ref sig .tc) (h : ¬ (Proc.devRef .tc b : DevRef τ sig).isScoped) :
    Proc.devRef .tc b ∈ Pipeline.ucRefs τ sig := mem_uc b h

end Cert.KernelIdeal.Values

end
-- ==== Proof.KBack.lean ====
/-
  Buffers that live through the whole program, read back to the launch memory at each boundary.

  The program's boundaries are numbered 0 (launch) to 8 (return): an odd boundary follows a stretch of host operations,
  an even one follows a region. The edge-index halves, the edge-weight column and the arguments are written once, before
  the first region, or never: no later host operation writes them, and a region either does not touch them or only
  reads them through an input window, whose array it leaves as it found it. So at every later boundary they still hold
  the value the first stretch gave them, a function of the launch memory alone.
-/
import proofs.«165290_j80857054314575_2_alg».proof.Proof.Gen.KernelIdeal.Frame
import Idealize.ShloMosaic.Lib.StableHlo.Run
import Idealize.ShloMosaic.PureOps.Ideal

set_option maxRecDepth 16384

noncomputable section

namespace Cert.KernelIdeal.Values

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- No operation of the named stretch writes the buffer, so the stretch leaves it as it was. -/
macro "unwritten_by " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ### `main_v1` -/

theorem W1_v1 (c : Dev nD) : W1 m ρ c (Proc.devRef .tc main_v1) = shapeCast S600000 (extractStridedSlice S1x600000 ![0, 0] (m ((c : Thread nD τ).loc main_arg2)) slices_S2x600000_S1x600000_0_0) shapeCasts_S1x600000_S600000 := by
  show StableHlo.after hostOps0 (W0 m ρ c) (Proc.devRef .tc main_v1) = _
  after_results <;> rfl
theorem W2_v1 (c : Dev nD) : W2 m ρ c (Proc.devRef .tc main_v1) = shapeCast S600000 (extractStridedSlice S1x600000 ![0, 0] (m ((c : Thread nD τ).loc main_arg2)) slices_S2x600000_S1x600000_0_0) shapeCasts_S1x600000_S600000 :=
  (W2_of_ne m ρ c main_v1 (by decide) : W2 m ρ c (Proc.devRef .tc main_v1) = W1 m ρ c (Proc.devRef .tc main_v1)).trans (W1_v1 m ρ c)
theorem W3_v1 (c : Dev nD) : W3 m ρ c (Proc.devRef .tc main_v1) = shapeCast S600000 (extractStridedSlice S1x600000 ![0, 0] (m ((c : Thread nD τ).loc main_arg2)) slices_S2x600000_S1x600000_0_0) shapeCasts_S1x600000_S600000 :=
  (by unwritten_by hostOps1 : W3 m ρ c (Proc.devRef .tc main_v1) = W2 m ρ c (Proc.devRef .tc main_v1)).trans (W2_v1 m ρ c)
theorem W4_v1 (c : Dev nD) : W4 m ρ c (Proc.devRef .tc main_v1) = shapeCast S600000 (extractStridedSlice S1x600000 ![0, 0] (m ((c : Thread nD τ).loc main_arg2)) slices_S2x600000_S1x600000_0_0) shapeCasts_S1x600000_S600000 :=
  (W4_of_ne m ρ c main_v1 (by decide) : W4 m ρ c (Proc.devRef .tc main_v1) = W3 m ρ c (Proc.devRef .tc main_v1)).trans (W3_v1 m ρ c)
theorem W5_v1 (c : Dev nD) : W5 m ρ c (Proc.devRef .tc main_v1) = shapeCast S600000 (extractStridedSlice S1x600000 ![0, 0] (m ((c : Thread nD τ).loc main_arg2)) slices_S2x600000_S1x600000_0_0) shapeCasts_S1x600000_S600000 :=
  (by unwritten_by hostOps2 : W5 m ρ c (Proc.devRef .tc main_v1) = W4 m ρ c (Proc.devRef .tc main_v1)).trans (W4_v1 m ρ c)
theorem W6_v1 (c : Dev nD) : W6 m ρ c (Proc.devRef .tc main_v1) = shapeCast S600000 (extractStridedSlice S1x600000 ![0, 0] (m ((c : Thread nD τ).loc main_arg2)) slices_S2x600000_S1x600000_0_0) shapeCasts_S1x600000_S600000 :=
  (W6_of_ne m ρ c main_v1 (by decide) : W6 m ρ c (Proc.devRef .tc main_v1) = W5 m ρ c (Proc.devRef .tc main_v1)).trans (W5_v1 m ρ c)

/-! ### `main_v3` -/

theorem W1_v3 (c : Dev nD) : W1 m ρ c (Proc.devRef .tc main_v3) = shapeCast S600000 (extractStridedSlice S1x600000 ![1, 0] (m ((c : Thread nD τ).loc main_arg2)) slices_S2x600000_S1x600000_1_0) shapeCasts_S1x600000_S600000 := by
  show StableHlo.after hostOps0 (W0 m ρ c) (Proc.devRef .tc main_v3) = _
  after_results <;> rfl
theorem W2_v3 (c : Dev nD) : W2 m ρ c (Proc.devRef .tc main_v3) = shapeCast S600000 (extractStridedSlice S1x600000 ![1, 0] (m ((c : Thread nD τ).loc main_arg2)) slices_S2x600000_S1x600000_1_0) shapeCasts_S1x600000_S600000 :=
  (W2_of_ne m ρ c main_v3 (by decide) : W2 m ρ c (Proc.devRef .tc main_v3) = W1 m ρ c (Proc.devRef .tc main_v3)).trans (W1_v3 m ρ c)
theorem W3_v3 (c : Dev nD) : W3 m ρ c (Proc.devRef .tc main_v3) = shapeCast S600000 (extractStridedSlice S1x600000 ![1, 0] (m ((c : Thread nD τ).loc main_arg2)) slices_S2x600000_S1x600000_1_0) shapeCasts_S1x600000_S600000 :=
  (by unwritten_by hostOps1 : W3 m ρ c (Proc.devRef .tc main_v3) = W2 m ρ c (Proc.devRef .tc main_v3)).trans (W2_v3 m ρ c)
theorem W4_v3 (c : Dev nD) : W4 m ρ c (Proc.devRef .tc main_v3) = shapeCast S600000 (extractStridedSlice S1x600000 ![1, 0] (m ((c : Thread nD τ).loc main_arg2)) slices_S2x600000_S1x600000_1_0) shapeCasts_S1x600000_S600000 :=
  (W4_of_ne m ρ c main_v3 (by decide) : W4 m ρ c (Proc.devRef .tc main_v3) = W3 m ρ c (Proc.devRef .tc main_v3)).trans (W3_v3 m ρ c)
theorem W5_v3 (c : Dev nD) : W5 m ρ c (Proc.devRef .tc main_v3) = shapeCast S600000 (extractStridedSlice S1x600000 ![1, 0] (m ((c : Thread nD τ).loc main_arg2)) slices_S2x600000_S1x600000_1_0) shapeCasts_S1x600000_S600000 :=
  (by unwritten_by hostOps2 : W5 m ρ c (Proc.devRef .tc main_v3) = W4 m ρ c (Proc.devRef .tc main_v3)).trans (W4_v3 m ρ c)
theorem W6_v3 (c : Dev nD) : W6 m ρ c (Proc.devRef .tc main_v3) = shapeCast S600000 (extractStridedSlice S1x600000 ![1, 0] (m ((c : Thread nD τ).loc main_arg2)) slices_S2x600000_S1x600000_1_0) shapeCasts_S1x600000_S600000 :=
  (W6_of_ne m ρ c main_v3 (by decide) : W6 m ρ c (Proc.devRef .tc main_v3) = W5 m ρ c (Proc.devRef .tc main_v3)).trans (W5_v3 m ρ c)

/-! ### `main_v4` -/

theorem W1_v4 (c : Dev nD) : W1 m ρ c (Proc.devRef .tc main_v4) = shapeCast S600000x1 (m ((c : Thread nD τ).loc main_arg3)) shapeCasts_S600000_S600000x1 := by
  show StableHlo.after hostOps0 (W0 m ρ c) (Proc.devRef .tc main_v4) = _
  after_results <;> rfl
theorem W2_v4 (c : Dev nD) : W2 m ρ c (Proc.devRef .tc main_v4) = shapeCast S600000x1 (m ((c : Thread nD τ).loc main_arg3)) shapeCasts_S600000_S600000x1 :=
  (W2_of_ne m ρ c main_v4 (by decide) : W2 m ρ c (Proc.devRef .tc main_v4) = W1 m ρ c (Proc.devRef .tc main_v4)).trans (W1_v4 m ρ c)
theorem W3_v4 (c : Dev nD) : W3 m ρ c (Proc.devRef .tc main_v4) = shapeCast S600000x1 (m ((c : Thread nD τ).loc main_arg3)) shapeCasts_S600000_S600000x1 :=
  (by unwritten_by hostOps1 : W3 m ρ c (Proc.devRef .tc main_v4) = W2 m ρ c (Proc.devRef .tc main_v4)).trans (W2_v4 m ρ c)
theorem W4_v4 (c : Dev nD) : W4 m ρ c (Proc.devRef .tc main_v4) = shapeCast S600000x1 (m ((c : Thread nD τ).loc main_arg3)) shapeCasts_S600000_S600000x1 :=
  (W4_of_ne m ρ c main_v4 (by decide) : W4 m ρ c (Proc.devRef .tc main_v4) = W3 m ρ c (Proc.devRef .tc main_v4)).trans (W3_v4 m ρ c)
theorem W5_v4 (c : Dev nD) : W5 m ρ c (Proc.devRef .tc main_v4) = shapeCast S600000x1 (m ((c : Thread nD τ).loc main_arg3)) shapeCasts_S600000_S600000x1 :=
  (by unwritten_by hostOps2 : W5 m ρ c (Proc.devRef .tc main_v4) = W4 m ρ c (Proc.devRef .tc main_v4)).trans (W4_v4 m ρ c)
theorem W6_v4 (c : Dev nD) : W6 m ρ c (Proc.devRef .tc main_v4) = shapeCast S600000x1 (m ((c : Thread nD τ).loc main_arg3)) shapeCasts_S600000_S600000x1 :=
  (W6_of_ne m ρ c main_v4 (by decide) : W6 m ρ c (Proc.devRef .tc main_v4) = W5 m ρ c (Proc.devRef .tc main_v4)).trans (W5_v4 m ρ c)

/-! ### `main_arg6` -/

theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W2_arg6 (c : Dev nD) : W2 m ρ c (Proc.devRef .tc main_arg6) = m ((c : Thread nD τ).loc main_arg6) :=
  (W2_of_ne m ρ c main_arg6 (by decide) : W2 m ρ c (Proc.devRef .tc main_arg6) = W1 m ρ c (Proc.devRef .tc main_arg6)).trans (W1_arg6 m ρ c)

/-! ### `main_arg7` -/

theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem W2_arg7 (c : Dev nD) : W2 m ρ c (Proc.devRef .tc main_arg7) = m ((c : Thread nD τ).loc main_arg7) :=
  (W2_of_ne m ρ c main_arg7 (by decide) : W2 m ρ c (Proc.devRef .tc main_arg7) = W1 m ρ c (Proc.devRef .tc main_arg7)).trans (W1_arg7 m ρ c)

/-! ### `main_arg8` -/

theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl
theorem W2_arg8 (c : Dev nD) : W2 m ρ c (Proc.devRef .tc main_arg8) = m ((c : Thread nD τ).loc main_arg8) :=
  (W2_of_ne m ρ c main_arg8 (by decide) : W2 m ρ c (Proc.devRef .tc main_arg8) = W1 m ρ c (Proc.devRef .tc main_arg8)).trans (W1_arg8 m ρ c)

/-! ### `main_arg9` -/

theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl
theorem W2_arg9 (c : Dev nD) : W2 m ρ c (Proc.devRef .tc main_arg9) = m ((c : Thread nD τ).loc main_arg9) :=
  (W2_of_ne m ρ c main_arg9 (by decide) : W2 m ρ c (Proc.devRef .tc main_arg9) = W1 m ρ c (Proc.devRef .tc main_arg9)).trans (W1_arg9 m ρ c)

/-! ### `main_arg10` -/

theorem W1_arg10 (c : Dev nD) : W1 m ρ c (Proc.devRef .tc main_arg10) = m ((c : Thread nD τ).loc main_arg10) := by
  show StableHlo.after hostOps0 (W0 m ρ c) (Proc.devRef .tc main_arg10) = _
  after_results <;> rfl
theorem W2_arg10 (c : Dev nD) : W2 m ρ c (Proc.devRef .tc main_arg10) = m ((c : Thread nD τ).loc main_arg10) :=
  (W2_of_ne m ρ c main_arg10 (by decide) : W2 m ρ c (Proc.devRef .tc main_arg10) = W1 m ρ c (Proc.devRef .tc main_arg10)).trans (W1_arg10 m ρ c)

/-! ### `main_arg11` -/

theorem W1_arg11 (c : Dev nD) : W1 m ρ c (Proc.devRef .tc main_arg11) = m ((c : Thread nD τ).loc main_arg11) := by
  show StableHlo.after hostOps0 (W0 m ρ c) (Proc.devRef .tc main_arg11) = _
  after_results <;> rfl
theorem W2_arg11 (c : Dev nD) : W2 m ρ c (Proc.devRef .tc main_arg11) = m ((c : Thread nD τ).loc main_arg11) :=
  (W2_of_ne m ρ c main_arg11 (by decide) : W2 m ρ c (Proc.devRef .tc main_arg11) = W1 m ρ c (Proc.devRef .tc main_arg11)).trans (W1_arg11 m ρ c)

/-! ### `main_arg1` -/

theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W2_arg1 (c : Dev nD) : W2 m ρ c (Proc.devRef .tc main_arg1) = m ((c : Thread nD τ).loc main_arg1) :=
  (W2_of_ne m ρ c main_arg1 (by decide) : W2 m ρ c (Proc.devRef .tc main_arg1) = W1 m ρ c (Proc.devRef .tc main_arg1)).trans (W1_arg1 m ρ c)
theorem W3_arg1 (c : Dev nD) : W3 m ρ c (Proc.devRef .tc main_arg1) = m ((c : Thread nD τ).loc main_arg1) :=
  (by unwritten_by hostOps1 : W3 m ρ c (Proc.devRef .tc main_arg1) = W2 m ρ c (Proc.devRef .tc main_arg1)).trans (W2_arg1 m ρ c)

/-! ### `main_arg12` -/

theorem W1_arg12 (c : Dev nD) : W1 m ρ c (Proc.devRef .tc main_arg12) = m ((c : Thread nD τ).loc main_arg12) := by
  show StableHlo.after hostOps0 (W0 m ρ c) (Proc.devRef .tc main_arg12) = _
  after_results <;> rfl
theorem W2_arg12 (c : Dev nD) : W2 m ρ c (Proc.devRef .tc main_arg12) = m ((c : Thread nD τ).loc main_arg12) :=
  (W2_of_ne m ρ c main_arg12 (by decide) : W2 m ρ c (Proc.devRef .tc main_arg12) = W1 m ρ c (Proc.devRef .tc main_arg12)).trans (W1_arg12 m ρ c)
theorem W3_arg12 (c : Dev nD) : W3 m ρ c (Proc.devRef .tc main_arg12) = m ((c : Thread nD τ).loc main_arg12) :=
  (by unwritten_by hostOps1 : W3 m ρ c (Proc.devRef .tc main_arg12) = W2 m ρ c (Proc.devRef .tc main_arg12)).trans (W2_arg12 m ρ c)
theorem W4_arg12 (c : Dev nD) : W4 m ρ c (Proc.devRef .tc main_arg12) = m ((c : Thread nD τ).loc main_arg12) :=
  (W4_of_ne m ρ c main_arg12 (by decide) : W4 m ρ c (Proc.devRef .tc main_arg12) = W3 m ρ c (Proc.devRef .tc main_arg12)).trans (W3_arg12 m ρ c)

/-! ### `main_arg13` -/

theorem W1_arg13 (c : Dev nD) : W1 m ρ c (Proc.devRef .tc main_arg13) = m ((c : Thread nD τ).loc main_arg13) := by
  show StableHlo.after hostOps0 (W0 m ρ c) (Proc.devRef .tc main_arg13) = _
  after_results <;> rfl
theorem W2_arg13 (c : Dev nD) : W2 m ρ c (Proc.devRef .tc main_arg13) = m ((c : Thread nD τ).loc main_arg13) :=
  (W2_of_ne m ρ c main_arg13 (by decide) : W2 m ρ c (Proc.devRef .tc main_arg13) = W1 m ρ c (Proc.devRef .tc main_arg13)).trans (W1_arg13 m ρ c)
theorem W3_arg13 (c : Dev nD) : W3 m ρ c (Proc.devRef .tc main_arg13) = m ((c : Thread nD τ).loc main_arg13) :=
  (by unwritten_by hostOps1 : W3 m ρ c (Proc.devRef .tc main_arg13) = W2 m ρ c (Proc.devRef .tc main_arg13)).trans (W2_arg13 m ρ c)
theorem W4_arg13 (c : Dev nD) : W4 m ρ c (Proc.devRef .tc main_arg13) = m ((c : Thread nD τ).loc main_arg13) :=
  (W4_of_ne m ρ c main_arg13 (by decide) : W4 m ρ c (Proc.devRef .tc main_arg13) = W3 m ρ c (Proc.devRef .tc main_arg13)).trans (W3_arg13 m ρ c)

/-! ### `main_arg14` -/

theorem W1_arg14 (c : Dev nD) : W1 m ρ c (Proc.devRef .tc main_arg14) = m ((c : Thread nD τ).loc main_arg14) := by
  show StableHlo.after hostOps0 (W0 m ρ c) (Proc.devRef .tc main_arg14) = _
  after_results <;> rfl
theorem W2_arg14 (c : Dev nD) : W2 m ρ c (Proc.devRef .tc main_arg14) = m ((c : Thread nD τ).loc main_arg14) :=
  (W2_of_ne m ρ c main_arg14 (by decide) : W2 m ρ c (Proc.devRef .tc main_arg14) = W1 m ρ c (Proc.devRef .tc main_arg14)).trans (W1_arg14 m ρ c)
theorem W3_arg14 (c : Dev nD) : W3 m ρ c (Proc.devRef .tc main_arg14) = m ((c : Thread nD τ).loc main_arg14) :=
  (by unwritten_by hostOps1 : W3 m ρ c (Proc.devRef .tc main_arg14) = W2 m ρ c (Proc.devRef .tc main_arg14)).trans (W2_arg14 m ρ c)
theorem W4_arg14 (c : Dev nD) : W4 m ρ c (Proc.devRef .tc main_arg14) = m ((c : Thread nD τ).loc main_arg14) :=
  (W4_of_ne m ρ c main_arg14 (by decide) : W4 m ρ c (Proc.devRef .tc main_arg14) = W3 m ρ c (Proc.devRef .tc main_arg14)).trans (W3_arg14 m ρ c)
theorem W5_arg14 (c : Dev nD) : W5 m ρ c (Proc.devRef .tc main_arg14) = m ((c : Thread nD τ).loc main_arg14) :=
  (by unwritten_by hostOps2 : W5 m ρ c (Proc.devRef .tc main_arg14) = W4 m ρ c (Proc.devRef .tc main_arg14)).trans (W4_arg14 m ρ c)
theorem W6_arg14 (c : Dev nD) : W6 m ρ c (Proc.devRef .tc main_arg14) = m ((c : Thread nD τ).loc main_arg14) :=
  (W6_of_ne m ρ c main_arg14 (by decide) : W6 m ρ c (Proc.devRef .tc main_arg14) = W5 m ρ c (Proc.devRef .tc main_arg14)).trans (W5_arg14 m ρ c)

/-! ### `main_arg15` -/

theorem W1_arg15 (c : Dev nD) : W1 m ρ c (Proc.devRef .tc main_arg15) = m ((c : Thread nD τ).loc main_arg15) := by
  show StableHlo.after hostOps0 (W0 m ρ c) (Proc.devRef .tc main_arg15) = _
  after_results <;> rfl
theorem W2_arg15 (c : Dev nD) : W2 m ρ c (Proc.devRef .tc main_arg15) = m ((c : Thread nD τ).loc main_arg15) :=
  (W2_of_ne m ρ c main_arg15 (by decide) : W2 m ρ c (Proc.devRef .tc main_arg15) = W1 m ρ c (Proc.devRef .tc main_arg15)).trans (W1_arg15 m ρ c)
theorem W3_arg15 (c : Dev nD) : W3 m ρ c (Proc.devRef .tc main_arg15) = m ((c : Thread nD τ).loc main_arg15) :=
  (by unwritten_by hostOps1 : W3 m ρ c (Proc.devRef .tc main_arg15) = W2 m ρ c (Proc.devRef .tc main_arg15)).trans (W2_arg15 m ρ c)
theorem W4_arg15 (c : Dev nD) : W4 m ρ c (Proc.devRef .tc main_arg15) = m ((c : Thread nD τ).loc main_arg15) :=
  (W4_of_ne m ρ c main_arg15 (by decide) : W4 m ρ c (Proc.devRef .tc main_arg15) = W3 m ρ c (Proc.devRef .tc main_arg15)).trans (W3_arg15 m ρ c)
theorem W5_arg15 (c : Dev nD) : W5 m ρ c (Proc.devRef .tc main_arg15) = m ((c : Thread nD τ).loc main_arg15) :=
  (by unwritten_by hostOps2 : W5 m ρ c (Proc.devRef .tc main_arg15) = W4 m ρ c (Proc.devRef .tc main_arg15)).trans (W4_arg15 m ρ c)
theorem W6_arg15 (c : Dev nD) : W6 m ρ c (Proc.devRef .tc main_arg15) = m ((c : Thread nD τ).loc main_arg15) :=
  (W6_of_ne m ρ c main_arg15 (by decide) : W6 m ρ c (Proc.devRef .tc main_arg15) = W5 m ρ c (Proc.devRef .tc main_arg15)).trans (W5_arg15 m ρ c)

/-! ### `main_arg16` -/

theorem W1_arg16 (c : Dev nD) : W1 m ρ c (Proc.devRef .tc main_arg16) = m ((c : Thread nD τ).loc main_arg16) := by
  show StableHlo.after hostOps0 (W0 m ρ c) (Proc.devRef .tc main_arg16) = _
  after_results <;> rfl
theorem W2_arg16 (c : Dev nD) : W2 m ρ c (Proc.devRef .tc main_arg16) = m ((c : Thread nD τ).loc main_arg16) :=
  (W2_of_ne m ρ c main_arg16 (by decide) : W2 m ρ c (Proc.devRef .tc main_arg16) = W1 m ρ c (Proc.devRef .tc main_arg16)).trans (W1_arg16 m ρ c)
theorem W3_arg16 (c : Dev nD) : W3 m ρ c (Proc.devRef .tc main_arg16) = m ((c : Thread nD τ).loc main_arg16) :=
  (by unwritten_by hostOps1 : W3 m ρ c (Proc.devRef .tc main_arg16) = W2 m ρ c (Proc.devRef .tc main_arg16)).trans (W2_arg16 m ρ c)
theorem W4_arg16 (c : Dev nD) : W4 m ρ c (Proc.devRef .tc main_arg16) = m ((c : Thread nD τ).loc main_arg16) :=
  (W4_of_ne m ρ c main_arg16 (by decide) : W4 m ρ c (Proc.devRef .tc main_arg16) = W3 m ρ c (Proc.devRef .tc main_arg16)).trans (W3_arg16 m ρ c)
theorem W5_arg16 (c : Dev nD) : W5 m ρ c (Proc.devRef .tc main_arg16) = m ((c : Thread nD τ).loc main_arg16) :=
  (by unwritten_by hostOps2 : W5 m ρ c (Proc.devRef .tc main_arg16) = W4 m ρ c (Proc.devRef .tc main_arg16)).trans (W4_arg16 m ρ c)
theorem W6_arg16 (c : Dev nD) : W6 m ρ c (Proc.devRef .tc main_arg16) = m ((c : Thread nD τ).loc main_arg16) :=
  (W6_of_ne m ρ c main_arg16 (by decide) : W6 m ρ c (Proc.devRef .tc main_arg16) = W5 m ρ c (Proc.devRef .tc main_arg16)).trans (W5_arg16 m ρ c)

/-! ### `main_arg17` -/

theorem W1_arg17 (c : Dev nD) : W1 m ρ c (Proc.devRef .tc main_arg17) = m ((c : Thread nD τ).loc main_arg17) := by
  show StableHlo.after hostOps0 (W0 m ρ c) (Proc.devRef .tc main_arg17) = _
  after_results <;> rfl
theorem W2_arg17 (c : Dev nD) : W2 m ρ c (Proc.devRef .tc main_arg17) = m ((c : Thread nD τ).loc main_arg17) :=
  (W2_of_ne m ρ c main_arg17 (by decide) : W2 m ρ c (Proc.devRef .tc main_arg17) = W1 m ρ c (Proc.devRef .tc main_arg17)).trans (W1_arg17 m ρ c)
theorem W3_arg17 (c : Dev nD) : W3 m ρ c (Proc.devRef .tc main_arg17) = m ((c : Thread nD τ).loc main_arg17) :=
  (by unwritten_by hostOps1 : W3 m ρ c (Proc.devRef .tc main_arg17) = W2 m ρ c (Proc.devRef .tc main_arg17)).trans (W2_arg17 m ρ c)
theorem W4_arg17 (c : Dev nD) : W4 m ρ c (Proc.devRef .tc main_arg17) = m ((c : Thread nD τ).loc main_arg17) :=
  (W4_of_ne m ρ c main_arg17 (by decide) : W4 m ρ c (Proc.devRef .tc main_arg17) = W3 m ρ c (Proc.devRef .tc main_arg17)).trans (W3_arg17 m ρ c)
theorem W5_arg17 (c : Dev nD) : W5 m ρ c (Proc.devRef .tc main_arg17) = m ((c : Thread nD τ).loc main_arg17) :=
  (by unwritten_by hostOps2 : W5 m ρ c (Proc.devRef .tc main_arg17) = W4 m ρ c (Proc.devRef .tc main_arg17)).trans (W4_arg17 m ρ c)
theorem W6_arg17 (c : Dev nD) : W6 m ρ c (Proc.devRef .tc main_arg17) = m ((c : Thread nD τ).loc main_arg17) :=
  (W6_of_ne m ρ c main_arg17 (by decide) : W6 m ρ c (Proc.devRef .tc main_arg17) = W5 m ρ c (Proc.devRef .tc main_arg17)).trans (W5_arg17 m ρ c)

/-! ### `main_arg18` -/

theorem W1_arg18 (c : Dev nD) : W1 m ρ c (Proc.devRef .tc main_arg18) = m ((c : Thread nD τ).loc main_arg18) := by
  show StableHlo.after hostOps0 (W0 m ρ c) (Proc.devRef .tc main_arg18) = _
  after_results <;> rfl
theorem W2_arg18 (c : Dev nD) : W2 m ρ c (Proc.devRef .tc main_arg18) = m ((c : Thread nD τ).loc main_arg18) :=
  (W2_of_ne m ρ c main_arg18 (by decide) : W2 m ρ c (Proc.devRef .tc main_arg18) = W1 m ρ c (Proc.devRef .tc main_arg18)).trans (W1_arg18 m ρ c)
theorem W3_arg18 (c : Dev nD) : W3 m ρ c (Proc.devRef .tc main_arg18) = m ((c : Thread nD τ).loc main_arg18) :=
  (by unwritten_by hostOps1 : W3 m ρ c (Proc.devRef .tc main_arg18) = W2 m ρ c (Proc.devRef .tc main_arg18)).trans (W2_arg18 m ρ c)
theorem W4_arg18 (c : Dev nD) : W4 m ρ c (Proc.devRef .tc main_arg18) = m ((c : Thread nD τ).loc main_arg18) :=
  (W4_of_ne m ρ c main_arg18 (by decide) : W4 m ρ c (Proc.devRef .tc main_arg18) = W3 m ρ c (Proc.devRef .tc main_arg18)).trans (W3_arg18 m ρ c)
theorem W5_arg18 (c : Dev nD) : W5 m ρ c (Proc.devRef .tc main_arg18) = m ((c : Thread nD τ).loc main_arg18) :=
  (by unwritten_by hostOps2 : W5 m ρ c (Proc.devRef .tc main_arg18) = W4 m ρ c (Proc.devRef .tc main_arg18)).trans (W4_arg18 m ρ c)
theorem W6_arg18 (c : Dev nD) : W6 m ρ c (Proc.devRef .tc main_arg18) = m ((c : Thread nD τ).loc main_arg18) :=
  (W6_of_ne m ρ c main_arg18 (by decide) : W6 m ρ c (Proc.devRef .tc main_arg18) = W5 m ρ c (Proc.devRef .tc main_arg18)).trans (W5_arg18 m ρ c)

/-! ### `main_arg19` -/

theorem W1_arg19 (c : Dev nD) : W1 m ρ c (Proc.devRef .tc main_arg19) = m ((c : Thread nD τ).loc main_arg19) := by
  show StableHlo.after hostOps0 (W0 m ρ c) (Proc.devRef .tc main_arg19) = _
  after_results <;> rfl
theorem W2_arg19 (c : Dev nD) : W2 m ρ c (Proc.devRef .tc main_arg19) = m ((c : Thread nD τ).loc main_arg19) :=
  (W2_of_ne m ρ c main_arg19 (by decide) : W2 m ρ c (Proc.devRef .tc main_arg19) = W1 m ρ c (Proc.devRef .tc main_arg19)).trans (W1_arg19 m ρ c)
theorem W3_arg19 (c : Dev nD) : W3 m ρ c (Proc.devRef .tc main_arg19) = m ((c : Thread nD τ).loc main_arg19) :=
  (by unwritten_by hostOps1 : W3 m ρ c (Proc.devRef .tc main_arg19) = W2 m ρ c (Proc.devRef .tc main_arg19)).trans (W2_arg19 m ρ c)
theorem W4_arg19 (c : Dev nD) : W4 m ρ c (Proc.devRef .tc main_arg19) = m ((c : Thread nD τ).loc main_arg19) :=
  (W4_of_ne m ρ c main_arg19 (by decide) : W4 m ρ c (Proc.devRef .tc main_arg19) = W3 m ρ c (Proc.devRef .tc main_arg19)).trans (W3_arg19 m ρ c)
theorem W5_arg19 (c : Dev nD) : W5 m ρ c (Proc.devRef .tc main_arg19) = m ((c : Thread nD τ).loc main_arg19) :=
  (by unwritten_by hostOps2 : W5 m ρ c (Proc.devRef .tc main_arg19) = W4 m ρ c (Proc.devRef .tc main_arg19)).trans (W4_arg19 m ρ c)
theorem W6_arg19 (c : Dev nD) : W6 m ρ c (Proc.devRef .tc main_arg19) = m ((c : Thread nD τ).loc main_arg19) :=
  (W6_of_ne m ρ c main_arg19 (by decide) : W6 m ρ c (Proc.devRef .tc main_arg19) = W5 m ρ c (Proc.devRef .tc main_arg19)).trans (W5_arg19 m ρ c)

/-! ### `main_arg0` -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0)) : W2 m ρ c (Proc.devRef .tc main_arg0) = W1 m ρ c (Proc.devRef .tc main_arg0)).trans (W1_arg0 m ρ c)
theorem W3_arg0 (c : Dev nD) : W3 m ρ c (Proc.devRef .tc main_arg0) = m ((c : Thread nD τ).loc main_arg0) :=
  (by unwritten_by hostOps1 : W3 m ρ c (Proc.devRef .tc main_arg0) = W2 m ρ c (Proc.devRef .tc main_arg0)).trans (W2_arg0 m ρ c)
theorem W4_arg0 (c : Dev nD) : W4 m ρ c (Proc.devRef .tc main_arg0) = m ((c : Thread nD τ).loc main_arg0) :=
  (W4_of_ne m ρ c main_arg0 (by decide) : W4 m ρ c (Proc.devRef .tc main_arg0) = W3 m ρ c (Proc.devRef .tc main_arg0)).trans (W3_arg0 m ρ c)
theorem W5_arg0 (c : Dev nD) : W5 m ρ c (Proc.devRef .tc main_arg0) = m ((c : Thread nD τ).loc main_arg0) :=
  (by unwritten_by hostOps2 : W5 m ρ c (Proc.devRef .tc main_arg0) = W4 m ρ c (Proc.devRef .tc main_arg0)).trans (W4_arg0 m ρ c)
theorem W6_arg0 (c : Dev nD) : W6 m ρ c (Proc.devRef .tc main_arg0) = m ((c : Thread nD τ).loc main_arg0) :=
  (W6_of_ne m ρ c main_arg0 (by decide) : W6 m ρ c (Proc.devRef .tc main_arg0) = W5 m ρ c (Proc.devRef .tc main_arg0)).trans (W5_arg0 m ρ c)
theorem W7_arg0 (c : Dev nD) : W7 m ρ c (Proc.devRef .tc main_arg0) = m ((c : Thread nD τ).loc main_arg0) :=
  (by unwritten_by hostOps3 : W7 m ρ c (Proc.devRef .tc main_arg0) = W6 m ρ c (Proc.devRef .tc main_arg0)).trans (W6_arg0 m ρ c)

/-! ### `main_arg4` -/

theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl

/-! ### `main_arg5` -/

theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl

end Cert.KernelIdeal.Values

end
-- ==== Proof.LibDenseRows.lean ====
/-
  Rows of dense layers read at an entry: a block of consecutive columns (or rows) of a matrix, two matrices set side
  by side along the columns, and a bias vector laid out as a row and repeated down the rows.

  For a matrix `x` with `n` columns, the block of `k` columns starting at column `c0` holds at `(r, e)` the entry
  `x (r, c0 + e)`; the block of `k` rows starting at row `r0` holds at `(e, c)` the entry `x (r0 + e, c)`. Two matrices
  with `k1` and `k2` columns set side by side hold at `(r, e)` the left one's `(r, e)` when `e < k1` and the right one's
  `(r, e - k1)` otherwise. A vector `v` of length `b` viewed as a `1 × b` row and repeated over `a` rows holds `v c` at
  `(r, c)`.
-/
import Idealize.ShloMosaic.Lib.ValueIdx
import Idealize.ShloMosaic.Lib.Pipeline.Value
import Idealize.ShloMosaic.Lib.ValueLayout

noncomputable section

namespace Cert.DenseRows

open Idealize.ShloMosaic Idealize.ShloMosaic.ValueIdx

variable {α : Type}

/-- A block of consecutive columns at an entry. -/
theorem sliceCols_apply {a n k : ℕ} (c0 : ℕ) (x : (⟨2, ![a, n]⟩ : Shape).Idx → α)
    (h : (⟨2, ![a, n]⟩ : Shape).Slices ![0, c0] ⟨2, ![a, k]⟩) (r : Fin a) (e : Fin k) (hb : c0 + e.val < n) :
    extractStridedSlice ⟨2, ![a, k]⟩ ![0, c0] x h (ix2 r e) = x (ix2 r ⟨c0 + e.val, hb⟩) :=
  extractStridedSlice_apply _ x h _ _ (fun ax => by
    match ax with
    | ⟨0, _⟩ => show r.val = 0 + r.val; omega
    | ⟨1, _⟩ => rfl)

/-- A block of consecutive rows at an entry. -/
theorem sliceRows_apply {n b k : ℕ} (r0 : ℕ) (x : (⟨2, ![n, b]⟩ : Shape).Idx → α)
    (h : (⟨2, ![n, b]⟩ : Shape).Slices ![r0, 0] ⟨2, ![k, b]⟩) (e : Fin k) (c : Fin b) (hb : r0 + e.val < n) :
    extractStridedSlice ⟨2, ![k, b]⟩ ![r0, 0] x h (ix2 e c) = x (ix2 ⟨r0 + e.val, hb⟩ c) :=
  extractStridedSlice_apply _ x h _ _ (fun ax => by
    match ax with
    | ⟨0, _⟩ => rfl
    | ⟨1, _⟩ => show c.val = 0 + c.val; omega)

/-- Two matrices side by side, at an entry of the left one. -/
theorem concatCols_left {a k1 k2 k : ℕ} (x₁ : (⟨2, ![a, k1]⟩ : Shape).Idx → α) (x₂ : (⟨2, ![a, k2]⟩ : Shape).Idx → α)
    (h : Shape.Concatenates [(⟨2, ![a, k1]⟩ : Shape), (⟨2, ![a, k2]⟩ : Shape)] (⟨2, ![a, k]⟩ : Shape) 1)
    (r : Fin a) (e : Fin k) (he : e.val < k1) :
    concatenate (⟨2, ![a, k]⟩ : Shape) 1 [⟨(⟨2, ![a, k1]⟩ : Shape), x₁⟩, ⟨(⟨2, ![a, k2]⟩ : Shape), x₂⟩] h (ix2 r e)
      = x₁ (ix2 r ⟨e.val, he⟩) :=
  concatenate_pair_apply_left 1 x₁ x₂ h (ix2 r e) rfl (ix2 r ⟨e.val, he⟩) (fun b => by
    match b with
    | ⟨0, _⟩ => rfl
    | ⟨1, _⟩ => rfl)

/-- Two matrices side by side, at an entry of the right one. -/
theorem concatCols_right {a k1 k2 k : ℕ} (x₁ : (⟨2, ![a, k1]⟩ : Shape).Idx → α) (x₂ : (⟨2, ![a, k2]⟩ : Shape).Idx → α)
    (h : Shape.Concatenates [(⟨2, ![a, k1]⟩ : Shape), (⟨2, ![a, k2]⟩ : Shape)] (⟨2, ![a, k]⟩ : Shape) 1)
    (r : Fin a) (e : Fin k) (he : k1 ≤ e.val) (hb : e.val - k1 < k2) :
    concatenate (⟨2, ![a, k]⟩ : Shape) 1 [⟨(⟨2, ![a, k1]⟩ : Shape), x₁⟩, ⟨(⟨2, ![a, k2]⟩ : Shape), x₂⟩] h (ix2 r e)
      = x₂ (ix2 r ⟨e.val - k1, hb⟩) :=
  concatenate_pair_apply_right 1 x₁ x₂ h (ix2 r e) rfl rfl (ix2 r ⟨e.val - k1, hb⟩) (fun b hne => by
    match b with
    | ⟨0, _⟩ => rfl
    | ⟨1, _⟩ => exact absurd rfl hne) (by show (e.val - k1) + k1 = e.val; omega)

/-- A bias vector as a row, repeated down the rows, at an entry. -/
theorem biasRow_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (r : Fin a) (c : Fin b) :
    broadcastTo ⟨2, ![a, b]⟩ (shapeCast ⟨2, ![1, b]⟩ v h1) h2 (ix2 r c) = v (ix1 c) := by
  rw [broadcastTo_1b_ab_apply, shapeCast_a_1a_apply]

end Cert.DenseRows

end
-- ==== Proof.KWeights.lean ====
/-
  The weights and the bias, scale and shift rows as the four regions find them.

  Before each dense region the host transposes the [128, 128] weight matrix and reshapes the bias to a row.

  Before each update region the host transposes the [128, 256] weight matrix to [256, 128] and cuts it into its first
  and last 128 rows, and reshapes each of the three 128-vectors to a [1, 128] row. So the first half at `(k, q)` is the
  weight matrix at `(q, k)`, the second half at `(k, q)` is the weight matrix at `(q, 128 + k)`, and a row at `(0, q)` is
  its vector at `q`.
-/
import proofs.«165290_j80857054314575_2_alg».proof.Proof.KBack
import proofs.«165290_j80857054314575_2_alg».proof.Proof.LibDenseRows
import Idealize.ShloMosaic.Lib.ValueLayout
import Idealize.ShloMosaic.Lib.Pipeline.Value

set_option maxRecDepth 16384

noncomputable section

namespace Cert.KernelIdeal.Values

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg)

/-! ### Region 1: the weight halves and the rows -/

set_option maxHeartbeats 8000000 in
/-- The first half of the transposed update weights at `(k, q)` is the weight matrix at `(q, k)`. -/
theorem V3_v36 (c : Dev nD) (k q : Fin 128) :
    (V3 m ρ c main_v36 : S128x128.Idx → EReal) (ix2 k q)
      = (m ((c : Thread nD τ).loc main_arg8) : S128x256.Idx → EReal) (ix2 q ⟨k.val, by omega⟩) := by
  have e : (V3 m ρ c main_v36 : S128x128.Idx → EReal)
      = extractStridedSlice S128x128 ![0, 0] (transpose S256x128 [1, 0] (m ((c : Thread nD τ).loc main_arg8)) transposes_S128x256_S256x128_1_0) slices_S256x128_S128x128_0_0 := by
    show StableHlo.after hostOps1 (W2 m ρ c) (Proc.devRef .tc main_v36) = _
    after_results_simp
    rw [W2_arg8 m ρ c]
  rw [e]
  refine (Cert.DenseRows.sliceRows_apply (n := 256) (b := 128) (k := 128) 0 _ slices_S256x128_S128x128_0_0 k q (by omega)).trans ?_
  refine transpose_apply [1, 0] _ transposes_S128x256_S256x128_1_0 _ (ix2 q ⟨k.val, by omega⟩) (fun b => ?_)
  match b with
  | ⟨0, _⟩ => show k.val = 0 + k.val; omega
  | ⟨1, _⟩ => rfl

set_option maxHeartbeats 8000000 in
/-- The second half of the transposed update weights at `(k, q)` is the weight matrix at `(q, 128 + k)`. -/
theorem V3_v37 (c : Dev nD) (k q : Fin 128) :
    (V3 m ρ c main_v37 : S128x128.Idx → EReal) (ix2 k q)
      = (m ((c : Thread nD τ).loc main_arg8) : S128x256.Idx → EReal) (ix2 q ⟨128 + k.val, by omega⟩) := by
  have e : (V3 m ρ c main_v37 : S128x128.Idx → EReal)
      = extractStridedSlice S128x128 ![128, 0] (transpose S256x128 [1, 0] (m ((c : Thread nD τ).loc main_arg8)) transposes_S128x256_S256x128_1_0) slices_S256x128_S128x128_128_0 := by
    show StableHlo.after hostOps1 (W2 m ρ c) (Proc.devRef .tc main_v37) = _
    after_results_simp
    rw [W2_arg8 m ρ c]
  rw [e]
  refine (Cert.DenseRows.sliceRows_apply (n := 256) (b := 128) (k := 128) 128 _ slices_S256x128_S128x128_128_0 k q (by omega)).trans ?_
  refine transpose_apply [1, 0] _ transposes_S128x256_S256x128_1_0 _ (ix2 q ⟨128 + k.val, by omega⟩) (fun b => ?_)
  match b with
  | ⟨0, _⟩ => rfl
  | ⟨1, _⟩ => rfl

set_option maxHeartbeats 8000000 in
/-- The bias vector laid as a row reads the vector. -/
theorem V3_v38 (c : Dev nD) (q : Fin 128) :
    (V3 m ρ c main_v38 : S1x128.Idx → EReal) (ix2 0 q) = (m ((c : Thread nD τ).loc main_arg9) : S128.Idx → EReal) (ix1 q) := by
  have e : (V3 m ρ c main_v38 : S1x128.Idx → EReal)
      = shapeCast S1x128 (m ((c : Thread nD τ).loc main_arg9)) shapeCasts_S128_S1x128 := by
    show StableHlo.after hostOps1 (W2 m ρ c) (Proc.devRef .tc main_v38) = _
    after_results_simp
    rw [W2_arg9 m ρ c]
    rfl
  rw [e]
  exact shapeCast_a_1a_apply (a := 128) _ shapeCasts_S128_S1x128 0 q

set_option maxHeartbeats 8000000 in
/-- The scale vector laid as a row reads the vector. -/
theorem V3_v39 (c : Dev nD) (q : Fin 128) :
    (V3 m ρ c main_v39 : S1x128.Idx → EReal) (ix2 0 q) = (m ((c : Thread nD τ).loc main_arg10) : S128.Idx → EReal) (ix1 q) := by
  have e : (V3 m ρ c main_v39 : S1x128.Idx → EReal)
      = shapeCast S1x128 (m ((c : Thread nD τ).loc main_arg10)) shapeCasts_S128_S1x128 := by
    show StableHlo.after hostOps1 (W2 m ρ c) (Proc.devRef .tc main_v39) = _
    after_results_simp
    rw [W2_arg10 m ρ c]
    rfl
  rw [e]
  exact shapeCast_a_1a_apply (a := 128) _ shapeCasts_S128_S1x128 0 q

set_option maxHeartbeats 8000000 in
/-- The shift vector laid as a row reads the vector. -/
theorem V3_v40 (c : Dev nD) (q : Fin 128) :
    (V3 m ρ c main_v40 : S1x128.Idx → EReal) (ix2 0 q) = (m ((c : Thread nD τ).loc main_arg11) : S128.Idx → EReal) (ix1 q) := by
  have e : (V3 m ρ c main_v40 : S1x128.Idx → EReal)
      = shapeCast S1x128 (m ((c : Thread nD τ).loc main_arg11)) shapeCasts_S128_S1x128 := by
    show StableHlo.after hostOps1 (W2 m ρ c) (Proc.devRef .tc main_v40) = _
    after_results_simp
    rw [W2_arg11 m ρ c]
    rfl
  rw [e]
  exact shapeCast_a_1a_apply (a := 128) _ shapeCasts_S128_S1x128 0 q

/-! ### Region 3: the weight halves and the rows -/

set_option maxHeartbeats 8000000 in
/-- The first half of the transposed update weights at `(k, q)` is the weight matrix at `(q, k)`. -/
theorem V7_v73 (c : Dev nD) (k q : Fin 128) :
    (V7 m ρ c main_v73 : S128x128.Idx → EReal) (ix2 k q)
      = (m ((c : Thread nD τ).loc main_arg16) : S128x256.Idx → EReal) (ix2 q ⟨k.val, by omega⟩) := by
  have e : (V7 m ρ c main_v73 : S128x128.Idx → EReal)
      = extractStridedSlice S128x128 ![0, 0] (transpose S256x128 [1, 0] (m ((c : Thread nD τ).loc main_arg16)) transposes_S128x256_S256x128_1_0) slices_S256x128_S128x128_0_0 := by
    show StableHlo.after hostOps3 (W6 m ρ c) (Proc.devRef .tc main_v73) = _
    after_results_simp
    rw [W6_arg16 m ρ c]
  rw [e]
  refine (Cert.DenseRows.sliceRows_apply (n := 256) (b := 128) (k := 128) 0 _ slices_S256x128_S128x128_0_0 k q (by omega)).trans ?_
  refine transpose_apply [1, 0] _ transposes_S128x256_S256x128_1_0 _ (ix2 q ⟨k.val, by omega⟩) (fun b => ?_)
  match b with
  | ⟨0, _⟩ => show k.val = 0 + k.val; omega
  | ⟨1, _⟩ => rfl

set_option maxHeartbeats 8000000 in
/-- The second half of the transposed update weights at `(k, q)` is the weight matrix at `(q, 128 + k)`. -/
theorem V7_v74 (c : Dev nD) (k q : Fin 128) :
    (V7 m ρ c main_v74 : S128x128.Idx → EReal) (ix2 k q)
      = (m ((c : Thread nD τ).loc main_arg16) : S128x256.Idx → EReal) (ix2 q ⟨128 + k.val, by omega⟩) := by
  have e : (V7 m ρ c main_v74 : S128x128.Idx → EReal)
      = extractStridedSlice S128x128 ![128, 0] (transpose S256x128 [1, 0] (m ((c : Thread nD τ).loc main_arg16)) transposes_S128x256_S256x128_1_0) slices_S256x128_S128x128_128_0 := by
    show StableHlo.after hostOps3 (W6 m ρ c) (Proc.devRef .tc main_v74) = _
    after_results_simp
    rw [W6_arg16 m ρ c]
  rw [e]
  refine (Cert.DenseRows.sliceRows_apply (n := 256) (b := 128) (k := 128) 128 _ slices_S256x128_S128x128_128_0 k q (by omega)).trans ?_
  refine transpose_apply [1, 0] _ transposes_S128x256_S256x128_1_0 _ (ix2 q ⟨128 + k.val, by omega⟩) (fun b => ?_)
  match b with
  | ⟨0, _⟩ => rfl
  | ⟨1, _⟩ => rfl

set_option maxHeartbeats 8000000 in
/-- The bias vector laid as a row reads the vector. -/
theorem V7_v75 (c : Dev nD) (q : Fin 128) :
    (V7 m ρ c main_v75 : S1x128.Idx → EReal) (ix2 0 q) = (m ((c : Thread nD τ).loc main_arg17) : S128.Idx → EReal) (ix1 q) := by
  have e : (V7 m ρ c main_v75 : S1x128.Idx → EReal)
      = shapeCast S1x128 (m ((c : Thread nD τ).loc main_arg17)) shapeCasts_S128_S1x128 := by
    show StableHlo.after hostOps3 (W6 m ρ c) (Proc.devRef .tc main_v75) = _
    after_results_simp
    rw [W6_arg17 m ρ c]
    rfl
  rw [e]
  exact shapeCast_a_1a_apply (a := 128) _ shapeCasts_S128_S1x128 0 q

set_option maxHeartbeats 8000000 in
/-- The scale vector laid as a row reads the vector. -/
theorem V7_v76 (c : Dev nD) (q : Fin 128) :
    (V7 m ρ c main_v76 : S1x128.Idx → EReal) (ix2 0 q) = (m ((c : Thread nD τ).loc main_arg18) : S128.Idx → EReal) (ix1 q) := by
  have e : (V7 m ρ c main_v76 : S1x128.Idx → EReal)
      = shapeCast S1x128 (m ((c : Thread nD τ).loc main_arg18)) shapeCasts_S128_S1x128 := by
    show StableHlo.after hostOps3 (W6 m ρ c) (Proc.devRef .tc main_v76) = _
    after_results_simp
    rw [W6_arg18 m ρ c]
    rfl
  rw [e]
  exact shapeCast_a_1a_apply (a := 128) _ shapeCasts_S128_S1x128 0 q

set_option maxHeartbeats 8000000 in
/-- The shift vector laid as a row reads the vector. -/
theorem V7_v77 (c : Dev nD) (q : Fin 128) :
    (V7 m ρ c main_v77 : S1x128.Idx → EReal) (ix2 0 q) = (m ((c : Thread nD τ).loc main_arg19) : S128.Idx → EReal) (ix1 q) := by
  have e : (V7 m ρ c main_v77 : S1x128.Idx → EReal)
      = shapeCast S1x128 (m ((c : Thread nD τ).loc main_arg19)) shapeCasts_S128_S1x128 := by
    show StableHlo.after hostOps3 (W6 m ρ c) (Proc.devRef .tc main_v77) = _
    after_results_simp
    rw [W6_arg19 m ρ c]
    rfl
  rw [e]
  exact shapeCast_a_1a_apply (a := 128) _ shapeCasts_S128_S1x128 0 q

/-! ### Region 0: the transposed dense weights and the bias row -/

set_option maxHeartbeats 8000000 in
/-- The transposed dense weights at `(k, q)` are the weight matrix at `(q, k)`. -/
theorem V1_v5 (c : Dev nD) (k q : Fin 128) :
    (V1 m ρ c main_v5 : S128x128.Idx → EReal) (ix2 k q)
      = (m ((c : Thread nD τ).loc main_arg4) : S128x128.Idx → EReal) (ix2 q k) := by
  have e : (V1 m ρ c main_v5 : S128x128.Idx → EReal)
      = transpose S128x128 [1, 0] (m ((c : Thread nD τ).loc main_arg4)) transposes_S128x128_S128x128_1_0 := by
    show StableHlo.after hostOps0 (W0 m ρ c) (Proc.devRef .tc main_v5) = _
    after_results_simp
  rw [e]
  refine transpose_apply [1, 0] _ transposes_S128x128_S128x128_1_0 _ (ix2 q k) (fun b => ?_)
  match b with
  | ⟨0, _⟩ => rfl
  | ⟨1, _⟩ => rfl

set_option maxHeartbeats 8000000 in
/-- The dense bias laid as a row reads the vector. -/
theorem V1_v6 (c : Dev nD) (q : Fin 128) :
    (V1 m ρ c main_v6 : S1x128.Idx → EReal) (ix2 0 q) = (m ((c : Thread nD τ).loc main_arg5) : S128.Idx → EReal) (ix1 q) := by
  have e : (V1 m ρ c main_v6 : S1x128.Idx → EReal)
      = shapeCast S1x128 (m ((c : Thread nD τ).loc main_arg5)) shapeCasts_S128_S1x128 := by
    show StableHlo.after hostOps0 (W0 m ρ c) (Proc.devRef .tc main_v6) = _
    after_results_simp
    rfl
  rw [e]
  exact shapeCast_a_1a_apply (a := 128) _ shapeCasts_S128_S1x128 0 q

/-! ### Region 2: the transposed dense weights and the bias row -/

set_option maxHeartbeats 8000000 in
/-- The transposed dense weights at `(k, q)` are the weight matrix at `(q, k)`. -/
theorem V5_v42 (c : Dev nD) (k q : Fin 128) :
    (V5 m ρ c main_v42 : S128x128.Idx → EReal) (ix2 k q)
      = (m ((c : Thread nD τ).loc main_arg12) : S128x128.Idx → EReal) (ix2 q k) := by
  have e : (V5 m ρ c main_v42 : S128x128.Idx → EReal)
      = transpose S128x128 [1, 0] (m ((c : Thread nD τ).loc main_arg12)) transposes_S128x128_S128x128_1_0 := by
    show StableHlo.after hostOps2 (W4 m ρ c) (Proc.devRef .tc main_v42) = _
    after_results_simp
    rw [W4_arg12 m ρ c]
  rw [e]
  refine transpose_apply [1, 0] _ transposes_S128x128_S128x128_1_0 _ (ix2 q k) (fun b => ?_)
  match b with
  | ⟨0, _⟩ => rfl
  | ⟨1, _⟩ => rfl

set_option maxHeartbeats 8000000 in
/-- The dense bias laid as a row reads the vector. -/
theorem V5_v43 (c : Dev nD) (q : Fin 128) :
    (V5 m ρ c main_v43 : S1x128.Idx → EReal) (ix2 0 q) = (m ((c : Thread nD τ).loc main_arg13) : S128.Idx → EReal) (ix1 q) := by
  have e : (V5 m ρ c main_v43 : S1x128.Idx → EReal)
      = shapeCast S1x128 (m ((c : Thread nD τ).loc main_arg13)) shapeCasts_S128_S1x128 := by
    show StableHlo.after hostOps2 (W4 m ρ c) (Proc.devRef .tc main_v43) = _
    after_results_simp
    rw [W4_arg13 m ρ c]
    rfl
  rw [e]
  exact shapeCast_a_1a_apply (a := 128) _ shapeCasts_S128_S1x128 0 q

end Cert.KernelIdeal.Values

end
-- ==== Proof.LibBroadcastLayout.lean ====
/-
  `broadcast_in_dim` of small shapes, read at an entry.

  A vector laid as a column [a] → [a,1] or as a row [a] → [1,a], a column [a,1] or a row [1,b] repeated to [a,b], and a
  scalar repeated to any shape: each result entry is the operand's entry at the matching coordinates, the unit axes
  read at 0.  The column layout of a vector is therefore the same array as its reshape to [a,1], and the row layout the
  same as its reshape to [1,a].
-/
import Idealize.ShloMosaic.Lib.ValueIdx
import Idealize.ShloMosaic.Lib.ValueLayout
import Idealize.ShloMosaic.Lib.Pipeline.Value

noncomputable section

namespace Idealize.ShloMosaic.BroadcastLayout

open Idealize.ShloMosaic Idealize.ShloMosaic.ValueIdx

variable {α : Type}

/-- A scalar repeated to any shape reads the scalar at every index. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun ax => ax.elim0)

/-- A vector laid as a column: [a] → [a,1] along axis 0 reads, at (p, u), the operand at p. -/
theorem column_apply {a : ℕ} (dims : Fin (⟨1, ![a]⟩ : Shape).rank → Fin (⟨2, ![a, 1]⟩ : Shape).rank)
    (hd : dims ⟨0, Nat.one_pos⟩ = ⟨0, Nat.two_pos⟩)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) :=
  broadcastInDim_apply dims h x (ix2 p u) (ix1 p) (fun ax => by
    match ax with
    | ⟨0, _⟩ =>
      rw [hd]
      show p.val = if a = 1 then 0 else p.val
      split
      · have := p.isLt; omega
      · rfl)

/-- A vector laid as a row: [a] → [1,a] along axis 1 reads, at (u, i), the operand at i. -/
theorem row_apply {a : ℕ} (dims : Fin (⟨1, ![a]⟩ : Shape).rank → Fin (⟨2, ![1, a]⟩ : Shape).rank)
    (hd : dims ⟨0, Nat.one_pos⟩ = ⟨1, Nat.one_lt_two⟩)
    (h : (⟨1, ![a]⟩ : Shape).BroadcastsInDim ⟨2, ![1, a]⟩ dims) (x : (⟨1, ![a]⟩ : Shape).Idx → α) (u : Fin 1) (i : Fin a) :
    broadcastInDim ⟨2, ![1, a]⟩ dims h x (ix2 u i) = x (ix1 i) :=
  broadcastInDim_apply dims h x (ix2 u i) (ix1 i) (fun ax => by
    match ax with
    | ⟨0, _⟩ =>
      rw [hd]
      show i.val = if a = 1 then 0 else i.val
      split
      · have := i.isLt; omega
      · rfl)

/-- A column repeated along the second axis: [a,1] → [a,b] reads, at (p, c), the operand at (p, 0). -/
theorem column_repeat_apply {a b : ℕ} (dims : Fin (⟨2, ![a, 1]⟩ : Shape).rank → Fin (⟨2, ![a, b]⟩ : Shape).rank)
    (hd0 : dims ⟨0, Nat.two_pos⟩ = ⟨0, Nat.two_pos⟩)
    (h : (⟨2, ![a, 1]⟩ : Shape).BroadcastsInDim ⟨2, ![a, b]⟩ dims) (v : (⟨2, ![a, 1]⟩ : Shape).Idx → α) (p : Fin a) (c : Fin b) :
    broadcastInDim ⟨2, ![a, b]⟩ dims h v (ix2 p c) = v (ix2 p (0 : Fin 1)) :=
  broadcastInDim_apply dims h v (ix2 p c) (ix2 p (0 : Fin 1)) (fun ax => by
    match ax with
    | ⟨0, _⟩ =>
      rw [hd0]
      show p.val = if a = 1 then 0 else p.val
      split
      · have := p.isLt; omega
      · rfl
    | ⟨1, _⟩ =>
      show 0 = if (1 : ℕ) = 1 then 0 else _
      rw [if_pos rfl])

/-- A row repeated along the first axis: [1,b] → [a,b] reads, at (p, c), the operand at (0, c). -/
theorem row_repeat_apply {a b : ℕ} (dims : Fin (⟨2, ![1, b]⟩ : Shape).rank → Fin (⟨2, ![a, b]⟩ : Shape).rank)
    (hd1 : dims ⟨1, Nat.one_lt_two⟩ = ⟨1, Nat.one_lt_two⟩)
    (h : (⟨2, ![1, b]⟩ : Shape).BroadcastsInDim ⟨2, ![a, b]⟩ dims) (v : (⟨2, ![1, b]⟩ : Shape).Idx → α) (p : Fin a) (c : Fin b) :
    broadcastInDim ⟨2, ![a, b]⟩ dims h v (ix2 p c) = v (ix2 (0 : Fin 1) c) :=
  broadcastInDim_apply dims h v (ix2 p c) (ix2 (0 : Fin 1) c) (fun ax => by
    match ax with
    | ⟨0, _⟩ =>
      show 0 = if (1 : ℕ) = 1 then 0 else _
      rw [if_pos rfl]
    | ⟨1, _⟩ =>
      rw [hd1]
      show c.val = if b = 1 then 0 else c.val
      split
      · have := c.isLt; omega
      · rfl)

/-- The column layout of a vector is its reshape to [a,1]. -/
theorem column_eq_shapeCast {a : ℕ} (dims : Fin (⟨1, ![a]⟩ : Shape).rank → Fin (⟨2, ![a, 1]⟩ : Shape).rank)
    (hd : dims ⟨0, Nat.one_pos⟩ = ⟨0, Nat.two_pos⟩)
    (h : (⟨1, ![a]⟩ : Shape).BroadcastsInDim ⟨2, ![a, 1]⟩ dims) (h' : (⟨1, ![a]⟩ : Shape).ShapeCasts ⟨2, ![a, 1]⟩)
    (x : (⟨1, ![a]⟩ : Shape).Idx → α) :
    broadcastInDim ⟨2, ![a, 1]⟩ dims h x = shapeCast ⟨2, ![a, 1]⟩ x h' := by
  funext j
  obtain ⟨p, u, rfl⟩ : ∃ (p : Fin a) (u : Fin 1), j = ix2 p u := ⟨j 0, j 1, eq_ix2 j⟩
  rw [column_apply dims hd h x p u]
  refine (shapeCast_apply x h' (ix2 p u) (ix1 p) ?_).symm
  have hu : u.val = 0 := by omega
  rw [Shape.rowMajor_val_two, Shape.rowMajor_val_one]
  show p.val = p.val * 1 + u.val
  omega

/-- The row layout of a vector is its reshape to [1,a]. -/
theorem row_eq_shapeCast {a : ℕ} (dims : Fin (⟨1, ![a]⟩ : Shape).rank → Fin (⟨2, ![1, a]⟩ : Shape).rank)
    (hd : dims ⟨0, Nat.one_pos⟩ = ⟨1, Nat.one_lt_two⟩)
    (h : (⟨1, ![a]⟩ : Shape).BroadcastsInDim ⟨2, ![1, a]⟩ dims) (h' : (⟨1, ![a]⟩ : Shape).ShapeCasts ⟨2, ![1, a]⟩)
    (x : (⟨1, ![a]⟩ : Shape).Idx → α) :
    broadcastInDim ⟨2, ![1, a]⟩ dims h x = shapeCast ⟨2, ![1, a]⟩ x h' := by
  funext j
  obtain ⟨u, i, rfl⟩ : ∃ (u : Fin 1) (i : Fin a), j = ix2 u i := ⟨j 0, j 1, eq_ix2 j⟩
  rw [row_apply dims hd h x u i, shapeCast_a_1a_apply]

end Idealize.ShloMosaic.BroadcastLayout

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.KChain1.lean ====
/-
  What region 1 (the first update) finds in its arrays, as functions of the launch memory.

  Between region 0 and region 1 the host computes, per edge, the sigmoid gate of the edge weight, gathers the dense
  layer's row of the edge's variable node, multiplies, and adds the products into the edge's constraint node; it also
  counts each constraint's edges, transposes the update weights and cuts them into their two halves, and lays the bias,
  scale and shift vectors as rows. The reference applies the very same operations to the same inputs (it lays the
  edge-weight vector as a column by a broadcast where this program reshapes it: one array). So the aggregated messages
  and the counts the region finds are the reference's, given that the dense layer's output is the reference's; the
  weight halves read an entry of the transposed weight matrix; the rows read the vectors.
-/
import proofs.«165290_j80857054314575_2_alg».proof.Proof.Gen.ReferenceIdeal.Read
import proofs.«165290_j80857054314575_2_alg».proof.Proof.KBack
import proofs.«165290_j80857054314575_2_alg».proof.Proof.LibBroadcastLayout
import proofs.«165290_j80857054314575_2_alg».proof.Proof.LibColumnLayout
import proofs.«165290_j80857054314575_2_alg».proof.Proof.LibDenseRows

set_option maxRecDepth 16384

noncomputable section

namespace Cert.KernelIdeal.Values

open Idealize.ShloMosaic Idealize.ShloMosaic.TcCoe Idealize.SL.Sem Idealize.ShloMosaic.StableHlo
open Idealize.ShloMosaic.ValueIdx
open Cert.KernelIdeal Cert.KernelIdeal.Gen
open Cert.ReferenceIdeal.Read

variable (m : (ℓ : Loc nD τ sig) → Buf (Elt Ideal) ℓ) (ρ : Dev nD → PrngReg)

/-- The edge-weight vector reshaped to a column is the vector laid as a column. -/
theorem edge_column (x : S600000.Idx → EReal) :
    shapeCast S600000x1 x shapeCasts_S600000_S600000x1
      = broadcastInDim S600000x1 ![0] bcast_S600000_S600000x1_0 x :=
  (Idealize.ShloMosaic.BroadcastLayout.column_eq_shapeCast (a := 600000) ![0] rfl
    bcast_S600000_S600000x1_0 shapeCasts_S600000_S600000x1 x).symm

set_option maxHeartbeats 8000000 in
/-- The aggregated messages region 1 finds are the reference's segment sum, once the dense layer's output is the
    reference's. -/
theorem V3_v29 (c : Dev nD)
    (h7 : W2 m ρ c (Proc.devRef .tc main_v7) = val_main_v20 (F := Ideal) (m ((c : Thread nD τ).loc main_arg0)) (m ((c : Thread nD τ).loc main_arg4)) (m ((c : Thread nD τ).loc main_arg5))) :
    V3 m ρ c main_v29
      = val_main_v31 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v29) = _
  after_results_simp
  rw [h7, W2_v1 m ρ c, W2_v3 m ρ c, W2_v4 m ρ c, W2_arg6 m ρ c, W2_arg7 m ρ c, edge_column]
  unfold val_main_v31 val_main_v30 val_main_v29 val_main_cst_2 val_main_v28 val_main_v27 val_main_v26 val_main_v25 val_main_v24 val_main_v23 val_main_c_1 val_main_v22 val_main_v21 val_main_c val_main_v15 val_main_v14 val_main_cst_0 val_main_v13 val_main_v12 val_main_cst val_main_v11 val_main_v10 val_main_v9 val_main_v8 val_main_v7 val_main_v6 val_main_v5 val_main_v4 val_main_v3 val_main_v2 val_main_v1 val_main_v0
  rfl

set_option maxHeartbeats 8000000 in
/-- The edge counts region 1 finds, as a column, are the reference's counts. -/
theorem V3_v34 (c : Dev nD) (p : Fin 50000) :
    (V3 m ρ c main_v34 : S50000x1.Idx → EReal) (ix2 p 0) = val_main_v35 (F := Ideal) (m ((c : Thread nD τ).loc main_arg2)) (ix1 p) := by
  have e : (V3 m ρ c main_v34 : S50000x1.Idx → EReal)
      = shapeCast S50000x1 (val_main_v35 (F := Ideal) (m ((c : Thread nD τ).loc main_arg2))) shapeCasts_S50000_S50000x1 := by
    show StableHlo.after hostOps1 (W2 m ρ c) (Proc.devRef .tc main_v34) = _
    after_results_simp
    rw [W2_v1 m ρ c]
    unfold val_main_v35 val_main_v34 val_main_v33 val_main_cst_4 val_main_v32 val_main_cst_3 val_main_v1 val_main_v0
    rfl
  rw [e]
  exact Idealize.ShloMosaic.ColumnLayout.shapeCast_a_a1_apply (a := 50000) _ shapeCasts_S50000_S50000x1 p 0

end Cert.KernelIdeal.Values

end
-- ==== Proof.KChain3.lean ====
/-
  What region 3 (the second update) finds in its arrays, as functions of the launch memory.

  Between region 2 and region 3 the host computes, per edge, the sigmoid gate of the edge weight with the second gate's
  parameters, gathers the second dense layer's row of the edge's constraint node, multiplies, and adds the products into
  the edge's variable node; it also counts each variable's edges. The reference applies the very same operations to the
  same inputs, so the aggregated messages and the counts the region finds are the reference's, given that the second
  dense layer's output is the reference's.
-/
import proofs.«165290_j80857054314575_2_alg».proof.Proof.Gen.ReferenceIdeal.Read
import proofs.«165290_j80857054314575_2_alg».proof.Proof.KBack
import proofs.«165290_j80857054314575_2_alg».proof.Proof.KChain1
import proofs.«165290_j80857054314575_2_alg».proof.Proof.LibColumnLayout

set_option maxRecDepth 16384

noncomputable section

namespace Cert.KernelIdeal.Values

open Idealize.ShloMosaic Idealize.ShloMosaic.TcCoe Idealize.SL.Sem Idealize.ShloMosaic.StableHlo
open Idealize.ShloMosaic.ValueIdx
open Cert.KernelIdeal Cert.KernelIdeal.Gen
open Cert.ReferenceIdeal.Read

variable (m : (ℓ : Loc nD τ sig) → Buf (Elt Ideal) ℓ) (ρ : Dev nD → PrngReg)

set_option maxHeartbeats 8000000 in
/-- The aggregated messages region 3 finds are the reference's segment sum, once the second dense layer's output is
    the reference's. -/
theorem V7_v66 (c : Dev nD)
    (h44 : W6 m ρ c (Proc.devRef .tc main_v44) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :
    V7 m ρ c main_v66 = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps3 (W6 m ρ c) (Proc.devRef .tc main_v66) = _
  after_results_simp
  rw [h44, W6_v1 m ρ c, W6_v3 m ρ c, W6_v4 m ρ c, W6_arg14 m ρ c, W6_arg15 m ρ c, edge_column]
  unfold val_main_v97 val_main_v96 val_main_v95 val_main_cst_15 val_main_v94 val_main_v93 val_main_v92 val_main_v91 val_main_v90 val_main_v89 val_main_c_14 val_main_v88 val_main_v87 val_main_c_13 val_main_v81 val_main_v80 val_main_cst_12 val_main_v79 val_main_v78 val_main_cst_11 val_main_v77 val_main_v76 val_main_v75 val_main_v74 val_main_v73 val_main_v72 val_main_v71 val_main_v4 val_main_v3 val_main_v2 val_main_v1 val_main_v0
  rfl

set_option maxHeartbeats 8000000 in
/-- The edge counts region 3 finds, as a column, are the reference's counts. -/
theorem V7_v71 (c : Dev nD) (p : Fin 200000) :
    (V7 m ρ c main_v71 : S200000x1.Idx → EReal) (ix2 p 0) = val_main_v101 (F := Ideal) (m ((c : Thread nD τ).loc main_arg2)) (ix1 p) := by
  have e : (V7 m ρ c main_v71 : S200000x1.Idx → EReal)
      = shapeCast S200000x1 (val_main_v101 (F := Ideal) (m ((c : Thread nD τ).loc main_arg2))) shapeCasts_S200000_S200000x1 := by
    show StableHlo.after hostOps3 (W6 m ρ c) (Proc.devRef .tc main_v71) = _
    after_results_simp
    rw [W6_v3 m ρ c]
    unfold val_main_v101 val_main_v100 val_main_v99 val_main_cst_17 val_main_v98 val_main_cst_16 val_main_v3 val_main_v2
    rfl
  rw [e]
  exact Idealize.ShloMosaic.ColumnLayout.shapeCast_a_a1_apply (a := 200000) _ shapeCasts_S200000_S200000x1 p 0

end Cert.KernelIdeal.Values

end
-- ==== Proof.LibLayerNorm.lean ====
/-
  LayerNorm's normalisation on the extended reals.

  A LayerNorm divides a centred row by the square root of its variance plus a positive ε; a program may instead multiply
  by the reciprocal square root. On the extended reals the two agree exactly when the radicand is positive:
  for a positive real `y` both are `x · (√y)⁻¹`, and for `y = ⊤` both are `x · 0` (`√⊤ = ⊤`, `⊤⁻¹ = 0`, `rsqrt ⊤ = 0`).
  At `y = 0` they differ (the quotient by zero is an infinity of `x`'s sign or the junk value, the product is `x · ⊤`),
  and below zero both square roots are the junk value `⊥` but `x · ⊥` and `x · ⊥⁻¹ = x · 0` differ.

  The radicand of a LayerNorm is positive whatever the row holds: a square `a · a` is non-negative for every extended
  real (`⊥ · ⊥ = ⊤`), so is a finite sum of squares, so is its quotient by a positive real, and ε is positive.
-/
import Idealize.ShloMosaic.PureOps.Ideal
import Idealize.ShloMosaic.PureOps.Ideal.Laws

noncomputable section

namespace Idealize.ShloMosaic.LayerNorm

open Idealize.ShloMosaic

/-- Multiplying by the reciprocal square root of a positive extended real is dividing by its square root. For a positive
    real `r` both sides are `x · (√r)⁻¹` (`√r ≠ 0`, so the quotient is the product with the inverse); at `⊤` both are `x · 0`. -/
theorem mul_rsqrt_eq_div_sqrt (x : EReal) {y : EReal} (hy : 0 < y) :
    x * Ideal.rsqrt y = Ideal.div x (Ideal.sqrt y) := by
  induction y using EReal.rec with
  | bot => exact absurd hy (not_lt.mpr bot_le)
  | top =>
    rw [Ideal.rsqrt_top, Ideal.sqrt_top]
    unfold Ideal.div
    rw [if_neg EReal.top_ne_zero, EReal.inv_top]
  | coe r =>
    have hr : 0 < r := EReal.coe_pos.mp hy
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- A square is non-negative on the extended reals: both factors lie on the same side of zero (`⊥ · ⊥ = ⊤`). -/
theorem mul_self_nonneg (a : EReal) : 0 ≤ a * a :=
  EReal.mul_nonneg_iff.mpr ((le_total 0 a).imp (fun h => ⟨h, h⟩) (fun h => ⟨h, h⟩))

/-- The quotient of a non-negative extended real by a positive real is non-negative: it is the product with the
    reciprocal, a positive real. -/
theorem div_coe_nonneg {s : EReal} (hs : 0 ≤ s) {n : ℝ} (hn : 0 < n) : 0 ≤ Ideal.div s (n : EReal) := by
  rw [Ideal.div_coe hn.ne']
  exact EReal.mul_nonneg hs (EReal.coe_nonneg.mpr (one_div_pos.mpr hn).le)

/-- The mean of squares over a positive real length, plus a positive ε, is positive — whatever the row holds. -/
theorem meanSq_add_pos {D : ℕ} (d : Fin D → EReal) {n : ℝ} (hn : 0 < n) {ε : EReal} (hε : 0 < ε) :
    0 < Ideal.div (∑ j : Fin D, d j * d j) (n : EReal) + ε := by
  have h0 : 0 ≤ Ideal.div (∑ j : Fin D, d j * d j) (n : EReal) :=
    div_coe_nonneg (Finset.sum_nonneg fun j _ => mul_self_nonneg (d j)) hn
  calc (0 : EReal) < ε := hε
    _ = 0 + ε := (zero_add ε).symm
    _ ≤ Ideal.div (∑ j : Fin D, d j * d j) (n : EReal) + ε := add_le_add h0 le_rfl

/-- The LayerNorm step itself: a centred entry times the reciprocal square root of (mean of squares + ε) is that entry
    over the square root, for every row of extended reals, a positive real length and a positive ε. -/
theorem mul_rsqrt_meanSq (x : EReal) {D : ℕ} (d : Fin D → EReal) {n : ℝ} (hn : 0 < n) {ε : EReal} (hε : 0 < ε) :
    x * Ideal.rsqrt (Ideal.div (∑ j : Fin D, d j * d j) (n : EReal) + ε)
      = Ideal.div x (Ideal.sqrt (Ideal.div (∑ j : Fin D, d j * d j) (n : EReal) + ε)) :=
  mul_rsqrt_eq_div_sqrt x (meanSq_add_pos d hn hε)

/-- The binary32 word `0x44000000` denotes the real `512 = 2⁹`. -/
theorem ofBits_512_f32 : Ideal.ofBits .f32 0x44000000#32 = ((512 : ℝ) : EReal) := by
  simp [Ideal.ofBits, Ideal.ieee, -EReal.coe_mul]; norm_num

/-- The binary32 word `0x44800000` denotes the real `1024 = 2¹⁰`. -/
theorem ofBits_1024_f32 : Ideal.ofBits .f32 0x44800000#32 = ((1024 : ℝ) : EReal) := by
  simp [Ideal.ofBits, Ideal.ieee, -EReal.coe_mul]; norm_num

/-- The binary32 word `0x3727C5AC` (the float nearest `10⁻⁵`: `10995116 · 2⁻⁴⁰`) denotes a positive real. -/
theorem ofBits_eps_f32_pos : 0 < Ideal.ofBits .f32 0x3727C5AC#32 := by
  simp [Ideal.ofBits, Ideal.ieee, -EReal.coe_mul]

end Idealize.ShloMosaic.LayerNorm

end
-- ==== Proof.Spec.lean ====
/-
  One message-passing update of a node's feature row, in two arrangements, and the law that joins them.

  A node's aggregated message row `s` (a sum over its edges) is divided by its clipped edge count `max 1 c`, set side by
  side with the node's own row `o`, sent through a dense layer of width 256 → 128, normalised over the 128 features
  (mean, variance, a positive ε), scaled, shifted and clipped below at zero.

  The first arrangement contracts the two halves of the 256 columns separately (two 128-term sums, added) and multiplies
  the centred entry by the reciprocal square root of the radicand. The second contracts all 256 columns in one sum over
  the row `[s / max 1 c | o]` and divides the centred entry by the square root of the radicand.

  They agree on every row of extended reals, with nothing assumed finite: a sum over `Fin 256` is the sum over its first
  128 positions plus the sum over its last 128 (addition on the extended reals is commutative and associative), and
  `x · rsqrt r = x / sqrt r` whenever `0 < r`, which a mean of squares plus a positive ε always is.
-/
import Idealize.ShloMosaic.PureOps.Ideal
import Mathlib.Algebra.BigOperators.Fin
import proofs.«165290_j80857054314575_2_alg».proof.Proof.LibLayerNorm

noncomputable section

namespace Cert.GraphStep

open Idealize.ShloMosaic
open scoped BigOperators

/-- The binary32 word of `1`. -/
def one : EReal := Ideal.ofBits .f32 0x3F800000#32
/-- The binary32 word of `128`, the number of features. -/
def w128 : EReal := Ideal.ofBits .f32 0x43000000#32
/-- The binary32 word nearest `10⁻⁵`. -/
def eps : EReal := Ideal.ofBits .f32 0x3727C5AC#32
/-- The binary32 zero word. -/
def zero : EReal := Ideal.ofBits .f32 0x00000000#32

/-- A dense layer at one output feature: the row against column `q` of the weights, plus the bias. -/
def denseRow (x : Fin 128 → EReal) (w : Fin 128 → Fin 128 → EReal) (b : Fin 128 → EReal) (q : Fin 128) : EReal :=
  (∑ k : Fin 128, x k * w k q) + b q

/-- The mean of a row of 128 features. -/
def mean (y : Fin 128 → EReal) : EReal := Ideal.div (∑ q : Fin 128, y q) w128
/-- The mean of the squared deviations of a row from its mean. -/
def var (y : Fin 128 → EReal) : EReal :=
  Ideal.div (∑ q : Fin 128, (y q - mean y) * (y q - mean y)) w128

/-- Normalise, scale, shift, clip at zero — multiplying by the reciprocal square root. -/
def normK (y g b : Fin 128 → EReal) (q : Fin 128) : EReal :=
  max ((y q - mean y) * Ideal.rsqrt (var y + eps) * g q + b q) zero
/-- Normalise, scale, shift, clip at zero — dividing by the square root. -/
def normR (y g b : Fin 128 → EReal) (q : Fin 128) : EReal :=
  max (Ideal.div (y q - mean y) (Ideal.sqrt (var y + eps)) * g q + b q) zero

/-- The dense layer's output with the two halves contracted separately. -/
def preK (s : Fin 128 → EReal) (c : EReal) (o : Fin 128 → EReal) (wa wo : Fin 128 → Fin 128 → EReal)
    (b : Fin 128 → EReal) (q : Fin 128) : EReal :=
  (∑ k : Fin 128, Ideal.div (s k) (max one c) * wa k q) + (∑ k : Fin 128, o k * wo k q) + b q

/-- The row `[s / d | o]` of width 256. -/
def catRow (s : Fin 128 → EReal) (d : EReal) (o : Fin 128 → EReal) (k : Fin 256) : EReal :=
  if h : k.val < 128 then Ideal.div (s ⟨k.val, h⟩) d else o ⟨k.val - 128, by omega⟩

/-- The dense layer's output with all 256 columns contracted in one sum. -/
def preR (s : Fin 128 → EReal) (c : EReal) (o : Fin 128 → EReal) (w : Fin 256 → Fin 128 → EReal)
    (b : Fin 128 → EReal) (q : Fin 128) : EReal :=
  (∑ k : Fin 256, catRow s (max one c) o k * w k q) + b q

/-- The update in the first arrangement. -/
def updRowK (s : Fin 128 → EReal) (c : EReal) (o : Fin 128 → EReal) (wa wo : Fin 128 → Fin 128 → EReal)
    (b g bln : Fin 128 → EReal) (q : Fin 128) : EReal :=
  normK (preK s c o wa wo b) g bln q

/-- The update in the second arrangement. -/
def updRowR (s : Fin 128 → EReal) (c : EReal) (o : Fin 128 → EReal) (w : Fin 256 → Fin 128 → EReal)
    (b g bln : Fin 128 → EReal) (q : Fin 128) : EReal :=
  normR (preR s c o w b) g bln q

/-- The word `0x43000000` denotes the real `128`. -/
theorem w128_eq : w128 = ((128 : ℝ) : EReal) := by
  unfold w128
  simp [Ideal.ofBits, Ideal.ieee, -EReal.coe_mul]; norm_num

theorem eps_pos : 0 < eps := Idealize.ShloMosaic.LayerNorm.ofBits_eps_f32_pos

/-- The radicand of the normalisation is positive whatever the row holds. -/
theorem radicand_pos (y : Fin 128 → EReal) : 0 < var y + eps := by
  unfold var
  rw [w128_eq]
  exact Idealize.ShloMosaic.LayerNorm.meanSq_add_pos (fun q => y q - mean y) (by norm_num) eps_pos

/-- The two normalisations agree on every row. -/
theorem normK_eq_normR (y g b : Fin 128 → EReal) (q : Fin 128) : normK y g b q = normR y g b q := by
  unfold normK normR
  rw [Idealize.ShloMosaic.LayerNorm.mul_rsqrt_eq_div_sqrt _ (radicand_pos y)]

/-- One sum over the 256 columns is the sum over the first 128 plus the sum over the last 128. -/
theorem preR_split (s : Fin 128 → EReal) (c : EReal) (o : Fin 128 → EReal) (w : Fin 256 → Fin 128 → EReal)
    (b : Fin 128 → EReal) (q : Fin 128) :
    preR s c o w b q
      = preK s c o (fun k q => w ⟨k.val, by omega⟩ q) (fun k q => w ⟨128 + k.val, by omega⟩ q) b q := by
  unfold preR preK
  refine congrArg (· + b q) ?_
  have h := Fin.sum_univ_add (a := 128) (b := 128)
    (fun k : Fin (128 + 128) => catRow s (max one c) o k * w k q)
  refine h.trans ?_
  refine congrArg₂ (· + ·) (Finset.sum_congr rfl fun k _ => ?_) (Finset.sum_congr rfl fun k _ => ?_)
  · have hk : (Fin.castAdd 128 k : Fin (128 + 128)).val < 128 := k.isLt
    show catRow s (max one c) o (Fin.castAdd 128 k) * w (Fin.castAdd 128 k) q
      = Ideal.div (s k) (max one c) * w ⟨k.val, by omega⟩ q
    unfold catRow
    rw [dif_pos hk]
    rfl
  · have hk : ¬ (Fin.natAdd 128 k : Fin (128 + 128)).val < 128 := by
      show ¬ 128 + k.val < 128; omega
    show catRow s (max one c) o (Fin.natAdd 128 k) * w (Fin.natAdd 128 k) q
      = o k * w ⟨128 + k.val, by omega⟩ q
    unfold catRow
    rw [dif_neg hk]
    have e : (⟨(Fin.natAdd 128 k : Fin (128 + 128)).val - 128, by show 128 + k.val - 128 < 128; omega⟩ : Fin 128) = k :=
      Fin.ext (by show 128 + k.val - 128 = k.val; omega)
    rw [e]
    rfl

/-- **The law**: the two arrangements of the update are one function of the rows and the weights. -/
theorem updRowR_eq_updRowK (s : Fin 128 → EReal) (c : EReal) (o : Fin 128 → EReal) (w : Fin 256 → Fin 128 → EReal)
    (b g bln : Fin 128 → EReal) (q : Fin 128) :
    updRowR s c o w b g bln q
      = updRowK s c o (fun k q => w ⟨k.val, by omega⟩ q) (fun k q => w ⟨128 + k.val, by omega⟩ q) b g bln q := by
  unfold updRowR updRowK
  rw [normK_eq_normR]
  have e : preR s c o w b = preK s c o (fun k q => w ⟨k.val, by omega⟩ q) (fun k q => w ⟨128 + k.val, by omega⟩ q) b :=
    funext fun q => preR_split s c o w b q
  rw [e]

end Cert.GraphStep

end
-- ==== Proof.KStages.lean ====
/-
  The four stages of the kernel program, each equal to the reference's stage as a whole array.

  Stage by stage the program's buffers are the reference's values of the launch memory: the first dense layer's output;
  then, through the shared gather / gate / segment-sum operations, the first update's output (the new constraint
  features); the second dense layer's output; and, through the shared operations again, the second update's output (the
  new variable features). Each dense stage is one sum per entry on both sides. Each update stage is the kernel's
  arrangement on one side and the reference's on the other, joined by the law of the two arrangements.

  Every statement here takes the per-entry readings of a region's final array and of the reference's stage as
  hypotheses; the assembly supplies them.
-/
import proofs.«165290_j80857054314575_2_alg».proof.Proof.Gen.ReferenceIdeal.Read
import proofs.«165290_j80857054314575_2_alg».proof.Proof.KBack
import proofs.«165290_j80857054314575_2_alg».proof.Proof.KWeights
import proofs.«165290_j80857054314575_2_alg».proof.Proof.KChain1
import proofs.«165290_j80857054314575_2_alg».proof.Proof.KChain3
import proofs.«165290_j80857054314575_2_alg».proof.Proof.Spec

set_option maxRecDepth 16384

noncomputable section

namespace Cert.KernelIdeal.Values

open Idealize.ShloMosaic Idealize.ShloMosaic.TcCoe Idealize.SL.Sem Idealize.ShloMosaic.StableHlo
open Idealize.ShloMosaic.ValueIdx
open Cert.KernelIdeal Cert.KernelIdeal.Gen
open Cert.ReferenceIdeal.Read
open Cert.GraphStep

variable (m : (ℓ : Loc nD τ sig) → Buf (Elt Ideal) ℓ) (ρ : Dev nD → PrngReg)

set_option maxHeartbeats 4000000 in
/-- The first dense layer: region 0's output array is the reference's `vh · Wᵀ + b`. -/
theorem stage_dense1 (c : Dev nD)
    (hK : ∀ (p : Fin 200000) (q : Fin 128), (dat0 (F := Ideal) (V1 m ρ) c).arrAt 3 cfg0.N (ix2 p q)
      = denseRow (fun k => (V1 m ρ c main_arg0 : S200000x128.Idx → EReal) (ix2 p k))
          (fun k q' => (V1 m ρ c main_v5 : S128x128.Idx → EReal) (ix2 k q'))
          (fun q' => (V1 m ρ c main_v6 : S1x128.Idx → EReal) (ix2 0 q')) q)
    (hR : ∀ (p : Fin 200000) (q : Fin 128), val_main_v20 (F := Ideal) (m ((c : Thread nD τ).loc main_arg0)) (m ((c : Thread nD τ).loc main_arg4)) (m ((c : Thread nD τ).loc main_arg5)) (ix2 p q)
      = denseRow (fun k => ((m ((c : Thread nD τ).loc main_arg0)) : S200000x128.Idx → EReal) (ix2 p k))
          (fun k q' => ((m ((c : Thread nD τ).loc main_arg4)) : S128x128.Idx → EReal) (ix2 q' k))
          (fun q' => ((m ((c : Thread nD τ).loc main_arg5)) : S128.Idx → EReal) (ix1 q')) q) :
    W2 m ρ c (Proc.devRef .tc main_v7) = val_main_v20 (F := Ideal) (m ((c : Thread nD τ).loc main_arg0)) (m ((c : Thread nD τ).loc main_arg4)) (m ((c : Thread nD τ).loc main_arg5)) := by
  refine (W2_arr m ρ c 3).trans ?_
  funext i
  obtain ⟨p, q, rfl⟩ : ∃ (p : Fin 200000) (q : Fin 128), i = ix2 p q := ⟨i 0, i 1, eq_ix2 i⟩
  rw [hK p q, hR p q]
  have e0 : (V1 m ρ c main_arg0 : S200000x128.Idx → EReal) = (m ((c : Thread nD τ).loc main_arg0)) := W1_arg0 m ρ c
  rw [e0]
  simp only [V1_v5 m ρ c, V1_v6 m ρ c]

set_option maxHeartbeats 4000000 in
/-- The first update: region 1's output array is the reference's new constraint features. -/
theorem stage_upd1 (c : Dev nD)
    (h7 : W2 m ρ c (Proc.devRef .tc main_v7) = val_main_v20 (F := Ideal) (m ((c : Thread nD τ).loc main_arg0)) (m ((c : Thread nD τ).loc main_arg4)) (m ((c : Thread nD τ).loc main_arg5)))
    (hK : ∀ (p : Fin 50000) (q : Fin 128), (dat1 (F := Ideal) (V3 m ρ) c).arrAt 8 cfg1.N (ix2 p q)
      = updRowK (fun k => (V3 m ρ c main_v29 : S50000x128.Idx → EReal) (ix2 p k))
          ((V3 m ρ c main_v34 : S50000x1.Idx → EReal) (ix2 p 0))
          (fun k => (V3 m ρ c main_arg1 : S50000x128.Idx → EReal) (ix2 p k))
          (fun k q' => (V3 m ρ c main_v36 : S128x128.Idx → EReal) (ix2 k q'))
          (fun k q' => (V3 m ρ c main_v37 : S128x128.Idx → EReal) (ix2 k q'))
          (fun q' => (V3 m ρ c main_v38 : S1x128.Idx → EReal) (ix2 0 q'))
          (fun q' => (V3 m ρ c main_v39 : S1x128.Idx → EReal) (ix2 0 q'))
          (fun q' => (V3 m ρ c main_v40 : S1x128.Idx → EReal) (ix2 0 q')) q)
    (hR : ∀ (p : Fin 50000) (q : Fin 128), val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 p q)
      = updRowR (fun k => val_main_v31 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 p k))
          (val_main_v35 (F := Ideal) (m ((c : Thread nD τ).loc main_arg2)) (ix1 p))
          (fun k => ((m ((c : Thread nD τ).loc main_arg1)) : S50000x128.Idx → EReal) (ix2 p k))
          (fun k q' => ((m ((c : Thread nD τ).loc main_arg8)) : S128x256.Idx → EReal) (ix2 q' k))
          (fun q' => ((m ((c : Thread nD τ).loc main_arg9)) : S128.Idx → EReal) (ix1 q'))
          (fun q' => ((m ((c : Thread nD τ).loc main_arg10)) : S128.Idx → EReal) (ix1 q'))
          (fun q' => ((m ((c : Thread nD τ).loc main_arg11)) : S128.Idx → EReal) (ix1 q')) q) :
    W4 m ρ c (Proc.devRef .tc main_v41) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 8).trans ?_
  funext i
  obtain ⟨p, q, rfl⟩ : ∃ (p : Fin 50000) (q : Fin 128), i = ix2 p q := ⟨i 0, i 1, eq_ix2 i⟩
  rw [hK p q, hR p q, updRowR_eq_updRowK]
  have e29 : (V3 m ρ c main_v29 : S50000x128.Idx → EReal) = val_main_v31 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := V3_v29 m ρ c h7
  have e1 : (V3 m ρ c main_arg1 : S50000x128.Idx → EReal) = (m ((c : Thread nD τ).loc main_arg1)) := W3_arg1 m ρ c
  rw [e29, e1, V3_v34 m ρ c p]
  simp only [V3_v36 m ρ c, V3_v37 m ρ c, V3_v38 m ρ c, V3_v39 m ρ c, V3_v40 m ρ c]

/-- The new constraint features reach region 2 unchanged: no operation of the stretch between writes them. -/
theorem V5_v41 (c : Dev nD) : V5 m ρ c main_v41 = W4 m ρ c (Proc.devRef .tc main_v41) := by
  show StableHlo.after hostOps2 (W4 m ρ c) (Proc.devRef .tc main_v41) = _
  unwritten_by hostOps2

set_option maxHeartbeats 4000000 in
/-- The second dense layer: region 2's output array is the reference's `ch_new · Wᵀ + b`. -/
theorem stage_dense2 (c : Dev nD)
    (h41 : W4 m ρ c (Proc.devRef .tc main_v41) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (hK : ∀ (p : Fin 50000) (q : Fin 128), (dat2 (F := Ideal) (V5 m ρ) c).arrAt 3 cfg2.N (ix2 p q)
      = denseRow (fun k => (V5 m ρ c main_v41 : S50000x128.Idx → EReal) (ix2 p k))
          (fun k q' => (V5 m ρ c main_v42 : S128x128.Idx → EReal) (ix2 k q'))
          (fun q' => (V5 m ρ c main_v43 : S1x128.Idx → EReal) (ix2 0 q')) q)
    (hR : ∀ (p : Fin 50000) (q : Fin 128), val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 p q)
      = denseRow (fun k => val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 p k))
          (fun k q' => ((m ((c : Thread nD τ).loc main_arg12)) : S128x128.Idx → EReal) (ix2 q' k))
          (fun q' => ((m ((c : Thread nD τ).loc main_arg13)) : S128.Idx → EReal) (ix1 q')) q) :
    W6 m ρ c (Proc.devRef .tc main_v44) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr m ρ c 3).trans ?_
  funext i
  obtain ⟨p, q, rfl⟩ : ∃ (p : Fin 50000) (q : Fin 128), i = ix2 p q := ⟨i 0, i 1, eq_ix2 i⟩
  rw [hK p q, hR p q]
  have e41 : (V5 m ρ c main_v41 : S50000x128.Idx → EReal) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
    (V5_v41 m ρ c).trans h41
  rw [e41]
  simp only [V5_v42 m ρ c, V5_v43 m ρ c]

set_option maxHeartbeats 4000000 in
/-- The second update: region 3's output array is the reference's new variable features. -/
theorem stage_upd2 (c : Dev nD)
    (h44 : W6 m ρ c (Proc.devRef .tc main_v44) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (hK : ∀ (p : Fin 200000) (q : Fin 128), (dat3 (F := Ideal) (V7 m ρ) c).arrAt 8 cfg3.N (ix2 p q)
      = updRowK (fun k => (V7 m ρ c main_v66 : S200000x128.Idx → EReal) (ix2 p k))
          ((V7 m ρ c main_v71 : S200000x1.Idx → EReal) (ix2 p 0))
          (fun k => (V7 m ρ c main_arg0 : S200000x128.Idx → EReal) (ix2 p k))
          (fun k q' => (V7 m ρ c main_v73 : S128x128.Idx → EReal) (ix2 k q'))
          (fun k q' => (V7 m ρ c main_v74 : S128x128.Idx → EReal) (ix2 k q'))
          (fun q' => (V7 m ρ c main_v75 : S1x128.Idx → EReal) (ix2 0 q'))
          (fun q' => (V7 m ρ c main_v76 : S1x128.Idx → EReal) (ix2 0 q'))
          (fun q' => (V7 m ρ c main_v77 : S1x128.Idx → EReal) (ix2 0 q')) q)
    (hR : ∀ (p : Fin 200000) (q : Fin 128), val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (ix2 p q)
      = updRowR (fun k => val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix2 p k))
          (val_main_v101 (F := Ideal) (m ((c : Thread nD τ).loc main_arg2)) (ix1 p))
          (fun k => ((m ((c : Thread nD τ).loc main_arg0)) : S200000x128.Idx → EReal) (ix2 p k))
          (fun k q' => ((m ((c : Thread nD τ).loc main_arg16)) : S128x256.Idx → EReal) (ix2 q' k))
          (fun q' => ((m ((c : Thread nD τ).loc main_arg17)) : S128.Idx → EReal) (ix1 q'))
          (fun q' => ((m ((c : Thread nD τ).loc main_arg18)) : S128.Idx → EReal) (ix1 q'))
          (fun q' => ((m ((c : Thread nD τ).loc main_arg19)) : S128.Idx → EReal) (ix1 q')) q) :
    W8 m ρ c (Proc.devRef .tc main_v78) = val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W8_arr m ρ c 8).trans ?_
  funext i
  obtain ⟨p, q, rfl⟩ : ∃ (p : Fin 200000) (q : Fin 128), i = ix2 p q := ⟨i 0, i 1, eq_ix2 i⟩
  rw [hK p q, hR p q, updRowR_eq_updRowK]
  have e66 : (V7 m ρ c main_v66 : S200000x128.Idx → EReal) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := V7_v66 m ρ c h44
  have e0 : (V7 m ρ c main_arg0 : S200000x128.Idx → EReal) = (m ((c : Thread nD τ).loc main_arg0)) := W7_arg0 m ρ c
  rw [e66, e0, V7_v71 m ρ c p]
  simp only [V7_v73 m ρ c, V7_v74 m ρ c, V7_v75 m ρ c, V7_v76 m ρ c, V7_v77 m ρ c]

/-- The new constraint features are still in their buffer at the return: region 2 only reads them, and nothing
    after region 1 writes them. -/
theorem W8_v41 (c : Dev nD) : W8 m ρ c (Proc.devRef .tc main_v41) = W4 m ρ c (Proc.devRef .tc main_v41) :=
  calc W8 m ρ c (Proc.devRef .tc main_v41)
    _ = W7 m ρ c (Proc.devRef .tc main_v41) := W8_of_ne m ρ c main_v41 (by decide)
    _ = W6 m ρ c (Proc.devRef .tc main_v41) := by
          show StableHlo.after hostOps3 (W6 m ρ c) (Proc.devRef .tc main_v41) = _
          unwritten_by hostOps3
    _ = W5 m ρ c (Proc.devRef .tc main_v41) :=
          (W6_arr m ρ c 0).trans (((dat2 (V5 m ρ) c).arrAt_in 0 rfl _).trans (A_eq2 (V5 m ρ) c 0))
    _ = W4 m ρ c (Proc.devRef .tc main_v41) := V5_v41 m ρ c

end Cert.KernelIdeal.Values

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.KDense0.lean ====
/-
  The first dense layer of the kernel program, read as a whole array.

  The region walks the 200000 rows of its input in 20 blocks of 10000 rows. At each block it multiplies the block by the
  whole 128 × 128 weight array, adds the one bias row to every row of the product, and writes the block back to the
  same rows of the output. Entry (r, q) of what one block's step stores is therefore the dense layer's row formula of the
  block's row r; row p of the array lies in block p / 10000 at row p % 10000 of that block, and the blocks cover every
  row. So the output array holds, at (p, q), the dense layer's row formula of row p of the input.
-/
import proofs.«165290_j80857054314575_2_alg».proof.Proof.Gen.KernelIdeal.Frame
import proofs.«165290_j80857054314575_2_alg».proof.Proof.Spec
import proofs.«165290_j80857054314575_2_alg».proof.Proof.LibPlainMatmul
import Idealize.ShloMosaic.Lib.Pipeline.Value
import Idealize.ShloMosaic.Lib.ValueLayout
import Idealize.ShloMosaic.Lib.ValueIdx

noncomputable section

namespace Cert.KernelIdeal.Values

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-- One block's step at an entry: row `r` of the block against column `q` of the weights, plus the bias at `q`. -/
theorem pay0_apply (x0 : Vec Ideal S10000x128 .f32) (x1 : Vec Ideal S128x128 .f32) (x2 : Vec Ideal S1x128 .f32)
    (r : Fin 10000) (q : Fin 128) :
    k0_pay1 (F := Ideal) x0 x1 x2 (ix2 r q)
      = Cert.GraphStep.denseRow (fun k => x0 (ix2 r k)) (fun k q' => x1 (ix2 k q')) (fun q' => x2 (ix2 0 q')) q := by
  unfold k0_pay1 Cert.GraphStep.denseRow
  dsimp only
  simp only [shapeCast_self]
  refine (addf_apply _ _ _).trans ?_
  refine congrArg₂ (· + ·) ?_ ?_
  · exact Idealize.ShloMosaic.PlainMatmul.matmul_zero_apply none x0 x1 r q
  · exact broadcastTo_1b_ab_apply x2 _ r q

/-- The zero offsets of a whole-block access, as a constant function. -/
theorem zero_offsets0 : (![0, 0] : Fin 2 → Nat) = fun _ => 0 := funext fun a => by fin_cases a <;> rfl

/-- The block index of each window at each of the 20 steps: the input and the output move down one block of rows per
    step, the weights and the bias stay at their one block. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Row `r` of the input's block at step `t` is row `10000 t + r` of the input. -/
theorem iblk0_0_apply (c : Dev nD) (t : Fin cfg0.N) (x : S10000x128.Idx) (k : S200000x128.Idx)
    (hk0 : (k 0).val = 10000 * t.val + (x 0).val) (hk1 : (k 1).val = (x 1).val) :
    (iblk0 (F := Ideal) V c 0 t : Vec Ideal S10000x128 .f32) x = (V c main_arg0 : S200000x128.Idx → EReal) k := by
  obtain ⟨e0, e1, -⟩ := block_index0 t
  unfold iblk0
  rw [View.read_apply]
  show V c main_arg0 _ = V c main_arg0 _
  congr 1
  funext a
  apply Fin.ext
  match a with
  | ⟨0, _⟩ => show win0_0.index t 0 * 10000 + 1 * (x 0).val = (k 0).val; rw [e0, hk0]; omega
  | ⟨1, _⟩ => show win0_0.index t 1 * 128 + 1 * (x 1).val = (k 1).val; rw [e1, hk1]; omega

/-- The weights' block at every step is the whole weight array. -/
theorem iblk0_1_apply (c : Dev nD) (t : Fin cfg0.N) (x : S128x128.Idx) :
    (iblk0 (F := Ideal) V c 1 t : Vec Ideal S128x128 .f32) x = (V c main_v5 : S128x128.Idx → EReal) x := by
  obtain ⟨-, -, e2, e3, -⟩ := block_index0 t
  unfold iblk0
  rw [View.read_apply]
  show V c main_v5 _ = V c main_v5 _
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- The bias' block at every step is the whole bias row. -/
theorem iblk0_2_apply (c : Dev nD) (t : Fin cfg0.N) (x : S1x128.Idx) :
    (iblk0 (F := Ideal) V c 2 t : Vec Ideal S1x128 .f32) x = (V c main_v6 : S1x128.Idx → EReal) x := by
  obtain ⟨-, -, -, -, e4, e5, -⟩ := block_index0 t
  unfold iblk0
  rw [View.read_apply]
  show V c main_v6 _ = V c main_v6 _
  congr 1
  funext a
  apply Fin.ext
  match a with
  | ⟨0, _⟩ => show win0_2.index t 0 * 1 + 1 * (x 0).val = (x 0).val; rw [e4]; omega
  | ⟨1, _⟩ => show win0_2.index t 1 * 128 + 1 * (x 1).val = (x 1).val; rw [e5]; omega

/-- The dense layer applied to every row of a 200000-row array: entry `(p, q)` is row `p` against column `q` of the
    weights, plus the bias at `q`. -/
def denseRows0 (A : S200000x128.Idx → EReal) (W : S128x128.Idx → EReal) (B : S1x128.Idx → EReal) :
    S200000x128.Idx → EReal := fun i =>
  Cert.GraphStep.denseRow (fun k => A (ix2 (⟨(i 0).val, idx2_lt0 i⟩ : Fin 200000) k)) (fun k q' => W (ix2 k q'))
    (fun q' => B (ix2 0 q')) (⟨(i 1).val, idx2_lt1 i⟩ : Fin 128)

/-- A row formula over a block's row is the array's row formula at `i` once the block's row is the array's row `i 0`,
    the block's weights and bias are the array's, and the column is `i 1`. -/
theorem denseRows0_of_rows (A : S200000x128.Idx → EReal) (W : S128x128.Idx → EReal) (B : S1x128.Idx → EReal)
    (i : S200000x128.Idx) (x0 : S10000x128.Idx → EReal) (x1 : S128x128.Idx → EReal) (x2 : S1x128.Idx → EReal)
    (r : Fin 10000) (q : Fin 128)
    (h0 : ∀ k : Fin 128, x0 (ix2 r k) = A (ix2 (⟨(i 0).val, idx2_lt0 i⟩ : Fin 200000) k))
    (h1 : ∀ (k q' : Fin 128), x1 (ix2 k q') = W (ix2 k q'))
    (h2 : ∀ q' : Fin 128, x2 (ix2 0 q') = B (ix2 0 q'))
    (hq : q.val = (i 1).val) :
    Cert.GraphStep.denseRow (fun k => x0 (ix2 r k)) (fun k q' => x1 (ix2 k q')) (fun q' => x2 (ix2 0 q')) q
      = denseRows0 A W B i := by
  obtain rfl : q = ⟨(i 1).val, idx2_lt1 i⟩ := Fin.ext hq
  unfold denseRows0
  rw [show (fun k => x0 (ix2 r k)) = _ from funext h0,
    show (fun k q' => x1 (ix2 k q')) = _ from funext fun k => funext (h1 k),
    show (fun q' => x2 (ix2 0 q')) = _ from funext h2]

/-- What step `t` writes back is block `t` of the dense layer of the region's input arrays. -/
theorem flushed0_eq (c : Dev nD) (t : Fin cfg0.N) :
    (dat0 (F := Ideal) V c).flushed 3 t
      = ((cfg0.win 3).blk t).view.read (Elt Ideal) (denseRows0 (V c main_arg0) (V c main_v5) (V c main_v6)) := by
  show (cfg0.win 3).cut (grid0.coords t) ((dat0 V c).after 3 t) = _
  rw [after0_3]
  unfold out0_3
  rw [View.canon_unit_zero zero_offsets0]
  simp only [View.ld_unit_zero (S := S10000x128) zero_offsets0, View.ld_unit_zero (S := S128x128) zero_offsets0,
    View.ld_unit_zero (S := S1x128) zero_offsets0]
  obtain ⟨-, -, -, -, -, -, e6, e7⟩ := block_index0 t
  funext j
  have hj0 : (j 0).val < 10000 := (j 0).isLt
  have hj1 : (j 1).val < 128 := (j 1).isLt
  have hj : (cfg0.win 3).xinj (grid0.coords t) j = ix2 (⟨(j 0).val, hj0⟩ : Fin 10000) (⟨(j 1).val, hj1⟩ : Fin 128) :=
    funext fun a => by
      match a with
      | ⟨0, _⟩ => rfl
      | ⟨1, _⟩ => rfl
  rw [View.read_apply]
  have he0 : ((((cfg0.win 3).blk t).view.emb j) 0).val = 10000 * t.val + (j 0).val := by
    show win0_3.index t 0 * 10000 + 1 * (j 0).val = _
    rw [e6]; omega
  have he1 : ((((cfg0.win 3).blk t).view.emb j) 1).val = (j 1).val := by
    show win0_3.index t 1 * 128 + 1 * (j 1).val = _
    rw [e7]; omega
  refine (congrArg (k0_pay1 (F := Ideal) (iblk0 V c 0 t) (iblk0 V c 1 t) (iblk0 V c 2 t)) hj).trans ?_
  refine (pay0_apply _ _ _ _ _).trans ?_
  exact denseRows0_of_rows (V c main_arg0) (V c main_v5) (V c main_v6) (((cfg0.win 3).blk t).view.emb j) _ _ _ _ _
    (fun k => iblk0_0_apply V c t _ _ he0 rfl) (fun k q' => iblk0_1_apply V c t _) (fun q' => iblk0_2_apply V c t _)
    he1.symm

/-- An index of the output is in step `t`'s block iff each coordinate is in the block's range on its axis. -/
theorem mem_blk0 (t : Fin cfg0.N) (i : S200000x128.Idx) :
    i ∈ ((cfg0.win 3).blk t).view.set
      ↔ ∀ a : Fin 2, win0_3.index t a * S10000x128.size a ≤ (i a).val
          ∧ (i a).val < win0_3.index t a * S10000x128.size a + S10000x128.size a := by
  show i ∈ ((View.whole main_v7).slice (win0_3.rect t)).set ↔ _
  rw [View.set_slice_whole, Rect.mem_set_unit]
  exact Iff.rfl

/-- Every index of the output is in some step's block: row `p` lies in block `p / 10000`. -/
theorem cover0 (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hN : cfg0.N = 20 := N_0
  have hlt : (i 0).val / 10000 < cfg0.N := by rw [hN]; omega
  obtain ⟨-, -, -, -, -, -, e6, e7⟩ := block_index0 ⟨(i 0).val / 10000, hlt⟩
  refine ⟨⟨(i 0).val / 10000, hlt⟩, flush0_3 _, ?_⟩
  rw [mem_blk0]
  intro a
  match a with
  | ⟨0, _⟩ =>
    show win0_3.index ⟨(i 0).val / 10000, hlt⟩ 0 * 10000 ≤ (i 0).val
      ∧ (i 0).val < win0_3.index ⟨(i 0).val / 10000, hlt⟩ 0 * 10000 + 10000
    rw [e6]
    show (i 0).val / 10000 * 10000 ≤ (i 0).val ∧ (i 0).val < (i 0).val / 10000 * 10000 + 10000
    omega
  | ⟨1, _⟩ =>
    show win0_3.index ⟨(i 0).val / 10000, hlt⟩ 1 * 128 ≤ (i 1).val
      ∧ (i 1).val < win0_3.index ⟨(i 0).val / 10000, hlt⟩ 1 * 128 + 128
    rw [e7]
    omega

/-- The output array after the region: the dense layer of the region's input arrays, row by row. -/
theorem final0_arr (c : Dev nD) :
    (dat0 (F := Ideal) V c).arrAt 3 cfg0.N = denseRows0 (V c main_arg0) (V c main_v5) (V c main_v6) :=
  (dat0 (F := Ideal) V c).arrAt_eq_of_cover 3 (denseRows0 (V c main_arg0) (V c main_v5) (V c main_v6))
    (fun t _ => flushed0_eq V c t) cover0

/-- **The first dense region's output at an entry**: row `p` of the input against column `q` of the weights, plus the
    bias at `q`. -/
theorem final0 (c : Dev nD) (p : Fin 200000) (q : Fin 128) :
    (dat0 (F := Ideal) V c).arrAt 3 cfg0.N (ix2 p q)
      = Cert.GraphStep.denseRow (fun k => V c main_arg0 (ix2 p k)) (fun k q' => V c main_v5 (ix2 k q'))
          (fun q' => V c main_v6 (ix2 0 q')) q :=
  (congrFun (final0_arr V c) (ix2 p q)).trans rfl

end Cert.KernelIdeal.Values

end
-- ==== Proof.KDense2.lean ====
/-
  The second dense layer of the kernel program, read as a whole array.

  The region walks the 50000 rows of its input in 5 blocks of 10000 rows. At each block it multiplies the block by the
  whole 128 × 128 weight array, adds the one bias row to every row of the product, and writes the block back to the
  same rows of the output. Entry (r, q) of what one block's step stores is therefore the dense layer's row formula of the
  block's row r; row p of the array lies in block p / 10000 at row p % 10000 of that block, and the blocks cover every
  row. So the output array holds, at (p, q), the dense layer's row formula of row p of the input.
-/
import proofs.«165290_j80857054314575_2_alg».proof.Proof.Gen.KernelIdeal.Frame
import proofs.«165290_j80857054314575_2_alg».proof.Proof.Spec
import proofs.«165290_j80857054314575_2_alg».proof.Proof.LibPlainMatmul
import Idealize.ShloMosaic.Lib.Pipeline.Value
import Idealize.ShloMosaic.Lib.ValueLayout
import Idealize.ShloMosaic.Lib.ValueIdx

noncomputable section

namespace Cert.KernelIdeal.Values

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-- One block's step at an entry: row `r` of the block against column `q` of the weights, plus the bias at `q`. -/
theorem pay2_apply (x0 : Vec Ideal S10000x128 .f32) (x1 : Vec Ideal S128x128 .f32) (x2 : Vec Ideal S1x128 .f32)
    (r : Fin 10000) (q : Fin 128) :
    k2_pay1 (F := Ideal) x0 x1 x2 (ix2 r q)
      = Cert.GraphStep.denseRow (fun k => x0 (ix2 r k)) (fun k q' => x1 (ix2 k q')) (fun q' => x2 (ix2 0 q')) q := by
  unfold k2_pay1 Cert.GraphStep.denseRow
  dsimp only
  simp only [shapeCast_self]
  refine (addf_apply _ _ _).trans ?_
  refine congrArg₂ (· + ·) ?_ ?_
  · exact Idealize.ShloMosaic.PlainMatmul.matmul_zero_apply none x0 x1 r q
  · exact broadcastTo_1b_ab_apply x2 _ r q

/-- The zero offsets of a whole-block access, as a constant function. -/
theorem zero_offsets2 : (![0, 0] : Fin 2 → Nat) = fun _ => 0 := funext fun a => by fin_cases a <;> rfl

/-- The block index of each window at each of the 5 steps: the input and the output move down one block of rows per
    step, the weights and the bias stay at their one block. -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Row `r` of the input's block at step `t` is row `10000 t + r` of the input. -/
theorem iblk2_0_apply (c : Dev nD) (t : Fin cfg2.N) (x : S10000x128.Idx) (k : S50000x128.Idx)
    (hk0 : (k 0).val = 10000 * t.val + (x 0).val) (hk1 : (k 1).val = (x 1).val) :
    (iblk2 (F := Ideal) V c 0 t : Vec Ideal S10000x128 .f32) x = (V c main_v41 : S50000x128.Idx → EReal) k := by
  obtain ⟨e0, e1, -⟩ := block_index2 t
  unfold iblk2
  rw [View.read_apply]
  show V c main_v41 _ = V c main_v41 _
  congr 1
  funext a
  apply Fin.ext
  match a with
  | ⟨0, _⟩ => show win2_0.index t 0 * 10000 + 1 * (x 0).val = (k 0).val; rw [e0, hk0]; omega
  | ⟨1, _⟩ => show win2_0.index t 1 * 128 + 1 * (x 1).val = (k 1).val; rw [e1, hk1]; omega

/-- The weights' block at every step is the whole weight array. -/
theorem iblk2_1_apply (c : Dev nD) (t : Fin cfg2.N) (x : S128x128.Idx) :
    (iblk2 (F := Ideal) V c 1 t : Vec Ideal S128x128 .f32) x = (V c main_v42 : S128x128.Idx → EReal) x := by
  obtain ⟨-, -, e2, e3, -⟩ := block_index2 t
  unfold iblk2
  rw [View.read_apply]
  show V c main_v42 _ = V c main_v42 _
  congr 1
  funext a
  apply Fin.ext
  match a with
  | ⟨0, _⟩ => show win2_1.index t 0 * 128 + 1 * (x 0).val = (x 0).val; rw [e2]; omega
  | ⟨1, _⟩ => show win2_1.index t 1 * 128 + 1 * (x 1).val = (x 1).val; rw [e3]; omega

/-- The bias' block at every step is the whole bias row. -/
theorem iblk2_2_apply (c : Dev nD) (t : Fin cfg2.N) (x : S1x128.Idx) :
    (iblk2 (F := Ideal) V c 2 t : Vec Ideal S1x128 .f32) x = (V c main_v43 : S1x128.Idx → EReal) x := by
  obtain ⟨-, -, -, -, e4, e5, -⟩ := block_index2 t
  unfold iblk2
  rw [View.read_apply]
  show V c main_v43 _ = V c main_v43 _
  congr 1
  funext a
  apply Fin.ext
  match a with
  | ⟨0, _⟩ => show win2_2.index t 0 * 1 + 1 * (x 0).val = (x 0).val; rw [e4]; omega
  | ⟨1, _⟩ => show win2_2.index t 1 * 128 + 1 * (x 1).val = (x 1).val; rw [e5]; omega

/-- The dense layer applied to every row of a 50000-row array: entry `(p, q)` is row `p` against column `q` of the
    weights, plus the bias at `q`. -/
def denseRows2 (A : S50000x128.Idx → EReal) (W : S128x128.Idx → EReal) (B : S1x128.Idx → EReal) :
    S50000x128.Idx → EReal := fun i =>
  Cert.GraphStep.denseRow (fun k => A (ix2 (⟨(i 0).val, idx2_lt0 i⟩ : Fin 50000) k)) (fun k q' => W (ix2 k q'))
    (fun q' => B (ix2 0 q')) (⟨(i 1).val, idx2_lt1 i⟩ : Fin 128)

/-- A row formula over a block's row is the array's row formula at `i` once the block's row is the array's row `i 0`,
    the block's weights and bias are the array's, and the column is `i 1`. -/
theorem denseRows2_of_rows (A : S50000x128.Idx → EReal) (W : S128x128.Idx → EReal) (B : S1x128.Idx → EReal)
    (i : S50000x128.Idx) (x0 : S10000x128.Idx → EReal) (x1 : S128x128.Idx → EReal) (x2 : S1x128.Idx → EReal)
    (r : Fin 10000) (q : Fin 128)
    (h0 : ∀ k : Fin 128, x0 (ix2 r k) = A (ix2 (⟨(i 0).val, idx2_lt0 i⟩ : Fin 50000) k))
    (h1 : ∀ (k q' : Fin 128), x1 (ix2 k q') = W (ix2 k q'))
    (h2 : ∀ q' : Fin 128, x2 (ix2 0 q') = B (ix2 0 q'))
    (hq : q.val = (i 1).val) :
    Cert.GraphStep.denseRow (fun k => x0 (ix2 r k)) (fun k q' => x1 (ix2 k q')) (fun q' => x2 (ix2 0 q')) q
      = denseRows2 A W B i := by
  obtain rfl : q = ⟨(i 1).val, idx2_lt1 i⟩ := Fin.ext hq
  unfold denseRows2
  rw [show (fun k => x0 (ix2 r k)) = _ from funext h0,
    show (fun k q' => x1 (ix2 k q')) = _ from funext fun k => funext (h1 k),
    show (fun q' => x2 (ix2 0 q')) = _ from funext h2]

/-- What step `t` writes back is block `t` of the dense layer of the region's input arrays. -/
theorem flushed2_eq (c : Dev nD) (t : Fin cfg2.N) :
    (dat2 (F := Ideal) V c).flushed 3 t
      = ((cfg2.win 3).blk t).view.read (Elt Ideal) (denseRows2 (V c main_v41) (V c main_v42) (V c main_v43)) := by
  show (cfg2.win 3).cut (grid2.coords t) ((dat2 V c).after 3 t) = _
  rw [after2_3]
  unfold out2_3
  rw [View.canon_unit_zero zero_offsets2]
  simp only [View.ld_unit_zero (S := S10000x128) zero_offsets2, View.ld_unit_zero (S := S128x128) zero_offsets2,
    View.ld_unit_zero (S := S1x128) zero_offsets2]
  obtain ⟨-, -, -, -, -, -, e6, e7⟩ := block_index2 t
  funext j
  have hj0 : (j 0).val < 10000 := (j 0).isLt
  have hj1 : (j 1).val < 128 := (j 1).isLt
  have hj : (cfg2.win 3).xinj (grid2.coords t) j = ix2 (⟨(j 0).val, hj0⟩ : Fin 10000) (⟨(j 1).val, hj1⟩ : Fin 128) :=
    funext fun a => by
      match a with
      | ⟨0, _⟩ => rfl
      | ⟨1, _⟩ => rfl
  rw [View.read_apply]
  have he0 : ((((cfg2.win 3).blk t).view.emb j) 0).val = 10000 * t.val + (j 0).val := by
    show win2_3.index t 0 * 10000 + 1 * (j 0).val = _
    rw [e6]; omega
  have he1 : ((((cfg2.win 3).blk t).view.emb j) 1).val = (j 1).val := by
    show win2_3.index t 1 * 128 + 1 * (j 1).val = _
    rw [e7]; omega
  refine (congrArg (k2_pay1 (F := Ideal) (iblk2 V c 0 t) (iblk2 V c 1 t) (iblk2 V c 2 t)) hj).trans ?_
  refine (pay2_apply _ _ _ _ _).trans ?_
  exact denseRows2_of_rows (V c main_v41) (V c main_v42) (V c main_v43) (((cfg2.win 3).blk t).view.emb j) _ _ _ _ _
    (fun k => iblk2_0_apply V c t _ _ he0 rfl) (fun k q' => iblk2_1_apply V c t _) (fun q' => iblk2_2_apply V c t _)
    he1.symm

/-- An index of the output is in step `t`'s block iff each coordinate is in the block's range on its axis. -/
theorem mem_blk2 (t : Fin cfg2.N) (i : S50000x128.Idx) :
    i ∈ ((cfg2.win 3).blk t).view.set
      ↔ ∀ a : Fin 2, win2_3.index t a * S10000x128.size a ≤ (i a).val
          ∧ (i a).val < win2_3.index t a * S10000x128.size a + S10000x128.size a := by
  show i ∈ ((View.whole main_v44).slice (win2_3.rect t)).set ↔ _
  rw [View.set_slice_whole, Rect.mem_set_unit]
  exact Iff.rfl

/-- Every index of the output is in some step's block: row `p` lies in block `p / 10000`. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 5 := N_2
  have hlt : (i 0).val / 10000 < cfg2.N := by rw [hN]; omega
  obtain ⟨-, -, -, -, -, -, e6, e7⟩ := block_index2 ⟨(i 0).val / 10000, hlt⟩
  refine ⟨⟨(i 0).val / 10000, hlt⟩, flush2_3 _, ?_⟩
  rw [mem_blk2]
  intro a
  match a with
  | ⟨0, _⟩ =>
    show win2_3.index ⟨(i 0).val / 10000, hlt⟩ 0 * 10000 ≤ (i 0).val
      ∧ (i 0).val < win2_3.index ⟨(i 0).val / 10000, hlt⟩ 0 * 10000 + 10000
    rw [e6]
    show (i 0).val / 10000 * 10000 ≤ (i 0).val ∧ (i 0).val < (i 0).val / 10000 * 10000 + 10000
    omega
  | ⟨1, _⟩ =>
    show win2_3.index ⟨(i 0).val / 10000, hlt⟩ 1 * 128 ≤ (i 1).val
      ∧ (i 1).val < win2_3.index ⟨(i 0).val / 10000, hlt⟩ 1 * 128 + 128
    rw [e7]
    omega

/-- The output array after the region: the dense layer of the region's input arrays, row by row. -/
theorem final2_arr (c : Dev nD) :
    (dat2 (F := Ideal) V c).arrAt 3 cfg2.N = denseRows2 (V c main_v41) (V c main_v42) (V c main_v43) :=
  (dat2 (F := Ideal) V c).arrAt_eq_of_cover 3 (denseRows2 (V c main_v41) (V c main_v42) (V c main_v43))
    (fun t _ => flushed2_eq V c t) cover2

/-- **The second dense region's output at an entry**: row `p` of the input against column `q` of the weights, plus the
    bias at `q`. -/
theorem final2 (c : Dev nD) (p : Fin 50000) (q : Fin 128) :
    (dat2 (F := Ideal) V c).arrAt 3 cfg2.N (ix2 p q)
      = Cert.GraphStep.denseRow (fun k => V c main_v41 (ix2 p k)) (fun k q' => V c main_v42 (ix2 k q'))
          (fun q' => V c main_v43 (ix2 0 q')) q :=
  (congrFun (final2_arr V c) (ix2 p q)).trans rfl

end Cert.KernelIdeal.Values

end
-- ==== Proof.KUpd1Pay.lean ====
/-
  The update body at one entry of a block of 5000 rows.

  A block holds 5000 rows: the aggregated messages `s`, the edge counts `c` (one column), the nodes' own rows `o`; the
  two weight halves, the bias, the scale and the shift are whole. Entry `(r, q)` of what the body stores is the update
  of row `r` at feature `q`: the row of `s` divided by `max 1 c`, contracted against the first weight half, plus the
  row of `o` contracted against the second, plus the bias; then the mean over the 128 features, the mean of the squared
  deviations, the reciprocal square root of that plus ε; scale, shift, and the maximum with zero. Each lane sum is a sum
  over the row's 128 entries, kept as a column and read back along the row.
-/
import proofs.«165290_j80857054314575_2_alg».proof.Proof.Gen.KernelIdeal.Skeleton
import proofs.«165290_j80857054314575_2_alg».proof.Proof.Spec
import proofs.«165290_j80857054314575_2_alg».proof.Proof.LibPlainMatmul
import proofs.«165290_j80857054314575_2_alg».proof.Proof.LibColumnLayout
import Idealize.ShloMosaic.Lib.ValueLayout
import Idealize.ShloMosaic.Lib.ValueIdx

noncomputable section

namespace Cert.KernelIdeal.Values

open Cert.KernelIdeal Cert.KernelIdeal.Gen Idealize.ShloMosaic Idealize.ShloMosaic.ValueIdx
open scoped BigOperators

/-- The product of a block of 5000 rows with a whole weight half, into the zero block, at an entry. -/
theorem product1_apply (A : FVec Ideal S5000x128 .f32) (B : FVec Ideal S128x128 .f32) (r : Fin 5000) (q : Fin 128) :
    matmul dot_S5000x128_S128x128_S5000x128_1_0_0_1_n_n none A B (constant S5000x128 .f32 0x00000000#32) (ix2 r q)
      = ∑ k : Fin 128, A (ix2 r k) * B (ix2 k q) :=
  PlainMatmul.matmul_zero_apply (m := 5000) (k := 128) (n := 128) none A B r q

/-- The lane sum of a block of 5000 rows from the zero word, at a row. -/
theorem laneSum1_apply (src : FVec Ideal S5000x128 .f32) (r : Fin 5000) :
    multiReduction .add [1] S5000 src 0x00000000#32 reduces_S5000x128_S5000 (.inl rfl) rfl (ix1 r)
      = ∑ k : Fin 128, src (ix2 r k) :=
  ColumnLayout.rowSum_apply (a := 5000) (b := 128) src _ _ _ r

section Block

variable (x0 : Vec Ideal S5000x128 .f32) (x1 : Vec Ideal S5000x1 .f32) (x2 : Vec Ideal S5000x128 .f32)
  (x3 x4 : Vec Ideal S128x128 .f32) (x5 x6 x7 : Vec Ideal S1x128 .f32)

/-- Row `r` of the block through the dense layer, the two halves contracted separately. -/
def pre1 (r : Fin 5000) : Fin 128 → EReal :=
  Cert.GraphStep.preK (fun k => x0 (ix2 r k)) (x1 (ix2 r 0)) (fun k => x2 (ix2 r k))
    (fun k q' => x3 (ix2 k q')) (fun k q' => x4 (ix2 k q')) (fun q' => x5 (ix2 0 q'))

/-- The dense layer's output at an entry. -/
theorem k1_pay2_apply (r : Fin 5000) (q : Fin 128) :
    k1_pay2 (F := Ideal) x0 x1 x2 x3 x4 x5 (ix2 r q) = pre1 x0 x1 x2 x3 x4 x5 r q := by
  unfold k1_pay2
  simp only [shapeCast_self]
  rw [addf_apply, addf_apply, product1_apply, product1_apply, broadcastTo_1b_ab_apply]
  unfold pre1 Cert.GraphStep.preK
  refine congrArg₂ (fun a b : EReal => a + b) (congrArg₂ (fun a b : EReal => a + b) ?_ rfl) rfl
  refine Finset.sum_congr rfl fun k _ => ?_
  rw [divf_apply, ColumnLayout.broadcastTo_a1_ab_apply, maximumf_apply, broadcast_apply]
  rfl

/-- The mean of the dense layer's output over a row, kept as a column. -/
theorem k1_pay3_apply (r : Fin 5000) :
    k1_pay3 (F := Ideal) x0 x1 x2 x3 x4 x5 (ix2 r (0 : Fin 1)) = Cert.GraphStep.mean (pre1 x0 x1 x2 x3 x4 x5 r) := by
  unfold k1_pay3
  rw [divf_apply, ColumnLayout.shapeCast_a_a1_apply, laneSum1_apply, broadcast_apply]
  unfold Cert.GraphStep.mean
  refine congrArg₂ Ideal.div (Finset.sum_congr rfl fun k _ => k1_pay2_apply x0 x1 x2 x3 x4 x5 r k) rfl

/-- The mean read back along the row. -/
theorem k1_pay7_apply (r : Fin 5000) (q : Fin 128) :
    k1_pay7 (F := Ideal) x0 x1 x2 x3 x4 x5 (ix2 r q) = Cert.GraphStep.mean (pre1 x0 x1 x2 x3 x4 x5 r) := by
  unfold k1_pay7
  rw [ColumnLayout.broadcastTo_a1_ab_apply]
  exact k1_pay3_apply x0 x1 x2 x3 x4 x5 r

/-- The mean of the squared deviations over a row, kept as a column. -/
theorem k1_pay4_apply (r : Fin 5000) :
    k1_pay4 (F := Ideal) x0 x1 x2 x3 x4 x5 (ix2 r (0 : Fin 1)) = Cert.GraphStep.var (pre1 x0 x1 x2 x3 x4 x5 r) := by
  unfold k1_pay4
  rw [divf_apply, ColumnLayout.shapeCast_a_a1_apply, laneSum1_apply, broadcast_apply]
  unfold Cert.GraphStep.var
  refine congrArg₂ Ideal.div (Finset.sum_congr rfl fun k _ => ?_) rfl
  rw [mulf_apply, subf_apply, ColumnLayout.broadcastTo_a1_ab_apply, k1_pay2_apply, k1_pay3_apply]

/-- **The body's stored value at an entry** is the update of the block's row at that feature. -/
theorem payload1_apply (r : Fin 5000) (q : Fin 128) :
    k1_pay1 (F := Ideal) (k1_pay2 x0 x1 x2 x3 x4 x5) (k1_pay4 x0 x1 x2 x3 x4 x5) (k1_pay5 x6) (k1_pay6 x7)
        (k1_pay7 x0 x1 x2 x3 x4 x5) (ix2 r q)
      = Cert.GraphStep.updRowK (fun k => x0 (ix2 r k)) (x1 (ix2 r 0)) (fun k => x2 (ix2 r k))
          (fun k q' => x3 (ix2 k q')) (fun k q' => x4 (ix2 k q')) (fun q' => x5 (ix2 0 q'))
          (fun q' => x6 (ix2 0 q')) (fun q' => x7 (ix2 0 q')) q := by
  unfold k1_pay1 k1_pay5 k1_pay6
  simp only [shapeCast_self]
  rw [maximumf_apply, addf_apply, mulf_apply, mulf_apply, subf_apply, broadcast_apply,
    broadcastTo_1b_ab_apply, broadcastTo_1b_ab_apply, ColumnLayout.broadcastTo_a1_ab_apply,
    k1_pay2_apply, k1_pay7_apply]
  show max ((_ - _) * Ideal.rsqrt (k1_pay4 (F := Ideal) x0 x1 x2 x3 x4 x5 (ix2 r (0 : Fin 1)) + _) * _ + _) _ = _
  rw [k1_pay4_apply]
  rfl

end Block

end Cert.KernelIdeal.Values

end
-- ==== Proof.KUpd1Blk.lean ====
/-
  From the blocks of 5000 rows to the whole array of 50000 rows.

  The grid has 10 points; point `t` reads rows `5000·t … 5000·t + 4999` of the three row-blocked arrays and the whole
  of the five small ones, and writes rows `5000·t … 5000·t + 4999` of the result. When the body's stored value at entry
  `(r, q)` of a block is a function `R` of the block's row `r` and the small arrays (the hypothesis `hpay`), every
  point writes its block of ONE whole-array function: entry `(p, q)` is `R` of the arrays' row `p`. Row `p` lies in
  block `p / 5000`, so the blocks cover the array and the array ends holding that function.
-/
import proofs.«165290_j80857054314575_2_alg».proof.Proof.Gen.KernelIdeal.Frame
import Idealize.ShloMosaic.Lib.Pipeline.Value
import Idealize.ShloMosaic.Lib.ValueIdx

noncomputable section

namespace Cert.KernelIdeal.Values

open Cert.KernelIdeal Cert.KernelIdeal.Gen Idealize.ShloMosaic Idealize.ShloMosaic.ValueIdx
open Idealize.ShloMosaic.TcCoe Idealize.SL.Sem
open Idealize.ShloMosaic.Pipeline (Dat)

theorem zeroOffsets1 : (![0, 0] : Fin 2 → Nat) = fun _ => 0 := funext fun a => by fin_cases a <;> rfl

/-- The printed index maps over the grid: the three row-blocked inputs and the output move with the point along the
    rows, the five small inputs stay at their whole array. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The array's row under row `r` of the block at point `t`. -/
def arrRow1 (t : Fin cfg1.N) (r : Fin 5000) : Fin 50000 :=
  ⟨t.val * 5000 + r.val, by
    have h : t.val < 10 := Nat.lt_of_lt_of_eq t.isLt N_1
    have := r.isLt; omega⟩

section Arrays

variable (V : (c : Dev nD) → (b : Ref sig .tc) → Buf (Elt Ideal) ((c : Thread nD τ).loc b))

/-- Window 0's block at point `t`, at row `r`: the array's row `5000·t + r`. -/
theorem block1_0_apply (c : Dev nD) (t : Fin cfg1.N) (r : Fin 5000) (k : Fin 128) :
    (iblk1 V c 0 t : S5000x128.Idx → EReal) (ix2 r k) = (V c main_v29 : S50000x128.Idx → EReal) (ix2 (arrRow1 t r) k) := by
  obtain ⟨e0, e1, -, -, -, -, -, -, -, -, -, -, -, -, -, -, -, -⟩ := blockIndex1 t
  unfold iblk1
  rw [View.read_apply]
  show V c main_v29 _ = V c main_v29 _
  congr 1
  funext a
  apply Fin.ext
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- Window 1's block at point `t`, at row `r`: the array's row `5000·t + r`. -/
theorem block1_1_apply (c : Dev nD) (t : Fin cfg1.N) (r : Fin 5000) (k : Fin 1) :
    (iblk1 V c 1 t : S5000x1.Idx → EReal) (ix2 r k) = (V c main_v34 : S50000x1.Idx → EReal) (ix2 (arrRow1 t r) k) := by
  obtain ⟨-, -, e0, e1, -, -, -, -, -, -, -, -, -, -, -, -, -, -⟩ := blockIndex1 t
  unfold iblk1
  rw [View.read_apply]
  show V c main_v34 _ = V c main_v34 _
  congr 1
  funext a
  apply Fin.ext
  match a with
  | ⟨0, _⟩ => show win1_1.index t (0 : Fin 2) * 5000 + 1 * r.val = t.val * 5000 + r.val; rw [e0]; omega
  | ⟨1, _⟩ => show win1_1.index t (1 : Fin 2) * 1 + 1 * k.val = k.val; rw [e1]; omega

/-- Window 2's block at point `t`, at row `r`: the array's row `5000·t + r`. -/
theorem block1_2_apply (c : Dev nD) (t : Fin cfg1.N) (r : Fin 5000) (k : Fin 128) :
    (iblk1 V c 2 t : S5000x128.Idx → EReal) (ix2 r k) = (V c main_arg1 : S50000x128.Idx → EReal) (ix2 (arrRow1 t r) k) := by
  obtain ⟨-, -, -, -, e0, e1, -, -, -, -, -, -, -, -, -, -, -, -⟩ := blockIndex1 t
  unfold iblk1
  rw [View.read_apply]
  show V c main_arg1 _ = V c main_arg1 _
  congr 1
  funext a
  apply Fin.ext
  match a with
  | ⟨0, _⟩ => show win1_2.index t (0 : Fin 2) * 5000 + 1 * r.val = t.val * 5000 + r.val; rw [e0]; omega
  | ⟨1, _⟩ => show win1_2.index t (1 : Fin 2) * 128 + 1 * k.val = k.val; rw [e1]; omega

/-- Window 3's block at every point is its whole array. -/
theorem block1_3_apply (c : Dev nD) (t : Fin cfg1.N) (k : Fin 128) (q : Fin 128) :
    (iblk1 V c 3 t : S128x128.Idx → EReal) (ix2 k q) = (V c main_v36 : S128x128.Idx → EReal) (ix2 k q) := by
  obtain ⟨-, -, -, -, -, -, e0, e1, -, -, -, -, -, -, -, -, -, -⟩ := blockIndex1 t
  unfold iblk1
  rw [View.read_apply]
  show V c main_v36 _ = V c main_v36 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- Window 4's block at every point is its whole array. -/
theorem block1_4_apply (c : Dev nD) (t : Fin cfg1.N) (k : Fin 128) (q : Fin 128) :
    (iblk1 V c 4 t : S128x128.Idx → EReal) (ix2 k q) = (V c main_v37 : S128x128.Idx → EReal) (ix2 k q) := by
  obtain ⟨-, -, -, -, -, -, -, -, e0, e1, -, -, -, -, -, -, -, -⟩ := blockIndex1 t
  unfold iblk1
  rw [View.read_apply]
  show V c main_v37 _ = V c main_v37 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- Window 5's block at every point is its whole array. -/
theorem block1_5_apply (c : Dev nD) (t : Fin cfg1.N) (k : Fin 1) (q : Fin 128) :
    (iblk1 V c 5 t : S1x128.Idx → EReal) (ix2 k q) = (V c main_v38 : S1x128.Idx → EReal) (ix2 k q) := by
  obtain ⟨-, -, -, -, -, -, -, -, -, -, e0, e1, -, -, -, -, -, -⟩ := blockIndex1 t
  unfold iblk1
  rw [View.read_apply]
  show V c main_v38 _ = V c main_v38 _
  congr 1
  funext a
  apply Fin.ext
  match a with
  | ⟨0, _⟩ => show win1_5.index t (0 : Fin 2) * 1 + 1 * k.val = k.val; rw [e0]; omega
  | ⟨1, _⟩ => show win1_5.index t (1 : Fin 2) * 128 + 1 * q.val = q.val; rw [e1]; omega

/-- Window 6's block at every point is its whole array. -/
theorem block1_6_apply (c : Dev nD) (t : Fin cfg1.N) (k : Fin 1) (q : Fin 128) :
    (iblk1 V c 6 t : S1x128.Idx → EReal) (ix2 k q) = (V c main_v39 : S1x128.Idx → EReal) (ix2 k q) := by
  obtain ⟨-, -, -, -, -, -, -, -, -, -, -, -, e0, e1, -, -, -, -⟩ := blockIndex1 t
  unfold iblk1
  rw [View.read_apply]
  show V c main_v39 _ = V c main_v39 _
  congr 1
  funext a
  apply Fin.ext
  match a with
  | ⟨0, _⟩ => show win1_6.index t (0 : Fin 2) * 1 + 1 * k.val = k.val; rw [e0]; omega
  | ⟨1, _⟩ => show win1_6.index t (1 : Fin 2) * 128 + 1 * q.val = q.val; rw [e1]; omega

/-- Window 7's block at every point is its whole array. -/
theorem block1_7_apply (c : Dev nD) (t : Fin cfg1.N) (k : Fin 1) (q : Fin 128) :
    (iblk1 V c 7 t : S1x128.Idx → EReal) (ix2 k q) = (V c main_v40 : S1x128.Idx → EReal) (ix2 k q) := by
  obtain ⟨-, -, -, -, -, -, -, -, -, -, -, -, -, -, e0, e1, -, -⟩ := blockIndex1 t
  unfold iblk1
  rw [View.read_apply]
  show V c main_v40 _ = V c main_v40 _
  congr 1
  funext a
  apply Fin.ext
  match a with
  | ⟨0, _⟩ => show win1_7.index t (0 : Fin 2) * 1 + 1 * k.val = k.val; rw [e0]; omega
  | ⟨1, _⟩ => show win1_7.index t (1 : Fin 2) * 128 + 1 * q.val = q.val; rw [e1]; omega

variable (R : (Fin 128 → EReal) → EReal → (Fin 128 → EReal) → (Fin 128 → Fin 128 → EReal) → (Fin 128 → Fin 128 → EReal) → (Fin 128 → EReal) → (Fin 128 → EReal) → (Fin 128 → EReal) → Fin 128 → EReal)

/-- The whole result array as one function of the arrays the region finds: entry `(p, q)` is `R` of row `p`. -/
def whole1 (c : Dev nD) : S50000x128.Idx → EReal := fun i =>
  R (fun k => (V c main_v29 : S50000x128.Idx → EReal) (ix2 (i 0 : Fin 50000) k))
    ((V c main_v34 : S50000x1.Idx → EReal) (ix2 (i 0 : Fin 50000) (0 : Fin 1)))
    (fun k => (V c main_arg1 : S50000x128.Idx → EReal) (ix2 (i 0 : Fin 50000) k))
    (fun k q' => (V c main_v36 : S128x128.Idx → EReal) (ix2 k q'))
    (fun k q' => (V c main_v37 : S128x128.Idx → EReal) (ix2 k q'))
    (fun q' => (V c main_v38 : S1x128.Idx → EReal) (ix2 (0 : Fin 1) q'))
    (fun q' => (V c main_v39 : S1x128.Idx → EReal) (ix2 (0 : Fin 1) q'))
    (fun q' => (V c main_v40 : S1x128.Idx → EReal) (ix2 (0 : Fin 1) q'))
    (i 1 : Fin 128)

variable (hpay : ∀ (x0 : Vec Ideal S5000x128 .f32) (x1 : Vec Ideal S5000x1 .f32) (x2 : Vec Ideal S5000x128 .f32)
    (x3 x4 : Vec Ideal S128x128 .f32) (x5 x6 x7 : Vec Ideal S1x128 .f32) (r : Fin 5000) (q : Fin 128),
    k1_pay1 (F := Ideal) (k1_pay2 x0 x1 x2 x3 x4 x5) (k1_pay4 x0 x1 x2 x3 x4 x5) (k1_pay5 x6) (k1_pay6 x7)
        (k1_pay7 x0 x1 x2 x3 x4 x5) (ix2 r q)
      = R (fun k => x0 (ix2 r k)) (x1 (ix2 r (0 : Fin 1))) (fun k => x2 (ix2 r k)) (fun k q' => x3 (ix2 k q'))
          (fun k q' => x4 (ix2 k q')) (fun q' => x5 (ix2 (0 : Fin 1) q')) (fun q' => x6 (ix2 (0 : Fin 1) q'))
          (fun q' => x7 (ix2 (0 : Fin 1) q')) q)

include hpay in
/-- What point `t` writes back is block `t` of the whole-array function. -/
theorem flushed1_eq (c : Dev nD) (t : Fin cfg1.N) :
    (dat1 (F := Ideal) V c).flushed 8 t = ((cfg1.win 8).blk t).view.read (Elt Ideal) (whole1 V R c) := by
  show (cfg1.win 8).cut (grid1.coords t) ((dat1 V c).after 8 t) = _
  rw [after1_8]
  unfold out1_8
  rw [View.canon_unit_zero zeroOffsets1]
  simp only [View.ld_unit_zero (S := S5000x128) zeroOffsets1, View.ld_unit_zero (S := S5000x1) zeroOffsets1,
    View.ld_unit_zero (S := S128x128) zeroOffsets1, View.ld_unit_zero (S := S1x128) zeroOffsets1]
  funext j
  obtain ⟨r, q, rfl⟩ : ∃ (r : Fin 5000) (q : Fin 128), j = ix2 r q := ⟨j 0, j 1, eq_ix2 j⟩
  refine (hpay _ _ _ _ _ _ _ _ r q).trans ?_
  rw [View.read_apply]
  have he : ((cfg1.win 8).blk t).view.emb (ix2 r q) = (ix2 (arrRow1 t r) q : S50000x128.Idx) := by
    obtain ⟨-, -, -, -, -, -, -, -, -, -, -, -, -, -, -, -, e0, e1⟩ := blockIndex1 t
    funext a
    apply Fin.ext
    match a with
    | ⟨0, _⟩ => show win1_8.index t (0 : Fin 2) * 5000 + 1 * r.val = t.val * 5000 + r.val; rw [e0]; omega
    | ⟨1, _⟩ => show win1_8.index t (1 : Fin 2) * 128 + 1 * q.val = q.val; rw [e1]; omega
  simp only [block1_0_apply V c t, block1_1_apply V c t, block1_2_apply V c t, block1_3_apply V c t,
    block1_4_apply V c t, block1_5_apply V c t, block1_6_apply V c t, block1_7_apply V c t]
  show _ = whole1 V R c (((cfg1.win 8).blk t).view.emb (ix2 r q))
  rw [he]
  rfl

/-- An index of the array is in point `t`'s block iff each coordinate is in the block's range on its axis. -/
theorem mem_block1 (t : Fin cfg1.N) (i : S50000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v41).slice (win1_8.rect t)).set ↔ _
  rw [View.set_slice_whole, Rect.mem_set_unit]
  exact Iff.rfl

/-- Row `p` lies in block `p / 5000`: the blocks cover the array. -/
theorem cover1 (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have ht : (i 0).val / 5000 < cfg1.N := by rw [show cfg1.N = 10 from N_1]; omega
  obtain ⟨-, -, -, -, -, -, -, -, -, -, -, -, -, -, -, -, e0, e1⟩ := blockIndex1 ⟨(i 0).val / 5000, ht⟩
  refine ⟨⟨(i 0).val / 5000, ht⟩, flush1_8 _, ?_⟩
  rw [mem_block1]
  intro a
  match a with
  | ⟨0, _⟩ =>
    show win1_8.index ⟨(i 0).val / 5000, ht⟩ (0 : Fin 2) * 5000 ≤ (i 0).val ∧ (i 0).val < win1_8.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_8.index ⟨(i 0).val / 5000, ht⟩ (1 : Fin 2) * 128 ≤ (i 1).val ∧ (i 1).val < win1_8.index ⟨(i 0).val / 5000, ht⟩ (1 : Fin 2) * 128 + 128
    rw [e1]
    omega

include hpay in
/-- **The result array after the region**, entry by entry: `R` of the arrays' row `p`, at feature `q`. -/
theorem array1_of_payload (c : Dev nD) (p : Fin 50000) (q : Fin 128) :
    (dat1 (F := Ideal) V c).arrAt 8 cfg1.N (ix2 p q)
      = R (fun k => (V c main_v29 : S50000x128.Idx → EReal) (ix2 p k))
          ((V c main_v34 : S50000x1.Idx → EReal) (ix2 p (0 : Fin 1)))
          (fun k => (V c main_arg1 : S50000x128.Idx → EReal) (ix2 p k))
          (fun k q' => (V c main_v36 : S128x128.Idx → EReal) (ix2 k q'))
          (fun k q' => (V c main_v37 : S128x128.Idx → EReal) (ix2 k q'))
          (fun q' => (V c main_v38 : S1x128.Idx → EReal) (ix2 (0 : Fin 1) q'))
          (fun q' => (V c main_v39 : S1x128.Idx → EReal) (ix2 (0 : Fin 1) q'))
          (fun q' => (V c main_v40 : S1x128.Idx → EReal) (ix2 (0 : Fin 1) q')) q := by
  have h := (dat1 (F := Ideal) V c).arrAt_eq_of_cover 8 (whole1 V R c) (fun t _ => flushed1_eq V R hpay c t) cover1
  exact (congrFun h (ix2 p q)).trans rfl

end Arrays

end Cert.KernelIdeal.Values

end
-- ==== Proof.KUpd1.lean ====
/-
  The result array of the update region over 50000 rows, entry by entry.

  Entry `(p, q)` of the array the region leaves is the update, in the arrangement that contracts the two weight halves
  separately and multiplies by the reciprocal square root, of row `p` of the aggregated messages, the edge counts and
  the nodes' own rows, with the whole weights, bias, scale and shift, at feature `q`: the body's stored value at an
  entry of a block is that update of the block's row, and the blocks of 5000 rows cover the array.
-/
import proofs.«165290_j80857054314575_2_alg».proof.Proof.Gen.KernelIdeal.Frame
import proofs.«165290_j80857054314575_2_alg».proof.Proof.Spec
import proofs.«165290_j80857054314575_2_alg».proof.Proof.LibPlainMatmul
import proofs.«165290_j80857054314575_2_alg».proof.Proof.LibColumnLayout
import proofs.«165290_j80857054314575_2_alg».proof.Proof.KUpd1Pay
import proofs.«165290_j80857054314575_2_alg».proof.Proof.KUpd1Blk

noncomputable section

namespace Cert.KernelIdeal.Values

open Cert.KernelIdeal Cert.KernelIdeal.Gen Idealize.ShloMosaic Idealize.ShloMosaic.ValueIdx
open Idealize.ShloMosaic.TcCoe Idealize.SL.Sem

/-- **The region's result**, at any entry contents `V`: the update of row `p` at feature `q`. -/
theorem final1 (V : (c : Dev nD) → (b : Ref sig .tc) → Buf (Elt Ideal) ((c : Thread nD τ).loc b)) (c : Dev nD)
    (p : Fin 50000) (q : Fin 128) :
    (dat1 (F := Ideal) V c).arrAt 8 cfg1.N (ix2 p q)
      = Cert.GraphStep.updRowK (fun k => (V c main_v29 : S50000x128.Idx → EReal) (ix2 p k))
          ((V c main_v34 : S50000x1.Idx → EReal) (ix2 p 0))
          (fun k => (V c main_arg1 : S50000x128.Idx → EReal) (ix2 p k))
          (fun k q' => (V c main_v36 : S128x128.Idx → EReal) (ix2 k q'))
          (fun k q' => (V c main_v37 : S128x128.Idx → EReal) (ix2 k q'))
          (fun q' => (V c main_v38 : S1x128.Idx → EReal) (ix2 0 q'))
          (fun q' => (V c main_v39 : S1x128.Idx → EReal) (ix2 0 q'))
          (fun q' => (V c main_v40 : S1x128.Idx → EReal) (ix2 0 q')) q :=
  array1_of_payload V Cert.GraphStep.updRowK payload1_apply c p q

end Cert.KernelIdeal.Values

end
-- ==== Proof.KUpd3Pay.lean ====
/-
  The update body at one entry of a block of 8000 rows.

  A block holds 8000 rows: the aggregated messages `s`, the edge counts `c` (one column), the nodes' own rows `o`; the
  two weight halves, the bias, the scale and the shift are whole. Entry `(r, q)` of what the body stores is the update
  of row `r` at feature `q`: the row of `s` divided by `max 1 c`, contracted against the first weight half, plus the
  row of `o` contracted against the second, plus the bias; then the mean over the 128 features, the mean of the squared
  deviations, the reciprocal square root of that plus ε; scale, shift, and the maximum with zero. Each lane sum is a sum
  over the row's 128 entries, kept as a column and read back along the row.
-/
import proofs.«165290_j80857054314575_2_alg».proof.Proof.Gen.KernelIdeal.Skeleton
import proofs.«165290_j80857054314575_2_alg».proof.Proof.Spec
import proofs.«165290_j80857054314575_2_alg».proof.Proof.LibPlainMatmul
import proofs.«165290_j80857054314575_2_alg».proof.Proof.LibColumnLayout
import Idealize.ShloMosaic.Lib.ValueLayout
import Idealize.ShloMosaic.Lib.ValueIdx

noncomputable section

namespace Cert.KernelIdeal.Values

open Cert.KernelIdeal Cert.KernelIdeal.Gen Idealize.ShloMosaic Idealize.ShloMosaic.ValueIdx
open scoped BigOperators

/-- The product of a block of 8000 rows with a whole weight half, into the zero block, at an entry. -/
theorem product3_apply (A : FVec Ideal S8000x128 .f32) (B : FVec Ideal S128x128 .f32) (r : Fin 8000) (q : Fin 128) :
    matmul dot_S8000x128_S128x128_S8000x128_1_0_0_1_n_n none A B (constant S8000x128 .f32 0x00000000#32) (ix2 r q)
      = ∑ k : Fin 128, A (ix2 r k) * B (ix2 k q) :=
  PlainMatmul.matmul_zero_apply (m := 8000) (k := 128) (n := 128) none A B r q

/-- The lane sum of a block of 8000 rows from the zero word, at a row. -/
theorem laneSum3_apply (src : FVec Ideal S8000x128 .f32) (r : Fin 8000) :
    multiReduction .add [1] S8000 src 0x00000000#32 reduces_S8000x128_S8000 (.inl rfl) rfl (ix1 r)
      = ∑ k : Fin 128, src (ix2 r k) :=
  ColumnLayout.rowSum_apply (a := 8000) (b := 128) src _ _ _ r

section Block

variable (x0 : Vec Ideal S8000x128 .f32) (x1 : Vec Ideal S8000x1 .f32) (x2 : Vec Ideal S8000x128 .f32)
  (x3 x4 : Vec Ideal S128x128 .f32) (x5 x6 x7 : Vec Ideal S1x128 .f32)

/-- Row `r` of the block through the dense layer, the two halves contracted separately. -/
def pre3 (r : Fin 8000) : Fin 128 → EReal :=
  Cert.GraphStep.preK (fun k => x0 (ix2 r k)) (x1 (ix2 r 0)) (fun k => x2 (ix2 r k))
    (fun k q' => x3 (ix2 k q')) (fun k q' => x4 (ix2 k q')) (fun q' => x5 (ix2 0 q'))

/-- The dense layer's output at an entry. -/
theorem k3_pay2_apply (r : Fin 8000) (q : Fin 128) :
    k3_pay2 (F := Ideal) x0 x1 x2 x3 x4 x5 (ix2 r q) = pre3 x0 x1 x2 x3 x4 x5 r q := by
  unfold k3_pay2
  simp only [shapeCast_self]
  rw [addf_apply, addf_apply, product3_apply, product3_apply, broadcastTo_1b_ab_apply]
  unfold pre3 Cert.GraphStep.preK
  refine congrArg₂ (fun a b : EReal => a + b) (congrArg₂ (fun a b : EReal => a + b) ?_ rfl) rfl
  refine Finset.sum_congr rfl fun k _ => ?_
  rw [divf_apply, ColumnLayout.broadcastTo_a1_ab_apply, maximumf_apply, broadcast_apply]
  rfl

/-- The mean of the dense layer's output over a row, kept as a column. -/
theorem k3_pay3_apply (r : Fin 8000) :
    k3_pay3 (F := Ideal) x0 x1 x2 x3 x4 x5 (ix2 r (0 : Fin 1)) = Cert.GraphStep.mean (pre3 x0 x1 x2 x3 x4 x5 r) := by
  unfold k3_pay3
  rw [divf_apply, ColumnLayout.shapeCast_a_a1_apply, laneSum3_apply, broadcast_apply]
  unfold Cert.GraphStep.mean
  refine congrArg₂ Ideal.div (Finset.sum_congr rfl fun k _ => k3_pay2_apply x0 x1 x2 x3 x4 x5 r k) rfl

/-- The mean read back along the row. -/
theorem k3_pay7_apply (r : Fin 8000) (q : Fin 128) :
    k3_pay7 (F := Ideal) x0 x1 x2 x3 x4 x5 (ix2 r q) = Cert.GraphStep.mean (pre3 x0 x1 x2 x3 x4 x5 r) := by
  unfold k3_pay7
  rw [ColumnLayout.broadcastTo_a1_ab_apply]
  exact k3_pay3_apply x0 x1 x2 x3 x4 x5 r

/-- The mean of the squared deviations over a row, kept as a column. -/
theorem k3_pay4_apply (r : Fin 8000) :
    k3_pay4 (F := Ideal) x0 x1 x2 x3 x4 x5 (ix2 r (0 : Fin 1)) = Cert.GraphStep.var (pre3 x0 x1 x2 x3 x4 x5 r) := by
  unfold k3_pay4
  rw [divf_apply, ColumnLayout.shapeCast_a_a1_apply, laneSum3_apply, broadcast_apply]
  unfold Cert.GraphStep.var
  refine congrArg₂ Ideal.div (Finset.sum_congr rfl fun k _ => ?_) rfl
  rw [mulf_apply, subf_apply, ColumnLayout.broadcastTo_a1_ab_apply, k3_pay2_apply, k3_pay3_apply]

/-- **The body's stored value at an entry** is the update of the block's row at that feature. -/
theorem payload3_apply (r : Fin 8000) (q : Fin 128) :
    k3_pay1 (F := Ideal) (k3_pay2 x0 x1 x2 x3 x4 x5) (k3_pay4 x0 x1 x2 x3 x4 x5) (k3_pay5 x6) (k3_pay6 x7)
        (k3_pay7 x0 x1 x2 x3 x4 x5) (ix2 r q)
      = Cert.GraphStep.updRowK (fun k => x0 (ix2 r k)) (x1 (ix2 r 0)) (fun k => x2 (ix2 r k))
          (fun k q' => x3 (ix2 k q')) (fun k q' => x4 (ix2 k q')) (fun q' => x5 (ix2 0 q'))
          (fun q' => x6 (ix2 0 q')) (fun q' => x7 (ix2 0 q')) q := by
  unfold k3_pay1 k3_pay5 k3_pay6
  simp only [shapeCast_self]
  rw [maximumf_apply, addf_apply, mulf_apply, mulf_apply, subf_apply, broadcast_apply,
    broadcastTo_1b_ab_apply, broadcastTo_1b_ab_apply, ColumnLayout.broadcastTo_a1_ab_apply,
    k3_pay2_apply, k3_pay7_apply]
  show max ((_ - _) * Ideal.rsqrt (k3_pay4 (F := Ideal) x0 x1 x2 x3 x4 x5 (ix2 r (0 : Fin 1)) + _) * _ + _) _ = _
  rw [k3_pay4_apply]
  rfl

end Block

end Cert.KernelIdeal.Values

end
-- ==== Proof.KUpd3Blk.lean ====
/-
  From the blocks of 8000 rows to the whole array of 200000 rows.

  The grid has 25 points; point `t` reads rows `8000·t … 8000·t + 7999` of the three row-blocked arrays and the whole
  of the five small ones, and writes rows `8000·t … 8000·t + 7999` of the result. When the body's stored value at entry
  `(r, q)` of a block is a function `R` of the block's row `r` and the small arrays (the hypothesis `hpay`), every
  point writes its block of ONE whole-array function: entry `(p, q)` is `R` of the arrays' row `p`. Row `p` lies in
  block `p / 8000`, so the blocks cover the array and the array ends holding that function.
-/
import proofs.«165290_j80857054314575_2_alg».proof.Proof.Gen.KernelIdeal.Frame
import Idealize.ShloMosaic.Lib.Pipeline.Value
import Idealize.ShloMosaic.Lib.ValueIdx

noncomputable section

namespace Cert.KernelIdeal.Values

open Cert.KernelIdeal Cert.KernelIdeal.Gen Idealize.ShloMosaic Idealize.ShloMosaic.ValueIdx
open Idealize.ShloMosaic.TcCoe Idealize.SL.Sem
open Idealize.ShloMosaic.Pipeline (Dat)

theorem zeroOffsets3 : (![0, 0] : Fin 2 → Nat) = fun _ => 0 := funext fun a => by fin_cases a <;> rfl

/-- The printed index maps over the grid: the three row-blocked inputs and the output move with the point along the
    rows, the five small inputs stay at their whole array. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- The array's row under row `r` of the block at point `t`. -/
def arrRow3 (t : Fin cfg3.N) (r : Fin 8000) : Fin 200000 :=
  ⟨t.val * 8000 + r.val, by
    have h : t.val < 25 := Nat.lt_of_lt_of_eq t.isLt N_3
    have := r.isLt; omega⟩

section Arrays

variable (V : (c : Dev nD) → (b : Ref sig .tc) → Buf (Elt Ideal) ((c : Thread nD τ).loc b))

/-- Window 0's block at point `t`, at row `r`: the array's row `8000·t + r`. -/
theorem block3_0_apply (c : Dev nD) (t : Fin cfg3.N) (r : Fin 8000) (k : Fin 128) :
    (iblk3 V c 0 t : S8000x128.Idx → EReal) (ix2 r k) = (V c main_v66 : S200000x128.Idx → EReal) (ix2 (arrRow3 t r) k) := by
  obtain ⟨e0, e1, -, -, -, -, -, -, -, -, -, -, -, -, -, -, -, -⟩ := blockIndex3 t
  unfold iblk3
  rw [View.read_apply]
  show V c main_v66 _ = V c main_v66 _
  congr 1
  funext a
  apply Fin.ext
  match a with
  | ⟨0, _⟩ => show win3_0.index t (0 : Fin 2) * 8000 + 1 * r.val = t.val * 8000 + r.val; rw [e0]; omega
  | ⟨1, _⟩ => show win3_0.index t (1 : Fin 2) * 128 + 1 * k.val = k.val; rw [e1]; omega

/-- Window 1's block at point `t`, at row `r`: the array's row `8000·t + r`. -/
theorem block3_1_apply (c : Dev nD) (t : Fin cfg3.N) (r : Fin 8000) (k : Fin 1) :
    (iblk3 V c 1 t : S8000x1.Idx → EReal) (ix2 r k) = (V c main_v71 : S200000x1.Idx → EReal) (ix2 (arrRow3 t r) k) := by
  obtain ⟨-, -, e0, e1, -, -, -, -, -, -, -, -, -, -, -, -, -, -⟩ := blockIndex3 t
  unfold iblk3
  rw [View.read_apply]
  show V c main_v71 _ = V c main_v71 _
  congr 1
  funext a
  apply Fin.ext
  match a with
  | ⟨0, _⟩ => show win3_1.index t (0 : Fin 2) * 8000 + 1 * r.val = t.val * 8000 + r.val; rw [e0]; omega
  | ⟨1, _⟩ => show win3_1.index t (1 : Fin 2) * 1 + 1 * k.val = k.val; rw [e1]; omega

/-- Window 2's block at point `t`, at row `r`: the array's row `8000·t + r`. -/
theorem block3_2_apply (c : Dev nD) (t : Fin cfg3.N) (r : Fin 8000) (k : Fin 128) :
    (iblk3 V c 2 t : S8000x128.Idx → EReal) (ix2 r k) = (V c main_arg0 : S200000x128.Idx → EReal) (ix2 (arrRow3 t r) k) := by
  obtain ⟨-, -, -, -, e0, e1, -, -, -, -, -, -, -, -, -, -, -, -⟩ := blockIndex3 t
  unfold iblk3
  rw [View.read_apply]
  show V c main_arg0 _ = V c main_arg0 _
  congr 1
  funext a
  apply Fin.ext
  match a with
  | ⟨0, _⟩ => show win3_2.index t (0 : Fin 2) * 8000 + 1 * r.val = t.val * 8000 + r.val; rw [e0]; omega
  | ⟨1, _⟩ => show win3_2.index t (1 : Fin 2) * 128 + 1 * k.val = k.val; rw [e1]; omega

/-- Window 3's block at every point is its whole array. -/
theorem block3_3_apply (c : Dev nD) (t : Fin cfg3.N) (k : Fin 128) (q : Fin 128) :
    (iblk3 V c 3 t : S128x128.Idx → EReal) (ix2 k q) = (V c main_v73 : S128x128.Idx → EReal) (ix2 k q) := by
  obtain ⟨-, -, -, -, -, -, e0, e1, -, -, -, -, -, -, -, -, -, -⟩ := blockIndex3 t
  unfold iblk3
  rw [View.read_apply]
  show V c main_v73 _ = V c main_v73 _
  congr 1
  funext a
  apply Fin.ext
  match a with
  | ⟨0, _⟩ => show win3_3.index t (0 : Fin 2) * 128 + 1 * k.val = k.val; rw [e0]; omega
  | ⟨1, _⟩ => show win3_3.index t (1 : Fin 2) * 128 + 1 * q.val = q.val; rw [e1]; omega

/-- Window 4's block at every point is its whole array. -/
theorem block3_4_apply (c : Dev nD) (t : Fin cfg3.N) (k : Fin 128) (q : Fin 128) :
    (iblk3 V c 4 t : S128x128.Idx → EReal) (ix2 k q) = (V c main_v74 : S128x128.Idx → EReal) (ix2 k q) := by
  obtain ⟨-, -, -, -, -, -, -, -, e0, e1, -, -, -, -, -, -, -, -⟩ := blockIndex3 t
  unfold iblk3
  rw [View.read_apply]
  show V c main_v74 _ = V c main_v74 _
  congr 1
  funext a
  apply Fin.ext
  match a with
  | ⟨0, _⟩ => show win3_4.index t (0 : Fin 2) * 128 + 1 * k.val = k.val; rw [e0]; omega
  | ⟨1, _⟩ => show win3_4.index t (1 : Fin 2) * 128 + 1 * q.val = q.val; rw [e1]; omega

/-- Window 5's block at every point is its whole array. -/
theorem block3_5_apply (c : Dev nD) (t : Fin cfg3.N) (k : Fin 1) (q : Fin 128) :
    (iblk3 V c 5 t : S1x128.Idx → EReal) (ix2 k q) = (V c main_v75 : S1x128.Idx → EReal) (ix2 k q) := by
  obtain ⟨-, -, -, -, -, -, -, -, -, -, e0, e1, -, -, -, -, -, -⟩ := blockIndex3 t
  unfold iblk3
  rw [View.read_apply]
  show V c main_v75 _ = V c main_v75 _
  congr 1
  funext a
  apply Fin.ext
  match a with
  | ⟨0, _⟩ => show win3_5.index t (0 : Fin 2) * 1 + 1 * k.val = k.val; rw [e0]; omega
  | ⟨1, _⟩ => show win3_5.index t (1 : Fin 2) * 128 + 1 * q.val = q.val; rw [e1]; omega

/-- Window 6's block at every point is its whole array. -/
theorem block3_6_apply (c : Dev nD) (t : Fin cfg3.N) (k : Fin 1) (q : Fin 128) :
    (iblk3 V c 6 t : S1x128.Idx → EReal) (ix2 k q) = (V c main_v76 : S1x128.Idx → EReal) (ix2 k q) := by
  obtain ⟨-, -, -, -, -, -, -, -, -, -, -, -, e0, e1, -, -, -, -⟩ := blockIndex3 t
  unfold iblk3
  rw [View.read_apply]
  show V c main_v76 _ = V c main_v76 _
  congr 1
  funext a
  apply Fin.ext
  match a with
  | ⟨0, _⟩ => show win3_6.index t (0 : Fin 2) * 1 + 1 * k.val = k.val; rw [e0]; omega
  | ⟨1, _⟩ => show win3_6.index t (1 : Fin 2) * 128 + 1 * q.val = q.val; rw [e1]; omega

/-- Window 7's block at every point is its whole array. -/
theorem block3_7_apply (c : Dev nD) (t : Fin cfg3.N) (k : Fin 1) (q : Fin 128) :
    (iblk3 V c 7 t : S1x128.Idx → EReal) (ix2 k q) = (V c main_v77 : S1x128.Idx → EReal) (ix2 k q) := by
  obtain ⟨-, -, -, -, -, -, -, -, -, -, -, -, -, -, e0, e1, -, -⟩ := blockIndex3 t
  unfold iblk3
  rw [View.read_apply]
  show V c main_v77 _ = V c main_v77 _
  congr 1
  funext a
  apply Fin.ext
  match a with
  | ⟨0, _⟩ => show win3_7.index t (0 : Fin 2) * 1 + 1 * k.val = k.val; rw [e0]; omega
  | ⟨1, _⟩ => show win3_7.index t (1 : Fin 2) * 128 + 1 * q.val = q.val; rw [e1]; omega

variable (R : (Fin 128 → EReal) → EReal → (Fin 128 → EReal) → (Fin 128 → Fin 128 → EReal) → (Fin 128 → Fin 128 → EReal) → (Fin 128 → EReal) → (Fin 128 → EReal) → (Fin 128 → EReal) → Fin 128 → EReal)

/-- The whole result array as one function of the arrays the region finds: entry `(p, q)` is `R` of row `p`. -/
def whole3 (c : Dev nD) : S200000x128.Idx → EReal := fun i =>
  R (fun k => (V c main_v66 : S200000x128.Idx → EReal) (ix2 (i 0 : Fin 200000) k))
    ((V c main_v71 : S200000x1.Idx → EReal) (ix2 (i 0 : Fin 200000) (0 : Fin 1)))
    (fun k => (V c main_arg0 : S200000x128.Idx → EReal) (ix2 (i 0 : Fin 200000) k))
    (fun k q' => (V c main_v73 : S128x128.Idx → EReal) (ix2 k q'))
    (fun k q' => (V c main_v74 : S128x128.Idx → EReal) (ix2 k q'))
    (fun q' => (V c main_v75 : S1x128.Idx → EReal) (ix2 (0 : Fin 1) q'))
    (fun q' => (V c main_v76 : S1x128.Idx → EReal) (ix2 (0 : Fin 1) q'))
    (fun q' => (V c main_v77 : S1x128.Idx → EReal) (ix2 (0 : Fin 1) q'))
    (i 1 : Fin 128)

variable (hpay : ∀ (x0 : Vec Ideal S8000x128 .f32) (x1 : Vec Ideal S8000x1 .f32) (x2 : Vec Ideal S8000x128 .f32)
    (x3 x4 : Vec Ideal S128x128 .f32) (x5 x6 x7 : Vec Ideal S1x128 .f32) (r : Fin 8000) (q : Fin 128),
    k3_pay1 (F := Ideal) (k3_pay2 x0 x1 x2 x3 x4 x5) (k3_pay4 x0 x1 x2 x3 x4 x5) (k3_pay5 x6) (k3_pay6 x7)
        (k3_pay7 x0 x1 x2 x3 x4 x5) (ix2 r q)
      = R (fun k => x0 (ix2 r k)) (x1 (ix2 r (0 : Fin 1))) (fun k => x2 (ix2 r k)) (fun k q' => x3 (ix2 k q'))
          (fun k q' => x4 (ix2 k q')) (fun q' => x5 (ix2 (0 : Fin 1) q')) (fun q' => x6 (ix2 (0 : Fin 1) q'))
          (fun q' => x7 (ix2 (0 : Fin 1) q')) q)

include hpay in
/-- What point `t` writes back is block `t` of the whole-array function. -/
theorem flushed3_eq (c : Dev nD) (t : Fin cfg3.N) :
    (dat3 (F := Ideal) V c).flushed 8 t = ((cfg3.win 8).blk t).view.read (Elt Ideal) (whole3 V R c) := by
  show (cfg3.win 8).cut (grid3.coords t) ((dat3 V c).after 8 t) = _
  rw [after3_8]
  unfold out3_8
  rw [View.canon_unit_zero zeroOffsets3]
  simp only [View.ld_unit_zero (S := S8000x128) zeroOffsets3, View.ld_unit_zero (S := S8000x1) zeroOffsets3,
    View.ld_unit_zero (S := S128x128) zeroOffsets3, View.ld_unit_zero (S := S1x128) zeroOffsets3]
  funext j
  obtain ⟨r, q, rfl⟩ : ∃ (r : Fin 8000) (q : Fin 128), j = ix2 r q := ⟨j 0, j 1, eq_ix2 j⟩
  refine (hpay _ _ _ _ _ _ _ _ r q).trans ?_
  rw [View.read_apply]
  have he : ((cfg3.win 8).blk t).view.emb (ix2 r q) = (ix2 (arrRow3 t r) q : S200000x128.Idx) := by
    obtain ⟨-, -, -, -, -, -, -, -, -, -, -, -, -, -, -, -, e0, e1⟩ := blockIndex3 t
    funext a
    apply Fin.ext
    match a with
    | ⟨0, _⟩ => show win3_8.index t (0 : Fin 2) * 8000 + 1 * r.val = t.val * 8000 + r.val; rw [e0]; omega
    | ⟨1, _⟩ => show win3_8.index t (1 : Fin 2) * 128 + 1 * q.val = q.val; rw [e1]; omega
  simp only [block3_0_apply V c t, block3_1_apply V c t, block3_2_apply V c t, block3_3_apply V c t,
    block3_4_apply V c t, block3_5_apply V c t, block3_6_apply V c t, block3_7_apply V c t]
  show _ = whole3 V R c (((cfg3.win 8).blk t).view.emb (ix2 r q))
  rw [he]
  rfl

/-- An index of the array is in point `t`'s block iff each coordinate is in the block's range on its axis. -/
theorem mem_block3 (t : Fin cfg3.N) (i : S200000x128.Idx) :
    i ∈ ((cfg3.win 8).blk t).view.set ↔ ∀ a : Fin 2, win3_8.index t a * S8000x128.size a ≤ (i a).val ∧ (i a).val < win3_8.index t a * S8000x128.size a + S8000x128.size a := by
  show i ∈ ((View.whole main_v78).slice (win3_8.rect t)).set ↔ _
  rw [View.set_slice_whole, Rect.mem_set_unit]
  exact Iff.rfl

/-- Row `p` lies in block `p / 8000`: the blocks cover the array. -/
theorem cover3 (i : S200000x128.Idx) :
    ∃ t : Fin cfg3.N, (cfg3.win 8).flush t = true ∧ i ∈ ((cfg3.win 8).blk t).view.set := by
  have hi0 : (i 0).val < 200000 := (i 0).isLt
  have hi1 : (i 1).val < 128 := (i 1).isLt
  have ht : (i 0).val / 8000 < cfg3.N := by rw [show cfg3.N = 25 from N_3]; omega
  obtain ⟨-, -, -, -, -, -, -, -, -, -, -, -, -, -, -, -, e0, e1⟩ := blockIndex3 ⟨(i 0).val / 8000, ht⟩
  refine ⟨⟨(i 0).val / 8000, ht⟩, flush3_8 _, ?_⟩
  rw [mem_block3]
  intro a
  match a with
  | ⟨0, _⟩ =>
    show win3_8.index ⟨(i 0).val / 8000, ht⟩ (0 : Fin 2) * 8000 ≤ (i 0).val ∧ (i 0).val < win3_8.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win3_8.index ⟨(i 0).val / 8000, ht⟩ (1 : Fin 2) * 128 ≤ (i 1).val ∧ (i 1).val < win3_8.index ⟨(i 0).val / 8000, ht⟩ (1 : Fin 2) * 128 + 128
    rw [e1]
    omega

include hpay in
/-- **The result array after the region**, entry by entry: `R` of the arrays' row `p`, at feature `q`. -/
theorem array3_of_payload (c : Dev nD) (p : Fin 200000) (q : Fin 128) :
    (dat3 (F := Ideal) V c).arrAt 8 cfg3.N (ix2 p q)
      = R (fun k => (V c main_v66 : S200000x128.Idx → EReal) (ix2 p k))
          ((V c main_v71 : S200000x1.Idx → EReal) (ix2 p (0 : Fin 1)))
          (fun k => (V c main_arg0 : S200000x128.Idx → EReal) (ix2 p k))
          (fun k q' => (V c main_v73 : S128x128.Idx → EReal) (ix2 k q'))
          (fun k q' => (V c main_v74 : S128x128.Idx → EReal) (ix2 k q'))
          (fun q' => (V c main_v75 : S1x128.Idx → EReal) (ix2 (0 : Fin 1) q'))
          (fun q' => (V c main_v76 : S1x128.Idx → EReal) (ix2 (0 : Fin 1) q'))
          (fun q' => (V c main_v77 : S1x128.Idx → EReal) (ix2 (0 : Fin 1) q')) q := by
  have h := (dat3 (F := Ideal) V c).arrAt_eq_of_cover 8 (whole3 V R c) (fun t _ => flushed3_eq V R hpay c t) cover3
  exact (congrFun h (ix2 p q)).trans rfl

end Arrays

end Cert.KernelIdeal.Values

end
-- ==== Proof.KUpd3.lean ====
/-
  The result array of the update region over 200000 rows, entry by entry.

  Entry `(p, q)` of the array the region leaves is the update, in the arrangement that contracts the two weight halves
  separately and multiplies by the reciprocal square root, of row `p` of the aggregated messages, the edge counts and
  the nodes' own rows, with the whole weights, bias, scale and shift, at feature `q`: the body's stored value at an
  entry of a block is that update of the block's row, and the blocks of 8000 rows cover the array.
-/
import proofs.«165290_j80857054314575_2_alg».proof.Proof.Gen.KernelIdeal.Frame
import proofs.«165290_j80857054314575_2_alg».proof.Proof.Spec
import proofs.«165290_j80857054314575_2_alg».proof.Proof.LibPlainMatmul
import proofs.«165290_j80857054314575_2_alg».proof.Proof.LibColumnLayout
import proofs.«165290_j80857054314575_2_alg».proof.Proof.KUpd3Pay
import proofs.«165290_j80857054314575_2_alg».proof.Proof.KUpd3Blk

noncomputable section

namespace Cert.KernelIdeal.Values

open Cert.KernelIdeal Cert.KernelIdeal.Gen Idealize.ShloMosaic Idealize.ShloMosaic.ValueIdx
open Idealize.ShloMosaic.TcCoe Idealize.SL.Sem

/-- **The region's result**, at any entry contents `V`: the update of row `p` at feature `q`. -/
theorem final3 (V : (c : Dev nD) → (b : Ref sig .tc) → Buf (Elt Ideal) ((c : Thread nD τ).loc b)) (c : Dev nD)
    (p : Fin 200000) (q : Fin 128) :
    (dat3 (F := Ideal) V c).arrAt 8 cfg3.N (ix2 p q)
      = Cert.GraphStep.updRowK (fun k => (V c main_v66 : S200000x128.Idx → EReal) (ix2 p k))
          ((V c main_v71 : S200000x1.Idx → EReal) (ix2 p 0))
          (fun k => (V c main_arg0 : S200000x128.Idx → EReal) (ix2 p k))
          (fun k q' => (V c main_v73 : S128x128.Idx → EReal) (ix2 k q'))
          (fun k q' => (V c main_v74 : S128x128.Idx → EReal) (ix2 k q'))
          (fun q' => (V c main_v75 : S1x128.Idx → EReal) (ix2 0 q'))
          (fun q' => (V c main_v76 : S1x128.Idx → EReal) (ix2 0 q'))
          (fun q' => (V c main_v77 : S1x128.Idx → EReal) (ix2 0 q')) q :=
  array3_of_payload V Cert.GraphStep.updRowK payload3_apply c p q

end Cert.KernelIdeal.Values

end
-- ==== Proof.RefDense.lean ====
/-
  The reference program's two plain dense layers read at an entry: a row of the input against a row of the weight
  matrix (the program contracts with the transpose), plus the bias.
-/
import proofs.«165290_j80857054314575_2_alg».proof.Proof.Gen.ReferenceIdeal.Read
import proofs.«165290_j80857054314575_2_alg».proof.Proof.Spec

noncomputable section

namespace Cert.ReferenceIdeal.RefValue

open Cert.ReferenceIdeal Cert.ReferenceIdeal.Read Idealize.ShloMosaic Idealize.ShloMosaic.ValueIdx
open scoped BigOperators

variable (x0 : (⟨S200000x128, .f32⟩ : BufTy).Contents (Elt Ideal))
  (x1 : (⟨S50000x128, .f32⟩ : BufTy).Contents (Elt Ideal))
  (x2 : (⟨S2x600000, .i32⟩ : BufTy).Contents (Elt Ideal))
  (x3 : (⟨S600000, .f32⟩ : BufTy).Contents (Elt Ideal))
  (x4 : (⟨S128x128, .f32⟩ : BufTy).Contents (Elt Ideal))
  (x5 : (⟨S128, .f32⟩ : BufTy).Contents (Elt Ideal))
  (x6 : (⟨S128x1, .f32⟩ : BufTy).Contents (Elt Ideal))
  (x7 : (⟨S128, .f32⟩ : BufTy).Contents (Elt Ideal))
  (x8 : (⟨S128x256, .f32⟩ : BufTy).Contents (Elt Ideal))
  (x9 x10 x11 : (⟨S128, .f32⟩ : BufTy).Contents (Elt Ideal))
  (x12 : (⟨S128x128, .f32⟩ : BufTy).Contents (Elt Ideal))
  (x13 : (⟨S128, .f32⟩ : BufTy).Contents (Elt Ideal))
  (x14 : (⟨S128x1, .f32⟩ : BufTy).Contents (Elt Ideal))
  (x15 : (⟨S128, .f32⟩ : BufTy).Contents (Elt Ideal))
  (x16 : (⟨S128x256, .f32⟩ : BufTy).Contents (Elt Ideal))
  (x17 x18 x19 : (⟨S128, .f32⟩ : BufTy).Contents (Elt Ideal))

/-- The first dense layer at an entry: row `p` of the node features against row `q` of the weights, plus the bias. -/
theorem dense1_apply (p : Fin 200000) (q : Fin 128) :
    val_main_v20 (F := Ideal) x0 x4 x5 (ix2 p q)
      = Cert.GraphStep.denseRow (fun k => x0 (ix2 p k)) (fun k q' => x4 (ix2 q' k)) (fun q' => x5 (ix1 q')) q := by
  have el : ∀ k : Fin 128, lidx_main_v17 (ix2 p q) k = ix2 p k := fun k => funext fun a => Fin.ext (by match a with | ⟨0, _⟩ => rfl | ⟨1, _⟩ => rfl)
  have er : ∀ k : Fin 128, idx_main_v16 (ridx_main_v17 (ix2 p q) k) = ix2 q k := fun k => funext fun a => Fin.ext (by match a with | ⟨0, _⟩ => rfl | ⟨1, _⟩ => rfl)
  have eb : idx_main_v18 (idx_main_v19 (ix2 p q)) = ix1 q := funext fun a => Fin.ext (by match a with | ⟨0, _⟩ => rfl)
  rw [val_main_v20_apply, val_main_v17_apply, val_main_v19_apply, val_main_v18_apply, eb]
  simp only [val_main_v16_apply, el, er, Ideal.addf_def]
  rfl

/-- The second dense layer at an entry: row `p` of the updated constraint features against row `q` of the weights, plus the bias. -/
theorem dense2_apply (p : Fin 50000) (q : Fin 128) :
    val_main_v86 (F := Ideal) x0 x1 x2 x3 x4 x5 x6 x7 x8 x9 x10 x11 x12 x13 (ix2 p q)
      = Cert.GraphStep.denseRow (fun k => val_main_v70 (F := Ideal) x0 x1 x2 x3 x4 x5 x6 x7 x8 x9 x10 x11 (ix2 p k)) (fun k q' => x12 (ix2 q' k)) (fun q' => x13 (ix1 q')) q := by
  have el : ∀ k : Fin 128, lidx_main_v83 (ix2 p q) k = ix2 p k := fun k => funext fun a => Fin.ext (by match a with | ⟨0, _⟩ => rfl | ⟨1, _⟩ => rfl)
  have er : ∀ k : Fin 128, idx_main_v82 (ridx_main_v83 (ix2 p q) k) = ix2 q k := fun k => funext fun a => Fin.ext (by match a with | ⟨0, _⟩ => rfl | ⟨1, _⟩ => rfl)
  have eb : idx_main_v84 (idx_main_v85 (ix2 p q)) = ix1 q := funext fun a => Fin.ext (by match a with | ⟨0, _⟩ => rfl)
  rw [val_main_v86_apply, val_main_v83_apply, val_main_v85_apply, val_main_v84_apply, eb]
  simp only [val_main_v82_apply, el, er, Ideal.addf_def]
  rfl

end Cert.ReferenceIdeal.RefValue

end
-- ==== Proof.RefUpdC.lean ====
/-
  The reference program's update of a constraint node's feature row, read at an entry.

  The aggregated message row is divided by the clipped edge count, set side by side with the constraint's own row, contracted
  against the 256 rows of the transposed weights in one sum, and shifted by the bias; the resulting row of 128 features
  is centred by its mean, divided by the square root of its variance plus ε, scaled, shifted and clipped below at zero.
  Each named intermediate is identified with the corresponding function of the specification, bottom-up.
-/
import proofs.«165290_j80857054314575_2_alg».proof.Proof.Gen.ReferenceIdeal.Read
import proofs.«165290_j80857054314575_2_alg».proof.Proof.Spec
import proofs.«165290_j80857054314575_2_alg».proof.Proof.LibDenseRows

noncomputable section

namespace Cert.ReferenceIdeal.RefValue

open Cert.ReferenceIdeal Cert.ReferenceIdeal.Read Idealize.ShloMosaic Idealize.ShloMosaic.ValueIdx
open scoped BigOperators

variable (x0 : (⟨S200000x128, .f32⟩ : BufTy).Contents (Elt Ideal))
  (x1 : (⟨S50000x128, .f32⟩ : BufTy).Contents (Elt Ideal))
  (x2 : (⟨S2x600000, .i32⟩ : BufTy).Contents (Elt Ideal))
  (x3 : (⟨S600000, .f32⟩ : BufTy).Contents (Elt Ideal))
  (x4 : (⟨S128x128, .f32⟩ : BufTy).Contents (Elt Ideal))
  (x5 : (⟨S128, .f32⟩ : BufTy).Contents (Elt Ideal))
  (x6 : (⟨S128x1, .f32⟩ : BufTy).Contents (Elt Ideal))
  (x7 : (⟨S128, .f32⟩ : BufTy).Contents (Elt Ideal))
  (x8 : (⟨S128x256, .f32⟩ : BufTy).Contents (Elt Ideal))
  (x9 x10 x11 : (⟨S128, .f32⟩ : BufTy).Contents (Elt Ideal))
  (x12 : (⟨S128x128, .f32⟩ : BufTy).Contents (Elt Ideal))
  (x13 : (⟨S128, .f32⟩ : BufTy).Contents (Elt Ideal))
  (x14 : (⟨S128x1, .f32⟩ : BufTy).Contents (Elt Ideal))
  (x15 : (⟨S128, .f32⟩ : BufTy).Contents (Elt Ideal))
  (x16 : (⟨S128x256, .f32⟩ : BufTy).Contents (Elt Ideal))
  (x17 x18 x19 : (⟨S128, .f32⟩ : BufTy).Contents (Elt Ideal))

/-- The clipped edge count of row `p`: the larger of `1` and the count. -/
theorem clip1_apply (p : Fin 50000) :
    val_main_v36 (F := Ideal) x2 (ix1 p) = max Cert.GraphStep.one (val_main_v35 (F := Ideal) x2 (ix1 p)) := by
  rw [val_main_v36_apply, val_main_call0_v1_apply, val_main_call0_v0_apply, val_main_cst_5_apply, Ideal.maximumf_def, Ideal.ofBits_def]
  rfl

/-- The row `[s / max 1 c | o]` of width 256 at a column. -/
theorem cat1_apply (p : Fin 50000) (k : Fin 256) :
    val_main_v40 (F := Ideal) x0 x1 x2 x3 x4 x5 x6 x7 (ix2 p k)
      = Cert.GraphStep.catRow (fun k => val_main_v31 (F := Ideal) x0 x2 x3 x4 x5 x6 x7 (ix2 p k)) (max Cert.GraphStep.one (val_main_v35 (F := Ideal) x2 (ix1 p))) (fun k => x1 (ix2 p k)) k := by
  unfold val_main_v40 Cert.GraphStep.catRow
  by_cases h : k.val < 128
  · have ec : idx_main_v37 (idx_main_v38 (ix2 p (⟨k.val, h⟩ : Fin 128))) = ix1 p := funext fun a => Fin.ext (by match a with | ⟨0, _⟩ => rfl)
    rw [dif_pos h]
    refine (Cert.DenseRows.concatCols_left _ _ _ p k h).trans ?_
    rw [val_main_v39_apply, val_main_v38_apply, val_main_v37_apply, ec, clip1_apply, Ideal.hostDivf_def]
  · rw [dif_neg h]
    exact Cert.DenseRows.concatCols_right _ _ _ p k (by omega) (by omega)

/-- The dense layer of the update at an entry: the row of width 256 against row `q` of the weights, plus the bias. -/
theorem pre1_apply (p : Fin 50000) (q : Fin 128) :
    val_main_v45 (F := Ideal) x0 x1 x2 x3 x4 x5 x6 x7 x8 x9 (ix2 p q)
      = Cert.GraphStep.preR (fun k => val_main_v31 (F := Ideal) x0 x2 x3 x4 x5 x6 x7 (ix2 p k)) (val_main_v35 (F := Ideal) x2 (ix1 p)) (fun k => x1 (ix2 p k)) (fun k q' => x8 (ix2 q' k)) (fun q' => x9 (ix1 q')) q := by
  have el : ∀ k : Fin 256, lidx_main_v42 (ix2 p q) k = ix2 p k := fun k => funext fun a => Fin.ext (by match a with | ⟨0, _⟩ => rfl | ⟨1, _⟩ => rfl)
  have er : ∀ k : Fin 256, idx_main_v41 (ridx_main_v42 (ix2 p q) k) = ix2 q k := fun k => funext fun a => Fin.ext (by match a with | ⟨0, _⟩ => rfl | ⟨1, _⟩ => rfl)
  have eb : idx_main_v43 (idx_main_v44 (ix2 p q)) = ix1 q := funext fun a => Fin.ext (by match a with | ⟨0, _⟩ => rfl)
  rw [val_main_v45_apply, val_main_v42_apply, val_main_v44_apply, val_main_v43_apply, eb]
  simp only [val_main_v41_apply, el, er, cat1_apply, Ideal.addf_def]
  rfl

/-- The mean of the dense layer's row `p`. -/
theorem mean1_apply (p : Fin 50000) (z : Fin 1) :
    val_main_v49 (F := Ideal) x0 x1 x2 x3 x4 x5 x6 x7 x8 x9 (ix2 p z) = Cert.GraphStep.mean (fun q' => val_main_v45 (F := Ideal) x0 x1 x2 x3 x4 x5 x6 x7 x8 x9 (ix2 p q')) := by
  have e : ∀ k : Fin 128, idx_main_v46 (idx_main_v47 (ix2 p z)) k = ix2 p k := fun k => funext fun a => Fin.ext (by match a with | ⟨0, _⟩ => rfl | ⟨1, _⟩ => rfl)
  rw [val_main_v49_apply, val_main_v47_apply, val_main_v46_apply, val_main_v48_apply, val_main_cst_7_apply, val_main_cst_6_apply]
  simp only [e, Ideal.hostDivf_def, Ideal.ofBits_def, Ideal.ofBits_zero_f32, zero_add]
  rfl

/-- The variance of the dense layer's row `p`: the mean of the squared deviations from the mean. -/
theorem var1_apply (p : Fin 50000) (z : Fin 1) :
    val_main_v56 (F := Ideal) x0 x1 x2 x3 x4 x5 x6 x7 x8 x9 (ix2 p z) = Cert.GraphStep.var (fun q' => val_main_v45 (F := Ideal) x0 x1 x2 x3 x4 x5 x6 x7 x8 x9 (ix2 p q')) := by
  have e : ∀ k : Fin 128, idx_main_v53 (idx_main_v54 (ix2 p z)) k = ix2 p k := fun k => funext fun a => Fin.ext (by match a with | ⟨0, _⟩ => rfl | ⟨1, _⟩ => rfl)
  have em : ∀ k : Fin 128, idx_main_v50 (ix2 p k) = ix2 p (⟨0, Nat.one_pos⟩ : Fin 1) := fun k => funext fun a => Fin.ext (by match a with | ⟨0, _⟩ => rfl | ⟨1, _⟩ => rfl)
  rw [val_main_v56_apply, val_main_v54_apply, val_main_v53_apply, val_main_v55_apply, val_main_cst_9_apply, val_main_cst_8_apply]
  simp only [e, val_main_v52_apply, val_main_v51_apply, val_main_v50_apply, em, mean1_apply, Ideal.hostDivf_def, Ideal.mulf_def,
    Ideal.subf_def, Ideal.ofBits_def, Ideal.ofBits_zero_f32, zero_add]
  rfl

/-- The updated feature row of a constraint node at an entry. -/
theorem upd1_apply (p : Fin 50000) (q : Fin 128) :
    val_main_v70 (F := Ideal) x0 x1 x2 x3 x4 x5 x6 x7 x8 x9 x10 x11 (ix2 p q)
      = Cert.GraphStep.updRowR (fun k => val_main_v31 (F := Ideal) x0 x2 x3 x4 x5 x6 x7 (ix2 p k)) (val_main_v35 (F := Ideal) x2 (ix1 p))
          (fun k => x1 (ix2 p k)) (fun k q' => x8 (ix2 q' k)) (fun q' => x9 (ix1 q')) (fun q' => x10 (ix1 q')) (fun q' => x11 (ix1 q')) q := by
  have em : idx_main_v57 (ix2 p q) = ix2 p (⟨0, Nat.one_pos⟩ : Fin 1) := funext fun a => Fin.ext (by match a with | ⟨0, _⟩ => rfl | ⟨1, _⟩ => rfl)
  have es : idx_main_v62 (ix2 p q) = ix2 p (⟨0, Nat.one_pos⟩ : Fin 1) := funext fun a => Fin.ext (by match a with | ⟨0, _⟩ => rfl | ⟨1, _⟩ => rfl)
  have eg : idx_main_v64 (idx_main_v65 (ix2 p q)) = ix1 q := funext fun a => Fin.ext (by match a with | ⟨0, _⟩ => rfl)
  have eh : idx_main_v67 (idx_main_v68 (ix2 p q)) = ix1 q := funext fun a => Fin.ext (by match a with | ⟨0, _⟩ => rfl)
  have ey : (fun q' => val_main_v45 (F := Ideal) x0 x1 x2 x3 x4 x5 x6 x7 x8 x9 (ix2 p q'))
      = Cert.GraphStep.preR (fun k => val_main_v31 (F := Ideal) x0 x2 x3 x4 x5 x6 x7 (ix2 p k)) (val_main_v35 (F := Ideal) x2 (ix1 p)) (fun k => x1 (ix2 p k)) (fun k q' => x8 (ix2 q' k)) (fun q' => x9 (ix1 q')) :=
    funext fun q' => pre1_apply x0 x1 x2 x3 x4 x5 x6 x7 x8 x9 p q'
  rw [val_main_v70_apply, val_main_v69_apply, val_main_v66_apply, val_main_v63_apply, val_main_v58_apply, val_main_v57_apply, val_main_v62_apply, val_main_v61_apply, val_main_v60_apply, val_main_v59_apply,
    val_main_cst_10_apply, val_main_v65_apply, val_main_v64_apply, val_main_v68_apply, val_main_v67_apply, val_main_call1_v0_apply, val_main_call1_cst_apply, em, es, eg, eh,
    mean1_apply, var1_apply]
  unfold Cert.GraphStep.updRowR
  rw [← ey]
  unfold Cert.GraphStep.normR
  simp only [Ideal.maximumf_def, Ideal.addf_def, Ideal.mulf_def, Ideal.hostDivf_def, Ideal.subf_def, Ideal.hostUnary_sqrt_def,
    Ideal.ofBits_def]
  rfl

end Cert.ReferenceIdeal.RefValue

end
-- ==== Proof.RefUpdV.lean ====
/-
  The reference program's update of a variable node's feature row, read at an entry.

  The aggregated message row is divided by the clipped edge count, set side by side with the variable's own row, contracted
  against the 256 rows of the transposed weights in one sum, and shifted by the bias; the resulting row of 128 features
  is centred by its mean, divided by the square root of its variance plus ε, scaled, shifted and clipped below at zero.
  Each named intermediate is identified with the corresponding function of the specification, bottom-up.
-/
import proofs.«165290_j80857054314575_2_alg».proof.Proof.Gen.ReferenceIdeal.Read
import proofs.«165290_j80857054314575_2_alg».proof.Proof.Spec
import proofs.«165290_j80857054314575_2_alg».proof.Proof.LibDenseRows

noncomputable section

namespace Cert.ReferenceIdeal.RefValue

open Cert.ReferenceIdeal Cert.ReferenceIdeal.Read Idealize.ShloMosaic Idealize.ShloMosaic.ValueIdx
open scoped BigOperators

variable (x0 : (⟨S200000x128, .f32⟩ : BufTy).Contents (Elt Ideal))
  (x1 : (⟨S50000x128, .f32⟩ : BufTy).Contents (Elt Ideal))
  (x2 : (⟨S2x600000, .i32⟩ : BufTy).Contents (Elt Ideal))
  (x3 : (⟨S600000, .f32⟩ : BufTy).Contents (Elt Ideal))
  (x4 : (⟨S128x128, .f32⟩ : BufTy).Contents (Elt Ideal))
  (x5 : (⟨S128, .f32⟩ : BufTy).Contents (Elt Ideal))
  (x6 : (⟨S128x1, .f32⟩ : BufTy).Contents (Elt Ideal))
  (x7 : (⟨S128, .f32⟩ : BufTy).Contents (Elt Ideal))
  (x8 : (⟨S128x256, .f32⟩ : BufTy).Contents (Elt Ideal))
  (x9 x10 x11 : (⟨S128, .f32⟩ : BufTy).Contents (Elt Ideal))
  (x12 : (⟨S128x128, .f32⟩ : BufTy).Contents (Elt Ideal))
  (x13 : (⟨S128, .f32⟩ : BufTy).Contents (Elt Ideal))
  (x14 : (⟨S128x1, .f32⟩ : BufTy).Contents (Elt Ideal))
  (x15 : (⟨S128, .f32⟩ : BufTy).Contents (Elt Ideal))
  (x16 : (⟨S128x256, .f32⟩ : BufTy).Contents (Elt Ideal))
  (x17 x18 x19 : (⟨S128, .f32⟩ : BufTy).Contents (Elt Ideal))

/-- The clipped edge count of row `p`: the larger of `1` and the count. -/
theorem clip2_apply (p : Fin 200000) :
    val_main_v102 (F := Ideal) x2 (ix1 p) = max Cert.GraphStep.one (val_main_v101 (F := Ideal) x2 (ix1 p)) := by
  rw [val_main_v102_apply, val_main_call2_v1_apply, val_main_call2_v0_apply, val_main_cst_18_apply, Ideal.maximumf_def, Ideal.ofBits_def]
  rfl

/-- The row `[s / max 1 c | o]` of width 256 at a column. -/
theorem cat2_apply (p : Fin 200000) (k : Fin 256) :
    val_main_v106 (F := Ideal) x0 x1 x2 x3 x4 x5 x6 x7 x8 x9 x10 x11 x12 x13 x14 x15 (ix2 p k)
      = Cert.GraphStep.catRow (fun k => val_main_v97 (F := Ideal) x0 x1 x2 x3 x4 x5 x6 x7 x8 x9 x10 x11 x12 x13 x14 x15 (ix2 p k)) (max Cert.GraphStep.one (val_main_v101 (F := Ideal) x2 (ix1 p))) (fun k => x0 (ix2 p k)) k := by
  unfold val_main_v106 Cert.GraphStep.catRow
  by_cases h : k.val < 128
  · have ec : idx_main_v103 (idx_main_v104 (ix2 p (⟨k.val, h⟩ : Fin 128))) = ix1 p := funext fun a => Fin.ext (by match a with | ⟨0, _⟩ => rfl)
    rw [dif_pos h]
    refine (Cert.DenseRows.concatCols_left _ _ _ p k h).trans ?_
    rw [val_main_v105_apply, val_main_v104_apply, val_main_v103_apply, ec, clip2_apply, Ideal.hostDivf_def]
  · rw [dif_neg h]
    exact Cert.DenseRows.concatCols_right _ _ _ p k (by omega) (by omega)

/-- The dense layer of the update at an entry: the row of width 256 against row `q` of the weights, plus the bias. -/
theorem pre2_apply (p : Fin 200000) (q : Fin 128) :
    val_main_v111 (F := Ideal) x0 x1 x2 x3 x4 x5 x6 x7 x8 x9 x10 x11 x12 x13 x14 x15 x16 x17 (ix2 p q)
      = Cert.GraphStep.preR (fun k => val_main_v97 (F := Ideal) x0 x1 x2 x3 x4 x5 x6 x7 x8 x9 x10 x11 x12 x13 x14 x15 (ix2 p k)) (val_main_v101 (F := Ideal) x2 (ix1 p)) (fun k => x0 (ix2 p k)) (fun k q' => x16 (ix2 q' k)) (fun q' => x17 (ix1 q')) q := by
  have el : ∀ k : Fin 256, lidx_main_v108 (ix2 p q) k = ix2 p k := fun k => funext fun a => Fin.ext (by match a with | ⟨0, _⟩ => rfl | ⟨1, _⟩ => rfl)
  have er : ∀ k : Fin 256, idx_main_v107 (ridx_main_v108 (ix2 p q) k) = ix2 q k := fun k => funext fun a => Fin.ext (by match a with | ⟨0, _⟩ => rfl | ⟨1, _⟩ => rfl)
  have eb : idx_main_v109 (idx_main_v110 (ix2 p q)) = ix1 q := funext fun a => Fin.ext (by match a with | ⟨0, _⟩ => rfl)
  rw [val_main_v111_apply, val_main_v108_apply, val_main_v110_apply, val_main_v109_apply, eb]
  simp only [val_main_v107_apply, el, er, cat2_apply, Ideal.addf_def]
  rfl

/-- The mean of the dense layer's row `p`. -/
theorem mean2_apply (p : Fin 200000) (z : Fin 1) :
    val_main_v115 (F := Ideal) x0 x1 x2 x3 x4 x5 x6 x7 x8 x9 x10 x11 x12 x13 x14 x15 x16 x17 (ix2 p z) = Cert.GraphStep.mean (fun q' => val_main_v111 (F := Ideal) x0 x1 x2 x3 x4 x5 x6 x7 x8 x9 x10 x11 x12 x13 x14 x15 x16 x17 (ix2 p q')) := by
  have e : ∀ k : Fin 128, idx_main_v112 (idx_main_v113 (ix2 p z)) k = ix2 p k := fun k => funext fun a => Fin.ext (by match a with | ⟨0, _⟩ => rfl | ⟨1, _⟩ => rfl)
  rw [val_main_v115_apply, val_main_v113_apply, val_main_v112_apply, val_main_v114_apply, val_main_cst_20_apply, val_main_cst_19_apply]
  simp only [e, Ideal.hostDivf_def, Ideal.ofBits_def, Ideal.ofBits_zero_f32, zero_add]
  rfl

/-- The variance of the dense layer's row `p`: the mean of the squared deviations from the mean. -/
theorem var2_apply (p : Fin 200000) (z : Fin 1) :
    val_main_v122 (F := Ideal) x0 x1 x2 x3 x4 x5 x6 x7 x8 x9 x10 x11 x12 x13 x14 x15 x16 x17 (ix2 p z) = Cert.GraphStep.var (fun q' => val_main_v111 (F := Ideal) x0 x1 x2 x3 x4 x5 x6 x7 x8 x9 x10 x11 x12 x13 x14 x15 x16 x17 (ix2 p q')) := by
  have e : ∀ k : Fin 128, idx_main_v119 (idx_main_v120 (ix2 p z)) k = ix2 p k := fun k => funext fun a => Fin.ext (by match a with | ⟨0, _⟩ => rfl | ⟨1, _⟩ => rfl)
  have em : ∀ k : Fin 128, idx_main_v116 (ix2 p k) = ix2 p (⟨0, Nat.one_pos⟩ : Fin 1) := fun k => funext fun a => Fin.ext (by match a with | ⟨0, _⟩ => rfl | ⟨1, _⟩ => rfl)
  rw [val_main_v122_apply, val_main_v120_apply, val_main_v119_apply, val_main_v121_apply, val_main_cst_22_apply, val_main_cst_21_apply]
  simp only [e, val_main_v118_apply, val_main_v117_apply, val_main_v116_apply, em, mean2_apply, Ideal.hostDivf_def, Ideal.mulf_def,
    Ideal.subf_def, Ideal.ofBits_def, Ideal.ofBits_zero_f32, zero_add]
  rfl

/-- The updated feature row of a variable node at an entry. -/
theorem upd2_apply (p : Fin 200000) (q : Fin 128) :
    val_main_v136 (F := Ideal) x0 x1 x2 x3 x4 x5 x6 x7 x8 x9 x10 x11 x12 x13 x14 x15 x16 x17 x18 x19 (ix2 p q)
      = Cert.GraphStep.updRowR (fun k => val_main_v97 (F := Ideal) x0 x1 x2 x3 x4 x5 x6 x7 x8 x9 x10 x11 x12 x13 x14 x15 (ix2 p k)) (val_main_v101 (F := Ideal) x2 (ix1 p))
          (fun k => x0 (ix2 p k)) (fun k q' => x16 (ix2 q' k)) (fun q' => x17 (ix1 q')) (fun q' => x18 (ix1 q')) (fun q' => x19 (ix1 q')) q := by
  have em : idx_main_v123 (ix2 p q) = ix2 p (⟨0, Nat.one_pos⟩ : Fin 1) := funext fun a => Fin.ext (by match a with | ⟨0, _⟩ => rfl | ⟨1, _⟩ => rfl)
  have es : idx_main_v128 (ix2 p q) = ix2 p (⟨0, Nat.one_pos⟩ : Fin 1) := funext fun a => Fin.ext (by match a with | ⟨0, _⟩ => rfl | ⟨1, _⟩ => rfl)
  have eg : idx_main_v130 (idx_main_v131 (ix2 p q)) = ix1 q := funext fun a => Fin.ext (by match a with | ⟨0, _⟩ => rfl)
  have eh : idx_main_v133 (idx_main_v134 (ix2 p q)) = ix1 q := funext fun a => Fin.ext (by match a with | ⟨0, _⟩ => rfl)
  have ey : (fun q' => val_main_v111 (F := Ideal) x0 x1 x2 x3 x4 x5 x6 x7 x8 x9 x10 x11 x12 x13 x14 x15 x16 x17 (ix2 p q'))
      = Cert.GraphStep.preR (fun k => val_main_v97 (F := Ideal) x0 x1 x2 x3 x4 x5 x6 x7 x8 x9 x10 x11 x12 x13 x14 x15 (ix2 p k)) (val_main_v101 (F := Ideal) x2 (ix1 p)) (fun k => x0 (ix2 p k)) (fun k q' => x16 (ix2 q' k)) (fun q' => x17 (ix1 q')) :=
    funext fun q' => pre2_apply x0 x1 x2 x3 x4 x5 x6 x7 x8 x9 x10 x11 x12 x13 x14 x15 x16 x17 p q'
  rw [val_main_v136_apply, val_main_v135_apply, val_main_v132_apply, val_main_v129_apply, val_main_v124_apply, val_main_v123_apply, val_main_v128_apply, val_main_v127_apply, val_main_v126_apply, val_main_v125_apply,
    val_main_cst_23_apply, val_main_v131_apply, val_main_v130_apply, val_main_v134_apply, val_main_v133_apply, val_main_call3_v0_apply, val_main_call3_cst_apply, em, es, eg, eh,
    mean2_apply, var2_apply]
  unfold Cert.GraphStep.updRowR
  rw [← ey]
  unfold Cert.GraphStep.normR
  simp only [Ideal.maximumf_def, Ideal.addf_def, Ideal.mulf_def, Ideal.hostDivf_def, Ideal.subf_def, Ideal.hostUnary_sqrt_def,
    Ideal.ofBits_def]
  rfl

end Cert.ReferenceIdeal.RefValue

end
-- ==== Proof.RefStages.lean ====
/-
  The reference program's four dense and update stages read at an entry, gathered: the two plain dense layers
  (`dense1_apply`, `dense2_apply`) and the two node updates (`upd1_apply`, `upd2_apply`).
-/
import proofs.«165290_j80857054314575_2_alg».proof.Proof.RefDense
import proofs.«165290_j80857054314575_2_alg».proof.Proof.RefUpdC
import proofs.«165290_j80857054314575_2_alg».proof.Proof.RefUpdV
-- ==== Proof.lean ====
/-
  Equivalence over the extended reals of a bipartite message-passing step written with four pipelined regions
  (dense, update, dense, update) against its array-level reference.

  Variable nodes carry rows `vh`, constraint nodes rows `ch`; each edge joins one of each and carries a weight. One step
  sends a gated dense image of the variables' rows along the edges, averages them at each constraint (the sum over the
  constraint's edges over its clipped edge count), and updates the constraint's row by a dense layer over the pair
  [average | own row], a normalisation over the 128 features, a scale, a shift and a clip at zero; then does the same
  from the updated constraints back to the variables.

  The kernel program computes the two dense images and the two updates in regions that stream blocks of rows, with the
  average's division folded into the update, the 256-wide contraction done as two 128-wide ones, and the normalisation
  by a reciprocal square root. The gather, the gate and the segment sums between the regions are the reference's own
  operations on the same inputs. At the extended reals the two programs' results are equal entry by entry:
   • a dense region's entry and the reference's are one sum (a block of rows is a restriction of the whole array);
   • the shared host operations take equal inputs to equal outputs;
   • an update region's entry is the first arrangement of `Cert.GraphStep` and the reference's the second, joined by
     `updRowR_eq_updRowK`: a sum over 256 positions is the sum over the first 128 plus the sum over the last 128, and
     `x · rsqrt r = x / sqrt r` for the positive radicand `variance + ε`. Nothing needs the inputs to be finite.
  The kernel's idealization rewrote no operation, so what it preserves is trivially true.
-/
import proofs.«165290_j80857054314575_2_alg».proof.Defs
import proofs.«165290_j80857054314575_2_alg».proof.Proof.Gen.Kernel
import proofs.«165290_j80857054314575_2_alg».proof.Proof.Gen.Kernel.Frame
import proofs.«165290_j80857054314575_2_alg».proof.Proof.Gen.KernelIdeal
import proofs.«165290_j80857054314575_2_alg».proof.Proof.Gen.KernelIdeal.Frame
import proofs.«165290_j80857054314575_2_alg».proof.Proof.Gen.ReferenceIdeal
import proofs.«165290_j80857054314575_2_alg».proof.Proof.Gen.ReferenceIdeal.Read
import proofs.«165290_j80857054314575_2_alg».proof.Proof.Gen.Pre_finite_inputs
import proofs.«165290_j80857054314575_2_alg».proof.Proof.KRun
import proofs.«165290_j80857054314575_2_alg».proof.Proof.KStages
import proofs.«165290_j80857054314575_2_alg».proof.Proof.KDense0
import proofs.«165290_j80857054314575_2_alg».proof.Proof.KDense2
import proofs.«165290_j80857054314575_2_alg».proof.Proof.KUpd1
import proofs.«165290_j80857054314575_2_alg».proof.Proof.KUpd3
import proofs.«165290_j80857054314575_2_alg».proof.Proof.RefStages
import Idealize.ShloMosaic.Adequacy
import Idealize.ShloMosaic.Init

set_option maxRecDepth 16384

noncomputable section

namespace Cert.Proof

open Idealize.ShloMosaic Idealize.SL.Sem
open Cert.KernelIdeal.Values Cert.ReferenceIdeal.Read Cert.ReferenceIdeal.RefValue

/-- The word-level program runs and leaves its arguments as launched. -/
theorem frame_kernel : Cert.frame_Kernel := fun m ρ _ => Cert.Kernel.Gen.frame m ρ

/-- The idealized program runs and leaves its arguments as launched. -/
theorem frame_kernelIdeal : Cert.frame_KernelIdeal := fun m ρ _ => Cert.KernelIdeal.Gen.frame m ρ

/-- The reference runs and leaves its arguments as launched: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

set_option maxHeartbeats 16000000 in
/-- Both programs, from memories that agree on the arguments, end with the new variable features and the new constraint
    features at the reference's values of the arguments. -/
theorem algebraic : Cert.algebraic_KernelIdeal_ReferenceIdeal := by
  intro m ρ m' ρ' _ hagree
  refine ⟨fun c => val_main_v136 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (run_all (F := Ideal) m ρ)
    have h7 := stage_dense1 m ρ c (final0 (Cert.KernelIdeal.Gen.V1 m ρ) c) (dense1_apply _ _ _)
    have h41 := stage_upd1 m ρ c h7 (final1 (Cert.KernelIdeal.Gen.V3 m ρ) c) (upd1_apply _ _ _ _ _ _ _ _ _ _ _ _)
    have h44 := stage_dense2 m ρ c h41 (final2 (Cert.KernelIdeal.Gen.V5 m ρ) c) (dense2_apply _ _ _ _ _ _ _ _ _ _ _ _ _ _)
    have h78 := stage_upd2 m ρ c h44 (final3 (Cert.KernelIdeal.Gen.V7 m ρ) c)
      (upd2_apply _ _ _ _ _ _ _ _ _ _ _ _ _ _ _ _ _ _ _ _)
    exact ⟨(h c _ (mem_all Cert.KernelIdeal.main_v78 (by decide))).trans h78,
        (h c _ (mem_all Cert.KernelIdeal.main_v41 (by decide))).trans ((W8_v41 m ρ c).trans h41),
        (h c _ (mem_all Cert.KernelIdeal.main_arg0 (by decide))).trans (Cert.KernelIdeal.Gen.W8_main_arg0 m ρ c),
        (h c _ (mem_all Cert.KernelIdeal.main_arg1 (by decide))).trans (Cert.KernelIdeal.Gen.W8_main_arg1 m ρ c),
        (h c _ (mem_all Cert.KernelIdeal.main_arg2 (by decide))).trans (Cert.KernelIdeal.Gen.W8_main_arg2 m ρ c),
        (h c _ (mem_all Cert.KernelIdeal.main_arg3 (by decide))).trans (Cert.KernelIdeal.Gen.W8_main_arg3 m ρ c),
        (h c _ (mem_all Cert.KernelIdeal.main_arg4 (by decide))).trans (Cert.KernelIdeal.Gen.W8_main_arg4 m ρ c),
        (h c _ (mem_all Cert.KernelIdeal.main_arg5 (by decide))).trans (Cert.KernelIdeal.Gen.W8_main_arg5 m ρ c),
        (h c _ (mem_all Cert.KernelIdeal.main_arg6 (by decide))).trans (Cert.KernelIdeal.Gen.W8_main_arg6 m ρ c),
        (h c _ (mem_all Cert.KernelIdeal.main_arg7 (by decide))).trans (Cert.KernelIdeal.Gen.W8_main_arg7 m ρ c),
        (h c _ (mem_all Cert.KernelIdeal.main_arg8 (by decide))).trans (Cert.KernelIdeal.Gen.W8_main_arg8 m ρ c),
        (h c _ (mem_all Cert.KernelIdeal.main_arg9 (by decide))).trans (Cert.KernelIdeal.Gen.W8_main_arg9 m ρ c),
        (h c _ (mem_all Cert.KernelIdeal.main_arg10 (by decide))).trans (Cert.KernelIdeal.Gen.W8_main_arg10 m ρ c),
        (h c _ (mem_all Cert.KernelIdeal.main_arg11 (by decide))).trans (Cert.KernelIdeal.Gen.W8_main_arg11 m ρ c),
        (h c _ (mem_all Cert.KernelIdeal.main_arg12 (by decide))).trans (Cert.KernelIdeal.Gen.W8_main_arg12 m ρ c),
        (h c _ (mem_all Cert.KernelIdeal.main_arg13 (by decide))).trans (Cert.KernelIdeal.Gen.W8_main_arg13 m ρ c),
        (h c _ (mem_all Cert.KernelIdeal.main_arg14 (by decide))).trans (Cert.KernelIdeal.Gen.W8_main_arg14 m ρ c),
        (h c _ (mem_all Cert.KernelIdeal.main_arg15 (by decide))).trans (Cert.KernelIdeal.Gen.W8_main_arg15 m ρ c),
        (h c _ (mem_all Cert.KernelIdeal.main_arg16 (by decide))).trans (Cert.KernelIdeal.Gen.W8_main_arg16 m ρ c),
        (h c _ (mem_all Cert.KernelIdeal.main_arg17 (by decide))).trans (Cert.KernelIdeal.Gen.W8_main_arg17 m ρ c),
        (h c _ (mem_all Cert.KernelIdeal.main_arg18 (by decide))).trans (Cert.KernelIdeal.Gen.W8_main_arg18 m ρ c),
        (h c _ (mem_all Cert.KernelIdeal.main_arg19 (by decide))).trans (Cert.KernelIdeal.Gen.W8_main_arg19 m ρ c)⟩
  · refine (θ_run Cert.ReferenceIdeal.defs _ _).mono
      (fun r h c => ⟨(h c).1.trans ?_, (h c).2.1.trans ?_, (h c).2.2⟩)
      (Cert.ReferenceIdeal.Value.run (F := Ideal) m' ρ')
    · rw [val_main_v136_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]
    · rw [val_main_v70_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
